-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0_5)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v0_7)) (v5 : (c : Dev Cert.KernelIdeal.nD) → Buf (Elt Ideal) ((c.tc : Thread Cert.KernelIdeal.nD Cert.KernelIdeal.τ).loc Cert.KernelIdeal.main_v2_2)) (v6 : (c : Dev Cert.KernelIdeal.nD) → Buf (Elt Ideal) ((c.tc : Thread Cert.KernelIdeal.nD Cert.KernelIdeal.τ).loc Cert.KernelIdeal.main_v2_3)) (v7 : (c : Dev Cert.KernelIdeal.nD) → Buf (Elt Ideal) ((c.tc : Thread Cert.KernelIdeal.nD Cert.KernelIdeal.τ).loc Cert.KernelIdeal.main_v0_8)) (v8 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_5) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v0_7) = v4 c
          ∧ r.2.mem ((c.tc : Thread Cert.KernelIdeal.nD Cert.KernelIdeal.τ).loc Cert.KernelIdeal.main_v2_2) = v5 c
          ∧ r.2.mem ((c.tc : Thread Cert.KernelIdeal.nD Cert.KernelIdeal.τ).loc Cert.KernelIdeal.main_v2_3) = v6 c
          ∧ r.2.mem ((c.tc : Thread Cert.KernelIdeal.nD Cert.KernelIdeal.τ).loc Cert.KernelIdeal.main_v0_8) = v7 c
          ∧ r.2.mem ((c.tc : Thread Cert.KernelIdeal.nD Cert.KernelIdeal.τ).loc Cert.KernelIdeal.main_v1) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_v84) = v5 c
          ∧ r.2.mem ((c.tc : Thread Cert.ReferenceIdeal.nD Cert.ReferenceIdeal.τ).loc Cert.ReferenceIdeal.main_v74) = v6 c
          ∧ r.2.mem ((c.tc : Thread Cert.ReferenceIdeal.nD Cert.ReferenceIdeal.τ).loc Cert.ReferenceIdeal.main_v89) = v7 c
          ∧ r.2.mem ((c.tc : Thread Cert.ReferenceIdeal.nD Cert.ReferenceIdeal.τ).loc Cert.ReferenceIdeal.main_v115) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S512x512 : Shape := ⟨2, ![512, 512]⟩
abbrev S512 : Shape := ⟨1, ![512]⟩
abbrev S128x512x512 : Shape := ⟨3, ![128, 512, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S128x512x512 : S_.BroadcastsInDim S128x512x512 (![] : Fin 0 → Fin S128x512x512.rank)
  reducesTo_S128x512x512_S_d0_1_2 : S128x512x512.ReducesTo [0, 1, 2] S_

variable [Facts]

def fn_part5 {F : FTy → Type} [FloatOps F] (main_arg18 : FVec F S128x512x512 .f32) (main_arg19 : FVec F S128x512 .f32) (main_v83 : IVec S_ 1) (main_v84 : FVec F S128x512x512 .f32) (main_cst_32 : FVec F S_ .f32) : IVec S_ 1 :=
  let main_v85 : FVec F S128x512x512 .f32 := broadcastInDim S128x512x512 ![] bcast_S_S128x512x512 main_cst_32
  let main_v86 : IVec S128x512x512 1 := cmpf .olt main_v84 main_v85
  let main_c_33 : IVec S_ 1 := constantI S_ 1 1#1
  let main_v87 : IVec S_ 1 := (fun x v => Host.reduce IntOp.andi x v reducesTo_S128x512x512_S_d0_1_2 h_S_) main_v86 main_c_33
  let main_v88 : IVec S_ 1 := andi main_v83 main_v87
  let main_v89 : FVec F S128x512x512 .f32 := Host.absf main_arg18
  let main_cst_34 : FVec F S_ .f32 := constant S_ .f32 0x7F800000#32
  let main_v90 : FVec F S128x512x512 .f32 := broadcastInDim S128x512x512 ![] bcast_S_S128x512x512 main_cst_34
  let main_v91 : IVec S128x512x512 1 := cmpf .olt main_v89 main_v90
  let main_c_35 : IVec S_ 1 := constantI S_ 1 1#1
  let main_v92 : IVec S_ 1 := (fun x v => Host.reduce IntOp.andi x v reducesTo_S128x512x512_S_d0_1_2 h_S_) main_v91 main_c_35
  let main_v93 : IVec S_ 1 := andi main_v88 main_v92
  let main_v94 : FVec F S128x512 .f32 := Host.absf main_arg19
  let main_cst_36 : FVec F S_ .f32 := constant S_ .f32 0x7F800000#32
  let main_v95 : FVec F S128x512 .f32 := broadcastInDim S128x512 ![] bcast_S_S128x512 main_cst_36
  let main_v96 : IVec S128x512 1 := cmpf .olt main_v94 main_v95
  let main_c_37 : IVec S_ 1 := constantI S_ 1 1#1
  let main_v97 : IVec S_ 1 := (fun x v => Host.reduce IntOp.andi x v reducesTo_S128x512_S_d0_1 h_S_) main_v96 main_c_37
  let main_v98 : IVec S_ 1 := andi main_v93 main_v97
  main_v98

def fn_part4 {F : FTy → Type} [FloatOps F] (main_arg14 : FVec F S128x512x512 .f32) (main_arg15 : FVec F S128x512x512 .f32) (main_arg16 : FVec F S128x512 .f32) (main_arg17 : FVec F S128x512x512 .f32) (main_arg18 : FVec F S128x512x512 .f32) (main_arg19 : FVec F S128x512 .f32) (main_v63 : IVec S_ 1) (main_v67 : IVec S_ 1) : IVec S_ 1 :=
  let main_v68 : IVec S_ 1 := andi main_v63 main_v67
  let main_v69 : FVec F S128x512x512 .f32 := Host.absf main_arg14
  let main_cst_26 : FVec F S_ .f32 := constant S_ .f32 0x7F800000#32
  let main_v70 : FVec F S128x512x512 .f32 := broadcastInDim S128x512x512 ![] bcast_S_S128x512x512 main_cst_26
  let main_v71 : IVec S128x512x512 1 := cmpf .olt main_v69 main_v70
  let main_c_27 : IVec S_ 1 := constantI S_ 1 1#1
  let main_v72 : IVec S_ 1 := (fun x v => Host.reduce IntOp.andi x v reducesTo_S128x512x512_S_d0_1_2 h_S_) main_v71 main_c_27
  let main_v73 : IVec S_ 1 := andi main_v68 main_v72
  let main_v74 : FVec F S128x512x512 .f32 := Host.absf main_arg15
  let main_cst_28 : FVec F S_ .f32 := constant S_ .f32 0x7F800000#32
  let main_v75 : FVec F S128x512x512 .f32 := broadcastInDim S128x512x512 ![] bcast_S_S128x512x512 main_cst_28
  let main_v76 : IVec S128x512x512 1 := cmpf .olt main_v74 main_v75
  let main_c_29 : IVec S_ 1 := constantI S_ 1 1#1
  let main_v77 : IVec S_ 1 := (fun x v => Host.reduce IntOp.andi x v reducesTo_S128x512x512_S_d0_1_2 h_S_) main_v76 main_c_29
  let main_v78 : IVec S_ 1 := andi main_v73 main_v77
  let main_v79 : FVec F S128x512 .f32 := Host.absf main_arg16
  let main_cst_30 : FVec F S_ .f32 := constant S_ .f32 0x7F800000#32
  let main_v80 : FVec F S128x512 .f32 := broadcastInDim S128x512 ![] bcast_S_S128x512 main_cst_30
  let main_v81 : IVec S128x512 1 := cmpf .olt main_v79 main_v80
  let main_c_31 : IVec S_ 1 := constantI S_ 1 1#1
  let main_v82 : IVec S_ 1 := (fun x v => Host.reduce IntOp.andi x v reducesTo_S128x512_S_d0_1 h_S_) main_v81 main_c_31
  let main_v83 : IVec S_ 1 := andi main_v78 main_v82
  let main_v84 : FVec F S128x512x512 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S512x512 .f32) (main_arg12 : FVec F S512x512 .f32) (main_arg13 : FVec F S512 .f32) (main_arg14 : FVec F S128x512x512 .f32) (main_arg15 : FVec F S128x512x512 .f32) (main_arg16 : FVec F S128x512 .f32) (main_arg17 : FVec F S128x512x512 .f32) (main_arg18 : FVec F S128x512x512 .f32) (main_arg19 : FVec F S128x512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_v63 main_v67

def fn_part2 {F : FTy → Type} [FloatOps F] (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S128x512x512 .f32) (main_arg15 : FVec F S128x512x512 .f32) (main_arg16 : FVec F S128x512 .f32) (main_arg17 : FVec F S128x512x512 .f32) (main_arg18 : FVec F S128x512x512 .f32) (main_arg19 : FVec F S128x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S128x512x512 .f32) (main_arg15 : FVec F S128x512x512 .f32) (main_arg16 : FVec F S128x512 .f32) (main_arg17 : FVec F S128x512x512 .f32) (main_arg18 : FVec F S128x512x512 .f32) (main_arg19 : FVec F S128x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S128x512 .f32) (main_arg1 : FVec F S128x512 .f32) (main_arg2 : FVec F S512x512 .f32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S128x512x512 .f32) (main_arg15 : FVec F S128x512x512 .f32) (main_arg16 : FVec F S128x512 .f32) (main_arg17 : FVec F S128x512x512 .f32) (main_arg18 : FVec F S128x512x512 .f32) (main_arg19 : FVec F S128x512 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S128x512 : Shape := ⟨2, ![128, 512]⟩
abbrev S512x512 : Shape := ⟨2, ![512, 512]⟩
abbrev S512 : Shape := ⟨1, ![512]⟩
abbrev S128x512x512 : Shape := ⟨3, ![128, 512, 512]⟩
abbrev S1x1 : Shape := ⟨2, ![1, 1]⟩
abbrev S1x512 : Shape := ⟨2, ![1, 512]⟩
abbrev S128 : Shape := ⟨1, ![128]⟩
abbrev S128x1 : Shape := ⟨2, ![128, 1]⟩
abbrev S1 : Shape := ⟨1, ![1]⟩
abbrev S_ : Shape := ⟨0, ![]⟩
abbrev S8x128x512 : Shape := ⟨3, ![8, 128, 512]⟩
abbrev S8x512 : Shape := ⟨2, ![8, 512]⟩
abbrev S8x128 : Shape := ⟨2, ![8, 128]⟩
abbrev S8x128x1 : Shape := ⟨3, ![8, 128, 1]⟩
abbrev S8x1x512 : Shape := ⟨3, ![8, 1, 512]⟩

abbrev nBuf : Space → Nat
  | .hbm => 34
  | .vmem => 53
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S128x512x512, .f32⟩
  | .hbm, ⟨15, _⟩ => ⟨S128x512x512, .f32⟩
  | .hbm, ⟨16, _⟩ => ⟨S128x512, .f32⟩
  | .hbm, ⟨17, _⟩ => ⟨S128x512x512, .f32⟩
  | .hbm, ⟨18, _⟩ => ⟨S128x512x512, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S1x1, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512x512, .f32⟩
  | .hbm, ⟨31, _⟩ => ⟨S128x512x512, .f32⟩
  | .hbm, ⟨32, _⟩ => ⟨S128x512x512, .f32⟩
  | .hbm, ⟨33, _⟩ => ⟨S128x512x512, .f32⟩
  | .local _ .vmem, ⟨0, _⟩ => ⟨S128x512, .f32⟩
  | .local _ .vmem, ⟨1, _⟩ => ⟨S128x512, .f32⟩
  | .local _ .vmem, ⟨2, _⟩ => ⟨S512x512, .f32⟩
  | .local _ .vmem, ⟨3, _⟩ => ⟨S512x512, .f32⟩
  | .local _ .vmem, ⟨4, _⟩ => ⟨S512, .f32⟩
  | .local _ .vmem, ⟨5, _⟩ => ⟨S512x512, .f32⟩
  | .local _ .vmem, ⟨6, _⟩ => ⟨S512x512, .f32⟩
  | .local _ .vmem, ⟨7, _⟩ => ⟨S512, .f32⟩
  | .local _ .vmem, ⟨8, _⟩ => ⟨S512x512, .f32⟩
  | .local _ .vmem, ⟨9, _⟩ => ⟨S512x512, .f32⟩
  | .local _ .vmem, ⟨10, _⟩ => ⟨S512, .f32⟩
  | .local _ .vmem, ⟨11, _⟩ => ⟨S512x512, .f32⟩
  | .local _ .vmem, ⟨12, _⟩ => ⟨S512x512, .f32⟩
  | .local _ .vmem, ⟨13, _⟩ => ⟨S512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S1x1, .f32⟩
  | .local _ .vmem, ⟨23, _⟩ => ⟨S128x512, .f32⟩
  | .local _ .vmem, ⟨24, _⟩ => ⟨S128x512, .f32⟩
  | .local _ .vmem, ⟨25, _⟩ => ⟨S8x128x512, .f32⟩
  | .local _ .vmem, ⟨26, _⟩ => ⟨S8x128x512, .f32⟩
  | .local _ .vmem, ⟨27, _⟩ => ⟨S8x128x512, .f32⟩
  | .local _ .vmem, ⟨28, _⟩ => ⟨S8x128x512, .f32⟩
  | .local _ .vmem, ⟨29, _⟩ => ⟨S8x128x512, .f32⟩
  | .local _ .vmem, ⟨30, _⟩ => ⟨S8x128x512, .f32⟩
  | .local _ .vmem, ⟨31, _⟩ => ⟨S8x128x512, .f32⟩
  | .local _ .vmem, ⟨32, _⟩ => ⟨S8x128x512, .f32⟩
  | .local _ .vmem, ⟨33, _⟩ => ⟨S8x512, .f32⟩
  | .local _ .vmem, ⟨34, _⟩ => ⟨S8x512, .f32⟩
  | .local _ .vmem, ⟨35, _⟩ => ⟨S8x512, .f32⟩
  | .local _ .vmem, ⟨36, _⟩ => ⟨S8x512, .f32⟩
  | .local _ .vmem, ⟨37, _⟩ => ⟨S8x128, .f32⟩
  | .local _ .vmem, ⟨38, _⟩ => ⟨S8x128, .f32⟩
  | .local _ .vmem, ⟨39, _⟩ => ⟨S8x128, .f32⟩
  | .local _ .vmem, ⟨40, _⟩ => ⟨S8x128, .f32⟩
  | .local _ .vmem, ⟨41, _⟩ => ⟨S8x128, .f32⟩
  | .local _ .vmem, ⟨42, _⟩ => ⟨S8x128, .f32⟩
  | .local _ .vmem, ⟨43, _⟩ => ⟨S8x128, .f32⟩
  | .local _ .vmem, ⟨44, _⟩ => ⟨S8x128, .f32⟩
  | .local _ .vmem, ⟨45, _⟩ => ⟨S8x128x512, .f32⟩
  | .local _ .vmem, ⟨46, _⟩ => ⟨S8x128x512, .f32⟩
  | .local _ .vmem, ⟨47, _⟩ => ⟨S8x128x512, .f32⟩
  | .local _ .vmem, ⟨48, _⟩ => ⟨S8x128x512, .f32⟩
  | .local _ .vmem, ⟨49, _⟩ => ⟨S8x128x512, .f32⟩
  | .local _ .vmem, ⟨50, _⟩ => ⟨S8x128x512, .f32⟩
  | .local _ .vmem, ⟨51, _⟩ => ⟨S8x128x512, .f32⟩
  | .local _ .vmem, ⟨52, _⟩ => ⟨S8x128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v0_4 : Ref sig .tc := ⟨.hbm, 24, rfl⟩
abbrev main_v0_5 : Ref sig .tc := ⟨.hbm, 25, rfl⟩
abbrev main_v0_6 : Ref sig .tc := ⟨.hbm, 26, rfl⟩
abbrev main_v0_7 : Ref sig .tc := ⟨.hbm, 27, rfl⟩
abbrev main_v0_8 : Ref sig .tc := ⟨.hbm, 28, rfl⟩
abbrev main_v1 : Ref sig .tc := ⟨.hbm, 29, rfl⟩
abbrev main_v2_0 : Ref sig .tc := ⟨.hbm, 30, rfl⟩
abbrev main_v2_1 : Ref sig .tc := ⟨.hbm, 31, rfl⟩
abbrev main_v2_2 : Ref sig .tc := ⟨.hbm, 32, rfl⟩
abbrev main_v2_3 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg5_1 : Ref sig .tc := ⟨.vmem, 36, rfl⟩
abbrev cc1_stg6_0 : Ref sig .tc := ⟨.vmem, 37, rfl⟩
abbrev cc1_stg6_1 : Ref sig .tc := ⟨.vmem, 38, rfl⟩
abbrev cc1_stg7_0 : Ref sig .tc := ⟨.vmem, 39, rfl⟩
abbrev cc1_stg7_1 : Ref sig .tc := ⟨.vmem, 40, rfl⟩
abbrev cc1_stg8_0 : Ref sig .tc := ⟨.vmem, 41, rfl⟩
abbrev cc1_stg8_1 : Ref sig .tc := ⟨.vmem, 42, rfl⟩
abbrev cc1_stg9_0 : Ref sig .tc := ⟨.vmem, 43, rfl⟩
abbrev cc1_stg9_1 : Ref sig .tc := ⟨.vmem, 44, rfl⟩
abbrev cc1_stg10_0 : Ref sig .tc := ⟨.vmem, 45, rfl⟩
abbrev cc1_stg10_1 : Ref sig .tc := ⟨.vmem, 46, rfl⟩
abbrev cc1_stg11_0 : Ref sig .tc := ⟨.vmem, 47, rfl⟩
abbrev cc1_stg11_1 : Ref sig .tc := ⟨.vmem, 48, rfl⟩
abbrev cc1_stg12_0 : Ref sig .tc := ⟨.vmem, 49, rfl⟩
abbrev cc1_stg12_1 : Ref sig .tc := ⟨.vmem, 50, rfl⟩
abbrev cc1_stg13_0 : Ref sig .tc := ⟨.vmem, 51, rfl⟩
abbrev cc1_stg13_1 : Ref sig .tc := ⟨.vmem, 52, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem4_1 : DmaSem sig := 34
abbrev cc1_sem5_0 : DmaSem sig := 35
abbrev cc1_sem5_1 : DmaSem sig := 36
abbrev cc1_sem6_0 : DmaSem sig := 37
abbrev cc1_sem6_1 : DmaSem sig := 38
abbrev cc1_sem7_0 : DmaSem sig := 39
abbrev cc1_sem7_1 : DmaSem sig := 40
abbrev cc1_sem8_0 : DmaSem sig := 41
abbrev cc1_sem8_1 : DmaSem sig := 42
abbrev cc1_sem9_0 : DmaSem sig := 43
abbrev cc1_sem9_1 : DmaSem sig := 44
abbrev cc1_sem10_0 : DmaSem sig := 45
abbrev cc1_sem10_1 : DmaSem sig := 46
abbrev cc1_sem11_0 : DmaSem sig := 47
abbrev cc1_sem11_1 : DmaSem sig := 48
abbrev cc1_sem12_0 : DmaSem sig := 49
abbrev cc1_sem12_1 : DmaSem sig := 50
abbrev cc1_sem13_0 : DmaSem sig := 51
abbrev cc1_sem13_1 : DmaSem sig := 52

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S8x128x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S8x128x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S8x128x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S8x128x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

class Facts₀ : Prop where
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  inb_S512x512_S512x512_0_0 : ∀ a, (![0, 0] : Fin 2 → Nat) a + S512x512.size a ≤ S512x512.size a
  h_S512x512 : 0 < S512x512.numel
  broadcasts_S1x512_S128x512 : S1x512.Broadcasts S128x512
  bitsLt_bf16_f32 : FTy.bits .bf16 < FTy.bits .f32
  reduces_S128x512_S128 : S128x512.Reduces [1] S128
  shapeCasts_S128_S128x1 : S128.ShapeCasts S128x1
  reduces_S128x1_S1 : S128x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1 : S8x128.ShapeCasts S8x128x1
  inb_S8x512_S8x512_0_0 : ∀ a, (![0, 0] : Fin 2 → Nat) a + S8x512.size a ≤ S8x512.size a
  h_S8x512 : 0 < S8x512.numel
  shapeCasts_S8x512_S8x1x512 : S8x512.ShapeCasts S8x1x512
  inb_S8x128x512_S8x128x512_0_0_0 : ∀ a, (![0, 0, 0] : Fin 3 → Nat) a + S8x128x512.size a ≤ S8x128x512.size a
  h_S8x128x512 : 0 < S8x128x512.numel
  broadcasts_S8x128x1_S8x128x512 : S8x128x1.Broadcasts S8x128x512
  broadcasts_S8x1x512_S8x128x512 : S8x1x512.Broadcasts S8x128x512
  dot_S128x512_S512x512_S128x512_1_1_0_0_n_n_wf : DotDims.WF S128x512 S512x512 S128x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .f32 = 32 ∨ (Rect.block (s := S128x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .f32 = 32 ∨ (Rect.block (s := S512x512) S512x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x512.size a ≤ S128x512.size a
  hwx0_14 : ∀ i : grid0.Coords, EltTy.bits .f32 = 32 ∨ (Rect.block (s := S128x512) S128x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x512.size a ≤ S128x512.size a
  hwx0_15 : ∀ i : grid0.Coords, EltTy.bits .f32 = 32 ∨ (Rect.block (s := S128x512) S128x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x512.size a ≤ S128x512.size a
  hwx0_16 : ∀ i : grid0.Coords, EltTy.bits .f32 = 32 ∨ (Rect.block (s := S128x512) S128x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x512.size a ≤ S128x512.size a
  hwx0_17 : ∀ i : grid0.Coords, EltTy.bits .f32 = 32 ∨ (Rect.block (s := S128x512) S128x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x512.size a ≤ S128x512.size a
  hwx0_18 : ∀ i : grid0.Coords, EltTy.bits .f32 = 32 ∨ (Rect.block (s := S128x512) S128x512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x512.size a ≤ S128x512.size a
  hwx0_19 : ∀ i : grid0.Coords, EltTy.bits .f32 = 32 ∨ (Rect.block (s := S128x512) S128x512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x512.size a ≤ S128x512.size a
  hwx0_20 : ∀ i : grid0.Coords, EltTy.bits .f32 = 32 ∨ (Rect.block (s := S128x512) S128x512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x512.size a ≤ S128x512.size a
  hwx0_21 : ∀ i : grid0.Coords, EltTy.bits .f32 = 32 ∨ (Rect.block (s := S128x512) S128x512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x512.size a ≤ S128x512.size a
  hwx0_23 : ∀ i : grid0.Coords, EltTy.bits .f32 = 32 ∨ (Rect.block (s := S128x512) S128x512.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S128x512.size a ≤ S128x512.size a
  hwx0_24 : ∀ i : grid0.Coords, EltTy.bits .f32 = 32 ∨ (Rect.block (s := S128x512) S128x512.size (cc0_transform_24 i) (hinb0_24 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x512.size a ≤ S128x512x512.size a
  hwx1_0 : ∀ i : grid1.Coords, EltTy.bits .f32 = 32 ∨ (Rect.block (s := S128x512x512) S8x128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x512.size a ≤ S128x512x512.size a
  hwx1_1 : ∀ i : grid1.Coords, EltTy.bits .f32 = 32 ∨ (Rect.block (s := S128x512x512) S8x128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x512.size a ≤ S128x512x512.size a
  hwx1_2 : ∀ i : grid1.Coords, EltTy.bits .f32 = 32 ∨ (Rect.block (s := S128x512x512) S8x128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128x512.size a ≤ S128x512x512.size a
  hwx1_3 : ∀ i : grid1.Coords, EltTy.bits .f32 = 32 ∨ (Rect.block (s := S128x512x512) S8x128x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x512.size a ≤ S128x512.size a
  hwx1_4 : ∀ i : grid1.Coords, EltTy.bits .f32 = 32 ∨ (Rect.block (s := S128x512) S8x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x512.size a ≤ S128x512.size a
  hwx1_5 : ∀ i : grid1.Coords, EltTy.bits .f32 = 32 ∨ (Rect.block (s := S128x512) S8x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S128x512.size a
  hwx1_6 : ∀ i : grid1.Coords, EltTy.bits .f32 = 32 ∨ (Rect.block (s := S128x512) S8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S128x512.size a
  hwx1_7 : ∀ i : grid1.Coords, EltTy.bits .f32 = 32 ∨ (Rect.block (s := S128x512) S8x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128.size a ≤ S128x512.size a
  hwx1_8 : ∀ i : grid1.Coords, EltTy.bits .f32 = 32 ∨ (Rect.block (s := S128x512) S8x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x128.size a ≤ S128x512.size a
  hwx1_9 : ∀ i : grid1.Coords, EltTy.bits .f32 = 32 ∨ (Rect.block (s := S128x512) S8x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8x128x512.size a ≤ S128x512x512.size a
  hwx1_10 : ∀ i : grid1.Coords, EltTy.bits .f32 = 32 ∨ (Rect.block (s := S128x512x512) S8x128x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S8x128x512.size a ≤ S128x512x512.size a
  hwx1_11 : ∀ i : grid1.Coords, EltTy.bits .f32 = 32 ∨ (Rect.block (s := S128x512x512) S8x128x512.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S8x128x512.size a ≤ S128x512x512.size a
  hwx1_12 : ∀ i : grid1.Coords, EltTy.bits .f32 = 32 ∨ (Rect.block (s := S128x512x512) S8x128x512.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S8x128x512.size a ≤ S128x512x512.size a
  hwx1_13 : ∀ i : grid1.Coords, EltTy.bits .f32 = 32 ∨ (Rect.block (s := S128x512x512) S8x128x512.size (cc1_transform_13 i) (hinb1_13 i)).WholeWords (EltTy.packing .f32)

variable [Facts₀]

def dot_S128x512_S512x512_S128x512_1_1_0_0_n_n : DotDims S128x512 S512x512 S128x512 where
  lhsContracting := [1]
  rhsContracting := [1]
  lhsNonContracting := [0]
  rhsNonContracting := [0]
  lhsBatch := []
  rhsBatch := []
  wf := dot_S128x512_S512x512_S128x512_1_1_0_0_n_n_wf

abbrev win0_0 : Pipeline.Window sig grid0 :=
  Pipeline.Window.ofSpec (Memref.whole main_arg0) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S128x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg19) S128x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v0_0) S128x512.size cc0_transform_16 reads0_16 true true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0_1) S128x512.size cc0_transform_17 reads0_17 true true 1 stage0_17 sem0_17
    hrank0 hreads0_17 hinb0_17 nbuf0_17 (Memref.isWhole_whole _) hwx0_17 hstage0_17

abbrev win0_18 : Pipeline.Window sig grid0 :=
  Pipeline.Window.ofSpec (Memref.whole main_v0_2) S128x512.size cc0_transform_18 reads0_18 true true 1 stage0_18 sem0_18
    hrank0 hreads0_18 hinb0_18 nbuf0_18 (Memref.isWhole_whole _) hwx0_18 hstage0_18

abbrev win0_19 : Pipeline.Window sig grid0 :=
  Pipeline.Window.ofSpec (Memref.whole main_v0_3) S128x512.size cc0_transform_19 reads0_19 true true 1 stage0_19 sem0_19
    hrank0 hreads0_19 hinb0_19 nbuf0_19 (Memref.isWhole_whole _) hwx0_19 hstage0_19

abbrev win0_20 : Pipeline.Window sig grid0 :=
  Pipeline.Window.ofSpec (Memref.whole main_v0_4) S128x512.size cc0_transform_20 reads0_20 true true 1 stage0_20 sem0_20
    hrank0 hreads0_20 hinb0_20 nbuf0_20 (Memref.isWhole_whole _) hwx0_20 hstage0_20

abbrev win0_21 : Pipeline.Window sig grid0 :=
  Pipeline.Window.ofSpec (Memref.whole main_v0_5) S128x512.size cc0_transform_21 reads0_21 true true 1 stage0_21 sem0_21
    hrank0 hreads0_21 hinb0_21 nbuf0_21 (Memref.isWhole_whole _) hwx0_21 hstage0_21

abbrev win0_22 : Pipeline.Window sig grid0 :=
  Pipeline.Window.ofSpec (Memref.whole main_v0_6) S1x1.size cc0_transform_22 reads0_22 true true 1 stage0_22 sem0_22
    hrank0 hreads0_22 hinb0_22 nbuf0_22 (Memref.isWhole_whole _) hwx0_22 hstage0_22

abbrev win0_23 : Pipeline.Window sig grid0 :=
  Pipeline.Window.ofSpec (Memref.whole main_v0_7) S128x512.size cc0_transform_23 reads0_23 true true 1 stage0_23 sem0_23
    hrank0 hreads0_23 hinb0_23 nbuf0_23 (Memref.isWhole_whole _) hwx0_23 hstage0_23

abbrev win0_24 : Pipeline.Window sig grid0 :=
  Pipeline.Window.ofSpec (Memref.whole main_v0_8) S128x512.size cc0_transform_24 reads0_24 true true 1 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

abbrev win1_0 : Pipeline.Window sig grid1 :=
  Pipeline.Window.ofSpec (Memref.whole main_arg14) S8x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg15) S8x128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg17) S8x128x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg18) S8x128x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S8x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S8x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0_1) S8x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v0_2) S8x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v0_3) S8x128.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v0_4) S8x128.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v2_0) S8x128x512.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v2_1) S8x128x512.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v2_2) S8x128x512.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v2_3) S8x128x512.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S128x512 : Shape := ⟨2, ![128, 512]⟩
abbrev S512x512 : Shape := ⟨2, ![512, 512]⟩
abbrev S512 : Shape := ⟨1, ![512]⟩
abbrev S128x512x512 : Shape := ⟨3, ![128, 512, 512]⟩
abbrev S1x512 : Shape := ⟨2, ![1, 512]⟩
abbrev S_ : Shape := ⟨0, ![]⟩
abbrev S128x512x1 : Shape := ⟨3, ![128, 512, 1]⟩
abbrev S128x1x512 : Shape := ⟨3, ![128, 1, 512]⟩

abbrev nBuf : Space → Nat
  | .hbm => 158
  | .vmem => 0
  | .smem => 0
  | _ => 0

abbrev hbmTy0_0 (i : Nat) : BufTy := match i % 128 with
  | 0 => ⟨S128x512, .f32⟩
  | 1 => ⟨S128x512, .f32⟩
  | 2 => ⟨S512x512, .f32⟩
  | 3 => ⟨S512x512, .f32⟩
  | 4 => ⟨S512, .f32⟩
  | 5 => ⟨S512x512, .f32⟩
  | 6 => ⟨S512x512, .f32⟩
  | 7 => ⟨S512, .f32⟩
  | 8 => ⟨S512x512, .f32⟩
  | 9 => ⟨S512x512, .f32⟩
  | 10 => ⟨S512, .f32⟩
  | 11 => ⟨S512x512, .f32⟩
  | 12 => ⟨S512x512, .f32⟩
  | 13 => ⟨S512, .f32⟩
  | 14 => ⟨S128x512x512, .f32⟩
  | 15 => ⟨S128x512x512, .f32⟩
  | 16 => ⟨S128x512, .f32⟩
  | 17 => ⟨S128x512x512, .f32⟩
  | 18 => ⟨S128x512x512, .f32⟩
  | 19 => ⟨S128x512, .f32⟩
  | 20 => ⟨S512x512, .f32⟩
  | 21 => ⟨S128x512, .f32⟩
  | 22 => ⟨S512x512, .f32⟩
  | 23 => ⟨S128x512, .f32⟩
  | 24 => ⟨S128x512, .f32⟩
  | 25 => ⟨S1x512, .f32⟩
  | 26 => ⟨S128x512, .f32⟩
  | 27 => ⟨S128x512, .f32⟩
  | 28 => ⟨S128x512, .f32⟩
  | 29 => ⟨S_, .f32⟩
  | 30 => ⟨S128x512, .f32⟩
  | 31 => ⟨S128x512, .f32⟩
  | 32 => ⟨S512x512, .f32⟩
  | 33 => ⟨S128x512, .f32⟩
  | 34 => ⟨S512x512, .f32⟩
  | 35 => ⟨S128x512, .f32⟩
  | 36 => ⟨S128x512, .f32⟩
  | 37 => ⟨S1x512, .f32⟩
  | 38 => ⟨S128x512, .f32⟩
  | 39 => ⟨S128x512, .f32⟩
  | 40 => ⟨S128x512, .f32⟩
  | 41 => ⟨S128x512, .f32⟩
  | 42 => ⟨S_, .f32⟩
  | 43 => ⟨S128x512, .f32⟩
  | 44 => ⟨S128x512, .f32⟩
  | 45 => ⟨S128x512, .f32⟩
  | 46 => ⟨S128x512, .f32⟩
  | 47 => ⟨S128x512, .f32⟩
  | 48 => ⟨S_, .f32⟩
  | 49 => ⟨S_, .f32⟩
  | 50 => ⟨S_, .f32⟩
  | 51 => ⟨S128x512, .f32⟩
  | 52 => ⟨S128x512, .f32⟩
  | 53 => ⟨S_, .f32⟩
  | 54 => ⟨S128x512, .f32⟩
  | 55 => ⟨S128x512, .f32⟩
  | 56 => ⟨S128x512, .f32⟩
  | 57 => ⟨S_, .f32⟩
  | 58 => ⟨S128x512, .f32⟩
  | 59 => ⟨S128x512, .f32⟩
  | 60 => ⟨S128x512, .f32⟩
  | 61 => ⟨S128x512, .f32⟩
  | 62 => ⟨S_, .f32⟩
  | 63 => ⟨S128x512, .f32⟩
  | 64 => ⟨S128x512, .f32⟩
  | 65 => ⟨S128x512, .f32⟩
  | 66 => ⟨S128x512x1, .f32⟩
  | 67 => ⟨S128x512x1, .f32⟩
  | 68 => ⟨S128x512x1, .f32⟩
  | 69 => ⟨S128x1x512, .f32⟩
  | 70 => ⟨S128x1x512, .f32⟩
  | 71 => ⟨S128x512x1, .f32⟩
  | 72 => ⟨S_, .f32⟩
  | 73 => ⟨S128x512x1, .f32⟩
  | 74 => ⟨S128x512x1, .f32⟩
  | 75 => ⟨S128x512x512, .f32⟩
  | 76 => ⟨S128x512x512, .f32⟩
  | 77 => ⟨S128x512x512, .f32⟩
  | 78 => ⟨S128x512x512, .f32⟩
  | 79 => ⟨S128x512x512, .f32⟩
  | 80 => ⟨S128x512x512, .f32⟩
  | 81 => ⟨S128x512x512, .f32⟩
  | 82 => ⟨S128x512x512, .f32⟩
  | 83 => ⟨S_, .f32⟩
  | 84 => ⟨S128x512x1, .f32⟩
  | 85 => ⟨S128x512x1, .f32⟩
  | 86 => ⟨S128x512x512, .f32⟩
  | 87 => ⟨S128x512x512, .f32⟩
  | 88 => ⟨S128x512x512, .f32⟩
  | 89 => ⟨S128x512x512, .f32⟩
  | 90 => ⟨S128x512x512, .f32⟩
  | 91 => ⟨S128x512x512, .f32⟩
  | 92 => ⟨S128x512x512, .f32⟩
  | 93 => ⟨S128x512x512, .f32⟩
  | 94 => ⟨S_, .f32⟩
  | 95 => ⟨S128x512, .f32⟩
  | 96 => ⟨S128x512, .f32⟩
  | 97 => ⟨S128x512, .f32⟩
  | 98 => ⟨S128x512, .f32⟩
  | 99 => ⟨S128x512, .f32⟩
  | 100 => ⟨S_, .f32⟩
  | 101 => ⟨S128x512x1, .f32⟩
  | 102 => ⟨S128x512x1, .f32⟩
  | 103 => ⟨S128x512x512, .f32⟩
  | 104 => ⟨S128x512x512, .f32⟩
  | 105 => ⟨S128x512x512, .f32⟩
  | 106 => ⟨S128x512x512, .f32⟩
  | 107 => ⟨S128x512x512, .f32⟩
  | 108 => ⟨S128x512x512, .f32⟩
  | 109 => ⟨S128x512x512, .f32⟩
  | 110 => ⟨S128x512x512, .f32⟩
  | 111 => ⟨S_, .f32⟩
  | 112 => ⟨S128x512x1, .f32⟩
  | 113 => ⟨S128x512x1, .f32⟩
  | 114 => ⟨S128x512x512, .f32⟩
  | 115 => ⟨S128x512x512, .f32⟩
  | 116 => ⟨S128x512x512, .f32⟩
  | 117 => ⟨S128x512x512, .f32⟩
  | 118 => ⟨S128x512x512, .f32⟩
  | 119 => ⟨S128x512x512, .f32⟩
  | 120 => ⟨S128x512x512, .f32⟩
  | 121 => ⟨S128x512x512, .f32⟩
  | 122 => ⟨S_, .f32⟩
  | 123 => ⟨S128x512, .f32⟩
  | 124 => ⟨S128x512, .f32⟩
  | 125 => ⟨S128x512, .f32⟩
  | 126 => ⟨S128x512, .f32⟩
  | 127 => ⟨S128x512, .f32⟩
  | _ => ⟨S128x512, .f32⟩

abbrev hbmTy0_1 (i : Nat) : BufTy := match i % 128 with
  | 0 => ⟨S512x512, .f32⟩
  | 1 => ⟨S128x512, .f32⟩
  | 2 => ⟨S512x512, .f32⟩
  | 3 => ⟨S128x512, .f32⟩
  | 4 => ⟨S128x512, .f32⟩
  | 5 => ⟨S1x512, .f32⟩
  | 6 => ⟨S128x512, .f32⟩
  | 7 => ⟨S128x512, .f32⟩
  | 8 => ⟨S128x512, .f32⟩
  | 9 => ⟨S512x512, .f32⟩
  | 10 => ⟨S128x512, .f32⟩
  | 11 => ⟨S512x512, .f32⟩
  | 12 => ⟨S128x512, .f32⟩
  | 13 => ⟨S128x512, .f32⟩
  | 14 => ⟨S1x512, .f32⟩
  | 15 => ⟨S128x512, .f32⟩
  | 16 => ⟨S128x512, .f32⟩
  | 17 => ⟨S128x512, .f32⟩
  | 18 => ⟨S128x512, .f32⟩
  | 19 => ⟨S_, .f32⟩
  | 20 => ⟨S128x512, .f32⟩
  | 21 => ⟨S128x512, .f32⟩
  | 22 => ⟨S_, .f32⟩
  | 23 => ⟨S128x512, .f32⟩
  | 24 => ⟨S128x512, .f32⟩
  | 25 => ⟨S128x512, .f32⟩
  | 26 => ⟨S_, .f32⟩
  | 27 => ⟨S_, .f32⟩
  | 28 => ⟨S_, .f32⟩
  | 29 => ⟨S_, .f32⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call0_cst : Ref sig .tc := ⟨.hbm, 29, rfl⟩
abbrev main_call0_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_0 : Ref sig .tc := ⟨.hbm, 48, rfl⟩
abbrev main_cst_1 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v25 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_3 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_4 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_6 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_7 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_8 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_9 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_10 : Ref sig .tc := ⟨.hbm, 147, rfl⟩
abbrev main_v109 : Ref sig .tc := ⟨.hbm, 148, rfl⟩
abbrev main_v110 : Ref sig .tc := ⟨.hbm, 149, rfl⟩
abbrev main_cst_11 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_12 : Ref sig .tc := ⟨.hbm, 154, rfl⟩
abbrev main_v114 : Ref sig .tc := ⟨.hbm, 155, rfl⟩
abbrev main_cst_13 : Ref sig .tc := ⟨.hbm, 156, rfl⟩
abbrev main_v115 : Ref sig .tc := ⟨.hbm, 157, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x512_S128x1x512_0_2 : S128x512.BroadcastsInDim S128x1x512 (![0, 2] : Fin 2 → Fin S128x1x512.rank)
  bcast_S_S128x512x1 : S_.BroadcastsInDim S128x512x1 (![] : Fin 0 → Fin S128x512x1.rank)
  bcast_S128x512x1_S128x512x512_0_1_2 : S128x512x1.BroadcastsInDim S128x512x512 (![0, 1, 2] : Fin 3 → Fin S128x512x512.rank)
  bcast_S128x1x512_S128x512x512_0_1_2 : S128x1x512.BroadcastsInDim S128x512x512 (![0, 1, 2] : Fin 3 → Fin S128x512x512.rank)
  reducesTo_S128x512_S_d0_1 : S128x512.ReducesTo [0, 1] S_
  h_S_ : 0 < S_.numel
  dot_S128x512_S512x512_S128x512_1_0_0_1_n_n_wf : DotDims.WF S128x512 S512x512 S128x512 [1] [0] [0] [1] [] []

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

class Facts : Prop extends Facts₀ where

variable [Facts]
-- ==== Proof.KRun.lean ====
/-
  The idealized kernel's run with its final memory kept.

  @main is two kernel regions with one host reshape between them.  Write W0 for a core's buffers at launch, W1 for
  them after the first region (its output arrays at what that region's write-backs leave, everything else as
  launched), W2 for them after the reshape, and W3 for them after the second region.  The program's run ends,
  on every core, with every buffer that is not scoped to a kernel holding exactly W3 at that buffer.  This is the
  statement from which each result array is read.
-/
import proofs.«104354_j17927193494438_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped buffer
    of every core holds the contents W3 assigns it. -/
theorem run_final : θ_run defs (onTc (τ := τ) (main (F := F))) ⟨m, fun _ => 0, ρ⟩ (fun r => ∀ c : Dev nD,
      ∀ (b : Ref sig .tc) (hb : ¬ (Proc.devRef .tc b : DevRef τ sig).isScoped),
        r.2.mem ((c.tc : Thread nD τ).loc b) = W3 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c _ (mem_uc b hb))

end Cert.KernelIdeal.Named

end
-- ==== Proof.R0.lean ====
/-
  Region one of the idealized kernel: what its nine output arrays hold when it ends.

  The first kernel runs on a grid of a single point, and every one of its windows is its whole array: the block of a
  window at that point is the array itself (each block coordinate is 0 times the block size plus the coordinate inside
  the block).  So each output array ends holding the body's stored value computed from the whole input arrays, as the
  region finds them: the new hidden state, the gate, the two derivative factors, the candidate minus the old state,
  the output, the 1 by 1 mean of the gate's open indicator, and the two bias traces.
-/
import proofs.«104354_j17927193494438_2_alg».proof.Proof.Gen.KernelIdeal.Frame
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has one point. -/
theorem pt_pos : 0 < cfg0.N := by have hN : grid0.N = 1 := Gen.N_0; show 0 < grid0.N; omega

/-! ## Each input window's block at the point is its whole array -/

theorem idx0_0 : ∀ t : Fin cfg0.N, win0_0.index t (0 : Fin 2) = 0 ∧ win0_0.index t (1 : Fin 2) = 0 :=
  (by decide +kernel : ∀ t : Fin grid0.N, _)

theorem blk0_0 (c : Dev nD) (t : Fin cfg0.N) : iblk0 V c 0 t = V c main_arg0 := by
  funext y
  show V c main_arg0 (((cfg0.win 0).blk t).view.emb y) = V c main_arg0 y
  refine congrArg (V c main_arg0) ?_
  funext a; apply Fin.ext
  obtain ⟨e0, e1⟩ := idx0_0 t
  match a with
  | ⟨0, _⟩ => show win0_0.index t (0 : Fin 2) * 128 + 1 * (y 0).val = (y 0).val; omega
  | ⟨1, _⟩ => show win0_0.index t (1 : Fin 2) * 512 + 1 * (y 1).val = (y 1).val; omega

theorem idx0_1 : ∀ t : Fin cfg0.N, win0_1.index t (0 : Fin 2) = 0 ∧ win0_1.index t (1 : Fin 2) = 0 :=
  (by decide +kernel : ∀ t : Fin grid0.N, _)

theorem blk0_1 (c : Dev nD) (t : Fin cfg0.N) : iblk0 V c 1 t = V c main_arg1 := by
  funext y
  show V c main_arg1 (((cfg0.win 1).blk t).view.emb y) = V c main_arg1 y
  refine congrArg (V c main_arg1) ?_
  funext a; apply Fin.ext
  obtain ⟨e0, e1⟩ := idx0_1 t
  match a with
  | ⟨0, _⟩ => show win0_1.index t (0 : Fin 2) * 128 + 1 * (y 0).val = (y 0).val; omega
  | ⟨1, _⟩ => show win0_1.index t (1 : Fin 2) * 512 + 1 * (y 1).val = (y 1).val; omega

theorem idx0_2 : ∀ t : Fin cfg0.N, win0_2.index t (0 : Fin 2) = 0 ∧ win0_2.index t (1 : Fin 2) = 0 :=
  (by decide +kernel : ∀ t : Fin grid0.N, _)

theorem blk0_2 (c : Dev nD) (t : Fin cfg0.N) : iblk0 V c 2 t = V c main_arg2 := by
  funext y
  show V c main_arg2 (((cfg0.win 2).blk t).view.emb y) = V c main_arg2 y
  refine congrArg (V c main_arg2) ?_
  funext a; apply Fin.ext
  obtain ⟨e0, e1⟩ := idx0_2 t
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem idx0_3 : ∀ t : Fin cfg0.N, win0_3.index t (0 : Fin 2) = 0 ∧ win0_3.index t (1 : Fin 2) = 0 :=
  (by decide +kernel : ∀ t : Fin grid0.N, _)

theorem blk0_3 (c : Dev nD) (t : Fin cfg0.N) : iblk0 V c 3 t = V c main_arg3 := by
  funext y
  show V c main_arg3 (((cfg0.win 3).blk t).view.emb y) = V c main_arg3 y
  refine congrArg (V c main_arg3) ?_
  funext a; apply Fin.ext
  obtain ⟨e0, e1⟩ := idx0_3 t
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem idx0_4 : ∀ t : Fin cfg0.N, win0_4.index t (0 : Fin 1) = 0 :=
  (by decide +kernel : ∀ t : Fin grid0.N, _)

theorem blk0_4 (c : Dev nD) (t : Fin cfg0.N) : iblk0 V c 4 t = V c main_arg4 := by
  funext y
  show V c main_arg4 (((cfg0.win 4).blk t).view.emb y) = V c main_arg4 y
  refine congrArg (V c main_arg4) ?_
  funext a; apply Fin.ext
  have e0 := idx0_4 t
  match a with
  | ⟨0, _⟩ => show win0_4.index t (0 : Fin 1) * 512 + 1 * (y 0).val = (y 0).val; omega

theorem idx0_5 : ∀ t : Fin cfg0.N, win0_5.index t (0 : Fin 2) = 0 ∧ win0_5.index t (1 : Fin 2) = 0 :=
  (by decide +kernel : ∀ t : Fin grid0.N, _)

theorem blk0_5 (c : Dev nD) (t : Fin cfg0.N) : iblk0 V c 5 t = V c main_arg5 := by
  funext y
  show V c main_arg5 (((cfg0.win 5).blk t).view.emb y) = V c main_arg5 y
  refine congrArg (V c main_arg5) ?_
  funext a; apply Fin.ext
  obtain ⟨e0, e1⟩ := idx0_5 t
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem idx0_6 : ∀ t : Fin cfg0.N, win0_6.index t (0 : Fin 2) = 0 ∧ win0_6.index t (1 : Fin 2) = 0 :=
  (by decide +kernel : ∀ t : Fin grid0.N, _)

theorem blk0_6 (c : Dev nD) (t : Fin cfg0.N) : iblk0 V c 6 t = V c main_arg6 := by
  funext y
  show V c main_arg6 (((cfg0.win 6).blk t).view.emb y) = V c main_arg6 y
  refine congrArg (V c main_arg6) ?_
  funext a; apply Fin.ext
  obtain ⟨e0, e1⟩ := idx0_6 t
  match a with
  | ⟨0, _⟩ => show win0_6.index t (0 : Fin 2) * 512 + 1 * (y 0).val = (y 0).val; omega
  | ⟨1, _⟩ => show win0_6.index t (1 : Fin 2) * 512 + 1 * (y 1).val = (y 1).val; omega

theorem idx0_7 : ∀ t : Fin cfg0.N, win0_7.index t (0 : Fin 1) = 0 :=
  (by decide +kernel : ∀ t : Fin grid0.N, _)

theorem blk0_7 (c : Dev nD) (t : Fin cfg0.N) : iblk0 V c 7 t = V c main_arg7 := by
  funext y
  show V c main_arg7 (((cfg0.win 7).blk t).view.emb y) = V c main_arg7 y
  refine congrArg (V c main_arg7) ?_
  funext a; apply Fin.ext
  have e0 := idx0_7 t
  match a with
  | ⟨0, _⟩ => show win0_7.index t (0 : Fin 1) * 512 + 1 * (y 0).val = (y 0).val; omega

theorem idx0_8 : ∀ t : Fin cfg0.N, win0_8.index t (0 : Fin 2) = 0 ∧ win0_8.index t (1 : Fin 2) = 0 :=
  (by decide +kernel : ∀ t : Fin grid0.N, _)

theorem blk0_8 (c : Dev nD) (t : Fin cfg0.N) : iblk0 V c 8 t = V c main_arg8 := by
  funext y
  show V c main_arg8 (((cfg0.win 8).blk t).view.emb y) = V c main_arg8 y
  refine congrArg (V c main_arg8) ?_
  funext a; apply Fin.ext
  obtain ⟨e0, e1⟩ := idx0_8 t
  match a with
  | ⟨0, _⟩ => show win0_8.index t (0 : Fin 2) * 512 + 1 * (y 0).val = (y 0).val; omega
  | ⟨1, _⟩ => show win0_8.index t (1 : Fin 2) * 512 + 1 * (y 1).val = (y 1).val; omega

theorem idx0_9 : ∀ t : Fin cfg0.N, win0_9.index t (0 : Fin 2) = 0 ∧ win0_9.index t (1 : Fin 2) = 0 :=
  (by decide +kernel : ∀ t : Fin grid0.N, _)

theorem blk0_9 (c : Dev nD) (t : Fin cfg0.N) : iblk0 V c 9 t = V c main_arg9 := by
  funext y
  show V c main_arg9 (((cfg0.win 9).blk t).view.emb y) = V c main_arg9 y
  refine congrArg (V c main_arg9) ?_
  funext a; apply Fin.ext
  obtain ⟨e0, e1⟩ := idx0_9 t
  match a with
  | ⟨0, _⟩ => show win0_9.index t (0 : Fin 2) * 512 + 1 * (y 0).val = (y 0).val; omega
  | ⟨1, _⟩ => show win0_9.index t (1 : Fin 2) * 512 + 1 * (y 1).val = (y 1).val; omega

theorem idx0_10 : ∀ t : Fin cfg0.N, win0_10.index t (0 : Fin 1) = 0 :=
  (by decide +kernel : ∀ t : Fin grid0.N, _)

theorem blk0_10 (c : Dev nD) (t : Fin cfg0.N) : iblk0 V c 10 t = V c main_arg10 := by
  funext y
  show V c main_arg10 (((cfg0.win 10).blk t).view.emb y) = V c main_arg10 y
  refine congrArg (V c main_arg10) ?_
  funext a; apply Fin.ext
  have e0 := idx0_10 t
  match a with
  | ⟨0, _⟩ => show win0_10.index t (0 : Fin 1) * 512 + 1 * (y 0).val = (y 0).val; omega

theorem idx0_11 : ∀ t : Fin cfg0.N, win0_11.index t (0 : Fin 2) = 0 ∧ win0_11.index t (1 : Fin 2) = 0 :=
  (by decide +kernel : ∀ t : Fin grid0.N, _)

theorem blk0_11 (c : Dev nD) (t : Fin cfg0.N) : iblk0 V c 11 t = V c main_arg11 := by
  funext y
  show V c main_arg11 (((cfg0.win 11).blk t).view.emb y) = V c main_arg11 y
  refine congrArg (V c main_arg11) ?_
  funext a; apply Fin.ext
  obtain ⟨e0, e1⟩ := idx0_11 t
  match a with
  | ⟨0, _⟩ => show win0_11.index t (0 : Fin 2) * 512 + 1 * (y 0).val = (y 0).val; omega
  | ⟨1, _⟩ => show win0_11.index t (1 : Fin 2) * 512 + 1 * (y 1).val = (y 1).val; omega

theorem idx0_12 : ∀ t : Fin cfg0.N, win0_12.index t (0 : Fin 2) = 0 ∧ win0_12.index t (1 : Fin 2) = 0 :=
  (by decide +kernel : ∀ t : Fin grid0.N, _)

theorem blk0_12 (c : Dev nD) (t : Fin cfg0.N) : iblk0 V c 12 t = V c main_arg12 := by
  funext y
  show V c main_arg12 (((cfg0.win 12).blk t).view.emb y) = V c main_arg12 y
  refine congrArg (V c main_arg12) ?_
  funext a; apply Fin.ext
  obtain ⟨e0, e1⟩ := idx0_12 t
  match a with
  | ⟨0, _⟩ => show win0_12.index t (0 : Fin 2) * 512 + 1 * (y 0).val = (y 0).val; omega
  | ⟨1, _⟩ => show win0_12.index t (1 : Fin 2) * 512 + 1 * (y 1).val = (y 1).val; omega

theorem idx0_13 : ∀ t : Fin cfg0.N, win0_13.index t (0 : Fin 1) = 0 :=
  (by decide +kernel : ∀ t : Fin grid0.N, _)

theorem blk0_13 (c : Dev nD) (t : Fin cfg0.N) : iblk0 V c 13 t = V c main_arg13 := by
  funext y
  show V c main_arg13 (((cfg0.win 13).blk t).view.emb y) = V c main_arg13 y
  refine congrArg (V c main_arg13) ?_
  funext a; apply Fin.ext
  have e0 := idx0_13 t
  match a with
  | ⟨0, _⟩ => show win0_13.index t (0 : Fin 1) * 512 + 1 * (y 0).val = (y 0).val; omega

theorem idx0_14 : ∀ t : Fin cfg0.N, win0_14.index t (0 : Fin 2) = 0 ∧ win0_14.index t (1 : Fin 2) = 0 :=
  (by decide +kernel : ∀ t : Fin grid0.N, _)

theorem blk0_14 (c : Dev nD) (t : Fin cfg0.N) : iblk0 V c 14 t = V c main_arg16 := by
  funext y
  show V c main_arg16 (((cfg0.win 14).blk t).view.emb y) = V c main_arg16 y
  refine congrArg (V c main_arg16) ?_
  funext a; apply Fin.ext
  obtain ⟨e0, e1⟩ := idx0_14 t
  match a with
  | ⟨0, _⟩ => show win0_14.index t (0 : Fin 2) * 128 + 1 * (y 0).val = (y 0).val; omega
  | ⟨1, _⟩ => show win0_14.index t (1 : Fin 2) * 512 + 1 * (y 1).val = (y 1).val; omega

theorem idx0_15 : ∀ t : Fin cfg0.N, win0_15.index t (0 : Fin 2) = 0 ∧ win0_15.index t (1 : Fin 2) = 0 :=
  (by decide +kernel : ∀ t : Fin grid0.N, _)

theorem blk0_15 (c : Dev nD) (t : Fin cfg0.N) : iblk0 V c 15 t = V c main_arg19 := by
  funext y
  show V c main_arg19 (((cfg0.win 15).blk t).view.emb y) = V c main_arg19 y
  refine congrArg (V c main_arg19) ?_
  funext a; apply Fin.ext
  obtain ⟨e0, e1⟩ := idx0_15 t
  match a with
  | ⟨0, _⟩ => show win0_15.index t (0 : Fin 2) * 128 + 1 * (y 0).val = (y 0).val; omega
  | ⟨1, _⟩ => show win0_15.index t (1 : Fin 2) * 512 + 1 * (y 1).val = (y 1).val; omega

/-! ## Each output array after the region -/

theorem idx0_16 : ∀ t : Fin cfg0.N, win0_16.index t (0 : Fin 2) = 0 ∧ win0_16.index t (1 : Fin 2) = 0 :=
  (by decide +kernel : ∀ t : Fin grid0.N, _)

/-- The new hidden state, as the body computes it from the whole input arrays. -/
abbrev T16 (c : Dev nD) : Vec F S128x512 .f32 := (k0_pay8 (V c main_arg0) (V c main_arg1) (V c main_arg4) (V c main_arg7) (V c main_arg2) (V c main_arg3) (V c main_arg5) (V c main_arg6))

theorem emb0_16 (t : Fin cfg0.N) (y : ((cfg0.win 16).xblock (cfg0.grid.coords t)).Idx) : ((cfg0.win 16).blk t).view.emb y = y := by
  funext a; apply Fin.ext
  obtain ⟨e0, e1⟩ := idx0_16 t
  match a with
  | ⟨0, _⟩ => show win0_16.index t (0 : Fin 2) * 128 + 1 * (y 0).val = (y 0).val; omega
  | ⟨1, _⟩ => show win0_16.index t (1 : Fin 2) * 512 + 1 * (y 1).val = (y 1).val; omega

theorem flushed0_16 (c : Dev nD) (t : Fin cfg0.N) :
    (dat0 V c).flushed 16 t = ((cfg0.win 16).blk t).view.read (Elt F) (T16 V c) := by
  show (cfg0.win 16).cut (grid0.coords t) ((dat0 V c).after 16 t) = _
  rw [after0_16]
  unfold out0_16
  rw [View.canon_unit_zero hz2]
  simp only [View.ld_unit_zero (S := S128x512) hz2, View.ld_unit_zero (S := S512x512) hz2, View.ld_unit_zero (S := S512) hz1,
    blk0_0 V c t, blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t, blk0_15 V c t]
  funext y
  exact (congrArg (T16 V c) (emb0_16 t y)).symm

theorem mem_blk0_16 (t : Fin cfg0.N) (i : S128x512.Idx) :
    i ∈ ((cfg0.win 16).blk t).view.set ↔ ∀ a : Fin 2, win0_16.index t a * S128x512.size a ≤ (i a).val ∧ (i a).val < win0_16.index t a * S128x512.size a + S128x512.size a := by
  show i ∈ ((View.whole main_v0_0).slice (win0_16.rect t)).set ↔ _
  rw [View.set_slice_whole, Rect.mem_set_unit]
  exact Iff.rfl

/-- After the region the array is the new hidden state. -/
theorem final0_16 (c : Dev nD) : (dat0 V c).arrAt 16 cfg0.N = T16 V c :=
  (dat0 V c).arrAt_eq_of_cover 16 _ (fun t _ => flushed0_16 V c t) (fun i => by
    refine ⟨⟨0, pt_pos⟩, flush0_16 _, ?_⟩
    rw [mem_blk0_16]
    intro a
    obtain ⟨e0, e1⟩ := idx0_16 ⟨0, pt_pos⟩
    match a with
    | ⟨0, _⟩ => show win0_16.index _ (0 : Fin 2) * 128 ≤ (i 0).val ∧ (i 0).val < win0_16.index _ (0 : Fin 2) * 128 + 128; have h0 : (i 0).val < 128 := (i 0).isLt; omega
    | ⟨1, _⟩ => show win0_16.index _ (1 : Fin 2) * 512 ≤ (i 1).val ∧ (i 1).val < win0_16.index _ (1 : Fin 2) * 512 + 512; have h1 : (i 1).val < 512 := (i 1).isLt; omega)

theorem idx0_17 : ∀ t : Fin cfg0.N, win0_17.index t (0 : Fin 2) = 0 ∧ win0_17.index t (1 : Fin 2) = 0 :=
  (by decide +kernel : ∀ t : Fin grid0.N, _)

/-- The gate, as the body computes it from the whole input arrays. -/
abbrev T17 (c : Dev nD) : Vec F S128x512 .f32 := (k0_pay5 (V c main_arg0) (V c main_arg1) (V c main_arg4) (V c main_arg2) (V c main_arg3))

theorem emb0_17 (t : Fin cfg0.N) (y : ((cfg0.win 17).xblock (cfg0.grid.coords t)).Idx) : ((cfg0.win 17).blk t).view.emb y = y := by
  funext a; apply Fin.ext
  obtain ⟨e0, e1⟩ := idx0_17 t
  match a with
  | ⟨0, _⟩ => show win0_17.index t (0 : Fin 2) * 128 + 1 * (y 0).val = (y 0).val; omega
  | ⟨1, _⟩ => show win0_17.index t (1 : Fin 2) * 512 + 1 * (y 1).val = (y 1).val; omega

theorem flushed0_17 (c : Dev nD) (t : Fin cfg0.N) :
    (dat0 V c).flushed 17 t = ((cfg0.win 17).blk t).view.read (Elt F) (T17 V c) := by
  show (cfg0.win 17).cut (grid0.coords t) ((dat0 V c).after 17 t) = _
  rw [after0_17]
  unfold out0_17
  rw [View.canon_unit_zero hz2]
  simp only [View.ld_unit_zero (S := S128x512) hz2, View.ld_unit_zero (S := S512x512) hz2, View.ld_unit_zero (S := S512) hz1,
    blk0_0 V c t, blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t, blk0_15 V c t]
  funext y
  exact (congrArg (T17 V c) (emb0_17 t y)).symm

theorem mem_blk0_17 (t : Fin cfg0.N) (i : S128x512.Idx) :
    i ∈ ((cfg0.win 17).blk t).view.set ↔ ∀ a : Fin 2, win0_17.index t a * S128x512.size a ≤ (i a).val ∧ (i a).val < win0_17.index t a * S128x512.size a + S128x512.size a := by
  show i ∈ ((View.whole main_v0_1).slice (win0_17.rect t)).set ↔ _
  rw [View.set_slice_whole, Rect.mem_set_unit]
  exact Iff.rfl

/-- After the region the array is the gate. -/
theorem final0_17 (c : Dev nD) : (dat0 V c).arrAt 17 cfg0.N = T17 V c :=
  (dat0 V c).arrAt_eq_of_cover 17 _ (fun t _ => flushed0_17 V c t) (fun i => by
    refine ⟨⟨0, pt_pos⟩, flush0_17 _, ?_⟩
    rw [mem_blk0_17]
    intro a
    obtain ⟨e0, e1⟩ := idx0_17 ⟨0, pt_pos⟩
    match a with
    | ⟨0, _⟩ => show win0_17.index _ (0 : Fin 2) * 128 ≤ (i 0).val ∧ (i 0).val < win0_17.index _ (0 : Fin 2) * 128 + 128; have h0 : (i 0).val < 128 := (i 0).isLt; omega
    | ⟨1, _⟩ => show win0_17.index _ (1 : Fin 2) * 512 ≤ (i 1).val ∧ (i 1).val < win0_17.index _ (1 : Fin 2) * 512 + 512; have h1 : (i 1).val < 512 := (i 1).isLt; omega)

theorem idx0_18 : ∀ t : Fin cfg0.N, win0_18.index t (0 : Fin 2) = 0 ∧ win0_18.index t (1 : Fin 2) = 0 :=
  (by decide +kernel : ∀ t : Fin grid0.N, _)

/-- The gate's derivative factor, as the body computes it from the whole input arrays. -/
abbrev T18 (c : Dev nD) : Vec F S128x512 .f32 := (k0_pay10 (k0_pay5 (V c main_arg0) (V c main_arg1) (V c main_arg4) (V c main_arg2) (V c main_arg3)))

theorem emb0_18 (t : Fin cfg0.N) (y : ((cfg0.win 18).xblock (cfg0.grid.coords t)).Idx) : ((cfg0.win 18).blk t).view.emb y = y := by
  funext a; apply Fin.ext
  obtain ⟨e0, e1⟩ := idx0_18 t
  match a with
  | ⟨0, _⟩ => show win0_18.index t (0 : Fin 2) * 128 + 1 * (y 0).val = (y 0).val; omega
  | ⟨1, _⟩ => show win0_18.index t (1 : Fin 2) * 512 + 1 * (y 1).val = (y 1).val; omega

theorem flushed0_18 (c : Dev nD) (t : Fin cfg0.N) :
    (dat0 V c).flushed 18 t = ((cfg0.win 18).blk t).view.read (Elt F) (T18 V c) := by
  show (cfg0.win 18).cut (grid0.coords t) ((dat0 V c).after 18 t) = _
  rw [after0_18]
  unfold out0_18
  rw [View.canon_unit_zero hz2]
  simp only [View.ld_unit_zero (S := S128x512) hz2, View.ld_unit_zero (S := S512x512) hz2, View.ld_unit_zero (S := S512) hz1,
    blk0_0 V c t, blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t, blk0_15 V c t]
  funext y
  exact (congrArg (T18 V c) (emb0_18 t y)).symm

theorem mem_blk0_18 (t : Fin cfg0.N) (i : S128x512.Idx) :
    i ∈ ((cfg0.win 18).blk t).view.set ↔ ∀ a : Fin 2, win0_18.index t a * S128x512.size a ≤ (i a).val ∧ (i a).val < win0_18.index t a * S128x512.size a + S128x512.size a := by
  show i ∈ ((View.whole main_v0_2).slice (win0_18.rect t)).set ↔ _
  rw [View.set_slice_whole, Rect.mem_set_unit]
  exact Iff.rfl

/-- After the region the array is the gate's derivative factor. -/
theorem final0_18 (c : Dev nD) : (dat0 V c).arrAt 18 cfg0.N = T18 V c :=
  (dat0 V c).arrAt_eq_of_cover 18 _ (fun t _ => flushed0_18 V c t) (fun i => by
    refine ⟨⟨0, pt_pos⟩, flush0_18 _, ?_⟩
    rw [mem_blk0_18]
    intro a
    obtain ⟨e0, e1⟩ := idx0_18 ⟨0, pt_pos⟩
    match a with
    | ⟨0, _⟩ => show win0_18.index _ (0 : Fin 2) * 128 ≤ (i 0).val ∧ (i 0).val < win0_18.index _ (0 : Fin 2) * 128 + 128; have h0 : (i 0).val < 128 := (i 0).isLt; omega
    | ⟨1, _⟩ => show win0_18.index _ (1 : Fin 2) * 512 ≤ (i 1).val ∧ (i 1).val < win0_18.index _ (1 : Fin 2) * 512 + 512; have h1 : (i 1).val < 512 := (i 1).isLt; omega)

theorem idx0_19 : ∀ t : Fin cfg0.N, win0_19.index t (0 : Fin 2) = 0 ∧ win0_19.index t (1 : Fin 2) = 0 :=
  (by decide +kernel : ∀ t : Fin grid0.N, _)

/-- The candidate's derivative factor, as the body computes it from the whole input arrays. -/
abbrev T19 (c : Dev nD) : Vec F S128x512 .f32 := (k0_pay11 (k0_pay7 (V c main_arg0) (V c main_arg1) (V c main_arg7) (V c main_arg5) (V c main_arg6)))

theorem emb0_19 (t : Fin cfg0.N) (y : ((cfg0.win 19).xblock (cfg0.grid.coords t)).Idx) : ((cfg0.win 19).blk t).view.emb y = y := by
  funext a; apply Fin.ext
  obtain ⟨e0, e1⟩ := idx0_19 t
  match a with
  | ⟨0, _⟩ => show win0_19.index t (0 : Fin 2) * 128 + 1 * (y 0).val = (y 0).val; omega
  | ⟨1, _⟩ => show win0_19.index t (1 : Fin 2) * 512 + 1 * (y 1).val = (y 1).val; omega

theorem flushed0_19 (c : Dev nD) (t : Fin cfg0.N) :
    (dat0 V c).flushed 19 t = ((cfg0.win 19).blk t).view.read (Elt F) (T19 V c) := by
  show (cfg0.win 19).cut (grid0.coords t) ((dat0 V c).after 19 t) = _
  rw [after0_19]
  unfold out0_19
  rw [View.canon_unit_zero hz2]
  simp only [View.ld_unit_zero (S := S128x512) hz2, View.ld_unit_zero (S := S512x512) hz2, View.ld_unit_zero (S := S512) hz1,
    blk0_0 V c t, blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t, blk0_15 V c t]
  funext y
  exact (congrArg (T19 V c) (emb0_19 t y)).symm

theorem mem_blk0_19 (t : Fin cfg0.N) (i : S128x512.Idx) :
    i ∈ ((cfg0.win 19).blk t).view.set ↔ ∀ a : Fin 2, win0_19.index t a * S128x512.size a ≤ (i a).val ∧ (i a).val < win0_19.index t a * S128x512.size a + S128x512.size a := by
  show i ∈ ((View.whole main_v0_3).slice (win0_19.rect t)).set ↔ _
  rw [View.set_slice_whole, Rect.mem_set_unit]
  exact Iff.rfl

/-- After the region the array is the candidate's derivative factor. -/
theorem final0_19 (c : Dev nD) : (dat0 V c).arrAt 19 cfg0.N = T19 V c :=
  (dat0 V c).arrAt_eq_of_cover 19 _ (fun t _ => flushed0_19 V c t) (fun i => by
    refine ⟨⟨0, pt_pos⟩, flush0_19 _, ?_⟩
    rw [mem_blk0_19]
    intro a
    obtain ⟨e0, e1⟩ := idx0_19 ⟨0, pt_pos⟩
    match a with
    | ⟨0, _⟩ => show win0_19.index _ (0 : Fin 2) * 128 ≤ (i 0).val ∧ (i 0).val < win0_19.index _ (0 : Fin 2) * 128 + 128; have h0 : (i 0).val < 128 := (i 0).isLt; omega
    | ⟨1, _⟩ => show win0_19.index _ (1 : Fin 2) * 512 ≤ (i 1).val ∧ (i 1).val < win0_19.index _ (1 : Fin 2) * 512 + 512; have h1 : (i 1).val < 512 := (i 1).isLt; omega)

theorem idx0_20 : ∀ t : Fin cfg0.N, win0_20.index t (0 : Fin 2) = 0 ∧ win0_20.index t (1 : Fin 2) = 0 :=
  (by decide +kernel : ∀ t : Fin grid0.N, _)

/-- The candidate minus the old state, as the body computes it from the whole input arrays. -/
abbrev T20 (c : Dev nD) : Vec F S128x512 .f32 := (k0_pay12 (V c main_arg1) (k0_pay7 (V c main_arg0) (V c main_arg1) (V c main_arg7) (V c main_arg5) (V c main_arg6)))

theorem emb0_20 (t : Fin cfg0.N) (y : ((cfg0.win 20).xblock (cfg0.grid.coords t)).Idx) : ((cfg0.win 20).blk t).view.emb y = y := by
  funext a; apply Fin.ext
  obtain ⟨e0, e1⟩ := idx0_20 t
  match a with
  | ⟨0, _⟩ => show win0_20.index t (0 : Fin 2) * 128 + 1 * (y 0).val = (y 0).val; omega
  | ⟨1, _⟩ => show win0_20.index t (1 : Fin 2) * 512 + 1 * (y 1).val = (y 1).val; omega

theorem flushed0_20 (c : Dev nD) (t : Fin cfg0.N) :
    (dat0 V c).flushed 20 t = ((cfg0.win 20).blk t).view.read (Elt F) (T20 V c) := by
  show (cfg0.win 20).cut (grid0.coords t) ((dat0 V c).after 20 t) = _
  rw [after0_20]
  unfold out0_20
  rw [View.canon_unit_zero hz2]
  simp only [View.ld_unit_zero (S := S128x512) hz2, View.ld_unit_zero (S := S512x512) hz2, View.ld_unit_zero (S := S512) hz1,
    blk0_0 V c t, blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t, blk0_15 V c t]
  funext y
  exact (congrArg (T20 V c) (emb0_20 t y)).symm

theorem mem_blk0_20 (t : Fin cfg0.N) (i : S128x512.Idx) :
    i ∈ ((cfg0.win 20).blk t).view.set ↔ ∀ a : Fin 2, win0_20.index t a * S128x512.size a ≤ (i a).val ∧ (i a).val < win0_20.index t a * S128x512.size a + S128x512.size a := by
  show i ∈ ((View.whole main_v0_4).slice (win0_20.rect t)).set ↔ _
  rw [View.set_slice_whole, Rect.mem_set_unit]
  exact Iff.rfl

/-- After the region the array is the candidate minus the old state. -/
theorem final0_20 (c : Dev nD) : (dat0 V c).arrAt 20 cfg0.N = T20 V c :=
  (dat0 V c).arrAt_eq_of_cover 20 _ (fun t _ => flushed0_20 V c t) (fun i => by
    refine ⟨⟨0, pt_pos⟩, flush0_20 _, ?_⟩
    rw [mem_blk0_20]
    intro a
    obtain ⟨e0, e1⟩ := idx0_20 ⟨0, pt_pos⟩
    match a with
    | ⟨0, _⟩ => show win0_20.index _ (0 : Fin 2) * 128 ≤ (i 0).val ∧ (i 0).val < win0_20.index _ (0 : Fin 2) * 128 + 128; have h0 : (i 0).val < 128 := (i 0).isLt; omega
    | ⟨1, _⟩ => show win0_20.index _ (1 : Fin 2) * 512 ≤ (i 1).val ∧ (i 1).val < win0_20.index _ (1 : Fin 2) * 512 + 512; have h1 : (i 1).val < 512 := (i 1).isLt; omega)

theorem idx0_21 : ∀ t : Fin cfg0.N, win0_21.index t (0 : Fin 2) = 0 ∧ win0_21.index t (1 : Fin 2) = 0 :=
  (by decide +kernel : ∀ t : Fin grid0.N, _)

/-- The output, as the body computes it from the whole input arrays. -/
abbrev T21 (c : Dev nD) : Vec F S128x512 .f32 := (k0_pay1 (k0_pay4 (V c main_arg13)) (k0_pay6 (V c main_arg0)) (k0_pay16 (k0_pay8 (V c main_arg0) (V c main_arg1) (V c main_arg4) (V c main_arg7) (V c main_arg2) (V c main_arg3) (V c main_arg5) (V c main_arg6))) (k0_pay17 (k0_pay3 (V c main_arg10)) (k0_pay6 (V c main_arg0)) (k0_pay8 (V c main_arg0) (V c main_arg1) (V c main_arg4) (V c main_arg7) (V c main_arg2) (V c main_arg3) (V c main_arg5) (V c main_arg6)) (V c main_arg8) (V c main_arg9)) (V c main_arg11) (V c main_arg12))

theorem emb0_21 (t : Fin cfg0.N) (y : ((cfg0.win 21).xblock (cfg0.grid.coords t)).Idx) : ((cfg0.win 21).blk t).view.emb y = y := by
  funext a; apply Fin.ext
  obtain ⟨e0, e1⟩ := idx0_21 t
  match a with
  | ⟨0, _⟩ => show win0_21.index t (0 : Fin 2) * 128 + 1 * (y 0).val = (y 0).val; omega
  | ⟨1, _⟩ => show win0_21.index t (1 : Fin 2) * 512 + 1 * (y 1).val = (y 1).val; omega

theorem flushed0_21 (c : Dev nD) (t : Fin cfg0.N) :
    (dat0 V c).flushed 21 t = ((cfg0.win 21).blk t).view.read (Elt F) (T21 V c) := by
  show (cfg0.win 21).cut (grid0.coords t) ((dat0 V c).after 21 t) = _
  rw [after0_21]
  unfold out0_21
  rw [View.canon_unit_zero hz2]
  simp only [View.ld_unit_zero (S := S128x512) hz2, View.ld_unit_zero (S := S512x512) hz2, View.ld_unit_zero (S := S512) hz1,
    blk0_0 V c t, blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t, blk0_15 V c t]
  funext y
  exact (congrArg (T21 V c) (emb0_21 t y)).symm

theorem mem_blk0_21 (t : Fin cfg0.N) (i : S128x512.Idx) :
    i ∈ ((cfg0.win 21).blk t).view.set ↔ ∀ a : Fin 2, win0_21.index t a * S128x512.size a ≤ (i a).val ∧ (i a).val < win0_21.index t a * S128x512.size a + S128x512.size a := by
  show i ∈ ((View.whole main_v0_5).slice (win0_21.rect t)).set ↔ _
  rw [View.set_slice_whole, Rect.mem_set_unit]
  exact Iff.rfl

/-- After the region the array is the output. -/
theorem final0_21 (c : Dev nD) : (dat0 V c).arrAt 21 cfg0.N = T21 V c :=
  (dat0 V c).arrAt_eq_of_cover 21 _ (fun t _ => flushed0_21 V c t) (fun i => by
    refine ⟨⟨0, pt_pos⟩, flush0_21 _, ?_⟩
    rw [mem_blk0_21]
    intro a
    obtain ⟨e0, e1⟩ := idx0_21 ⟨0, pt_pos⟩
    match a with
    | ⟨0, _⟩ => show win0_21.index _ (0 : Fin 2) * 128 ≤ (i 0).val ∧ (i 0).val < win0_21.index _ (0 : Fin 2) * 128 + 128; have h0 : (i 0).val < 128 := (i 0).isLt; omega
    | ⟨1, _⟩ => show win0_21.index _ (1 : Fin 2) * 512 ≤ (i 1).val ∧ (i 1).val < win0_21.index _ (1 : Fin 2) * 512 + 512; have h1 : (i 1).val < 512 := (i 1).isLt; omega)

theorem idx0_22 : ∀ t : Fin cfg0.N, win0_22.index t (0 : Fin 2) = 0 ∧ win0_22.index t (1 : Fin 2) = 0 :=
  (by decide +kernel : ∀ t : Fin grid0.N, _)

/-- The mean of the gate's open indicator, as a 1 by 1 array, as the body computes it from the whole input arrays. -/
abbrev T22 (c : Dev nD) : Vec F S1x1 .f32 := (k0_pay2 (k0_pay9 (k0_pay5 (V c main_arg0) (V c main_arg1) (V c main_arg4) (V c main_arg2) (V c main_arg3))))

theorem emb0_22 (t : Fin cfg0.N) (y : ((cfg0.win 22).xblock (cfg0.grid.coords t)).Idx) : ((cfg0.win 22).blk t).view.emb y = y := by
  funext a; apply Fin.ext
  obtain ⟨e0, e1⟩ := idx0_22 t
  match a with
  | ⟨0, _⟩ => show win0_22.index t (0 : Fin 2) * 1 + 1 * (y 0).val = (y 0).val; omega
  | ⟨1, _⟩ => show win0_22.index t (1 : Fin 2) * 1 + 1 * (y 1).val = (y 1).val; omega

theorem flushed0_22 (c : Dev nD) (t : Fin cfg0.N) :
    (dat0 V c).flushed 22 t = ((cfg0.win 22).blk t).view.read (Elt F) (T22 V c) := by
  show (cfg0.win 22).cut (grid0.coords t) ((dat0 V c).after 22 t) = _
  rw [after0_22]
  unfold out0_22
  rw [View.canon_unit_zero hz2]
  simp only [View.ld_unit_zero (S := S128x512) hz2, View.ld_unit_zero (S := S512x512) hz2, View.ld_unit_zero (S := S512) hz1,
    blk0_0 V c t, blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t, blk0_15 V c t]
  funext y
  exact (congrArg (T22 V c) (emb0_22 t y)).symm

theorem mem_blk0_22 (t : Fin cfg0.N) (i : S1x1.Idx) :
    i ∈ ((cfg0.win 22).blk t).view.set ↔ ∀ a : Fin 2, win0_22.index t a * S1x1.size a ≤ (i a).val ∧ (i a).val < win0_22.index t a * S1x1.size a + S1x1.size a := by
  show i ∈ ((View.whole main_v0_6).slice (win0_22.rect t)).set ↔ _
  rw [View.set_slice_whole, Rect.mem_set_unit]
  exact Iff.rfl

/-- After the region the array is the mean of the gate's open indicator, as a 1 by 1 array. -/
theorem final0_22 (c : Dev nD) : (dat0 V c).arrAt 22 cfg0.N = T22 V c :=
  (dat0 V c).arrAt_eq_of_cover 22 _ (fun t _ => flushed0_22 V c t) (fun i => by
    refine ⟨⟨0, pt_pos⟩, flush0_22 _, ?_⟩
    rw [mem_blk0_22]
    intro a
    obtain ⟨e0, e1⟩ := idx0_22 ⟨0, pt_pos⟩
    match a with
    | ⟨0, _⟩ => show win0_22.index _ (0 : Fin 2) * 1 ≤ (i 0).val ∧ (i 0).val < win0_22.index _ (0 : Fin 2) * 1 + 1; have h0 : (i 0).val < 1 := (i 0).isLt; omega
    | ⟨1, _⟩ => show win0_22.index _ (1 : Fin 2) * 1 ≤ (i 1).val ∧ (i 1).val < win0_22.index _ (1 : Fin 2) * 1 + 1; have h1 : (i 1).val < 1 := (i 1).isLt; omega)

theorem idx0_23 : ∀ t : Fin cfg0.N, win0_23.index t (0 : Fin 2) = 0 ∧ win0_23.index t (1 : Fin 2) = 0 :=
  (by decide +kernel : ∀ t : Fin grid0.N, _)

/-- The gate bias trace, as the body computes it from the whole input arrays. -/
abbrev T23 (c : Dev nD) : Vec F S128x512 .f32 := (k0_pay14 (V c main_arg1) (k0_pay5 (V c main_arg0) (V c main_arg1) (V c main_arg4) (V c main_arg2) (V c main_arg3)) (k0_pay7 (V c main_arg0) (V c main_arg1) (V c main_arg7) (V c main_arg5) (V c main_arg6)) (V c main_arg16))

theorem emb0_23 (t : Fin cfg0.N) (y : ((cfg0.win 23).xblock (cfg0.grid.coords t)).Idx) : ((cfg0.win 23).blk t).view.emb y = y := by
  funext a; apply Fin.ext
  obtain ⟨e0, e1⟩ := idx0_23 t
  match a with
  | ⟨0, _⟩ => show win0_23.index t (0 : Fin 2) * 128 + 1 * (y 0).val = (y 0).val; omega
  | ⟨1, _⟩ => show win0_23.index t (1 : Fin 2) * 512 + 1 * (y 1).val = (y 1).val; omega

theorem flushed0_23 (c : Dev nD) (t : Fin cfg0.N) :
    (dat0 V c).flushed 23 t = ((cfg0.win 23).blk t).view.read (Elt F) (T23 V c) := by
  show (cfg0.win 23).cut (grid0.coords t) ((dat0 V c).after 23 t) = _
  rw [after0_23]
  unfold out0_23
  rw [View.canon_unit_zero hz2]
  simp only [View.ld_unit_zero (S := S128x512) hz2, View.ld_unit_zero (S := S512x512) hz2, View.ld_unit_zero (S := S512) hz1,
    blk0_0 V c t, blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t, blk0_15 V c t]
  funext y
  exact (congrArg (T23 V c) (emb0_23 t y)).symm

theorem mem_blk0_23 (t : Fin cfg0.N) (i : S128x512.Idx) :
    i ∈ ((cfg0.win 23).blk t).view.set ↔ ∀ a : Fin 2, win0_23.index t a * S128x512.size a ≤ (i a).val ∧ (i a).val < win0_23.index t a * S128x512.size a + S128x512.size a := by
  show i ∈ ((View.whole main_v0_7).slice (win0_23.rect t)).set ↔ _
  rw [View.set_slice_whole, Rect.mem_set_unit]
  exact Iff.rfl

/-- After the region the array is the gate bias trace. -/
theorem final0_23 (c : Dev nD) : (dat0 V c).arrAt 23 cfg0.N = T23 V c :=
  (dat0 V c).arrAt_eq_of_cover 23 _ (fun t _ => flushed0_23 V c t) (fun i => by
    refine ⟨⟨0, pt_pos⟩, flush0_23 _, ?_⟩
    rw [mem_blk0_23]
    intro a
    obtain ⟨e0, e1⟩ := idx0_23 ⟨0, pt_pos⟩
    match a with
    | ⟨0, _⟩ => show win0_23.index _ (0 : Fin 2) * 128 ≤ (i 0).val ∧ (i 0).val < win0_23.index _ (0 : Fin 2) * 128 + 128; have h0 : (i 0).val < 128 := (i 0).isLt; omega
    | ⟨1, _⟩ => show win0_23.index _ (1 : Fin 2) * 512 ≤ (i 1).val ∧ (i 1).val < win0_23.index _ (1 : Fin 2) * 512 + 512; have h1 : (i 1).val < 512 := (i 1).isLt; omega)

theorem idx0_24 : ∀ t : Fin cfg0.N, win0_24.index t (0 : Fin 2) = 0 ∧ win0_24.index t (1 : Fin 2) = 0 :=
  (by decide +kernel : ∀ t : Fin grid0.N, _)

/-- The candidate bias trace, as the body computes it from the whole input arrays. -/
abbrev T24 (c : Dev nD) : Vec F S128x512 .f32 := (k0_pay15 (k0_pay5 (V c main_arg0) (V c main_arg1) (V c main_arg4) (V c main_arg2) (V c main_arg3)) (k0_pay7 (V c main_arg0) (V c main_arg1) (V c main_arg7) (V c main_arg5) (V c main_arg6)) (V c main_arg19))

theorem emb0_24 (t : Fin cfg0.N) (y : ((cfg0.win 24).xblock (cfg0.grid.coords t)).Idx) : ((cfg0.win 24).blk t).view.emb y = y := by
  funext a; apply Fin.ext
  obtain ⟨e0, e1⟩ := idx0_24 t
  match a with
  | ⟨0, _⟩ => show win0_24.index t (0 : Fin 2) * 128 + 1 * (y 0).val = (y 0).val; omega
  | ⟨1, _⟩ => show win0_24.index t (1 : Fin 2) * 512 + 1 * (y 1).val = (y 1).val; omega

theorem flushed0_24 (c : Dev nD) (t : Fin cfg0.N) :
    (dat0 V c).flushed 24 t = ((cfg0.win 24).blk t).view.read (Elt F) (T24 V c) := by
  show (cfg0.win 24).cut (grid0.coords t) ((dat0 V c).after 24 t) = _
  rw [after0_24]
  unfold out0_24
  rw [View.canon_unit_zero hz2]
  simp only [View.ld_unit_zero (S := S128x512) hz2, View.ld_unit_zero (S := S512x512) hz2, View.ld_unit_zero (S := S512) hz1,
    blk0_0 V c t, blk0_1 V c t, blk0_2 V c t, blk0_3 V c t, blk0_4 V c t, blk0_5 V c t, blk0_6 V c t, blk0_7 V c t, blk0_8 V c t, blk0_9 V c t, blk0_10 V c t, blk0_11 V c t, blk0_12 V c t, blk0_13 V c t, blk0_14 V c t, blk0_15 V c t]
  funext y
  exact (congrArg (T24 V c) (emb0_24 t y)).symm

theorem mem_blk0_24 (t : Fin cfg0.N) (i : S128x512.Idx) :
    i ∈ ((cfg0.win 24).blk t).view.set ↔ ∀ a : Fin 2, win0_24.index t a * S128x512.size a ≤ (i a).val ∧ (i a).val < win0_24.index t a * S128x512.size a + S128x512.size a := by
  show i ∈ ((View.whole main_v0_8).slice (win0_24.rect t)).set ↔ _
  rw [View.set_slice_whole, Rect.mem_set_unit]
  exact Iff.rfl

/-- After the region the array is the candidate bias trace. -/
theorem final0_24 (c : Dev nD) : (dat0 V c).arrAt 24 cfg0.N = T24 V c :=
  (dat0 V c).arrAt_eq_of_cover 24 _ (fun t _ => flushed0_24 V c t) (fun i => by
    refine ⟨⟨0, pt_pos⟩, flush0_24 _, ?_⟩
    rw [mem_blk0_24]
    intro a
    obtain ⟨e0, e1⟩ := idx0_24 ⟨0, pt_pos⟩
    match a with
    | ⟨0, _⟩ => show win0_24.index _ (0 : Fin 2) * 128 ≤ (i 0).val ∧ (i 0).val < win0_24.index _ (0 : Fin 2) * 128 + 128; have h0 : (i 0).val < 128 := (i 0).isLt; omega
    | ⟨1, _⟩ => show win0_24.index _ (1 : Fin 2) * 512 ≤ (i 1).val ∧ (i 1).val < win0_24.index _ (1 : Fin 2) * 512 + 512; have h1 : (i 1).val < 512 := (i 1).isLt; omega)

end Cert.KernelIdeal.R0

end
-- ==== Proof.Layout3.lean ====
/-
  Two broadcast reads on an 8 by 128 by 512 block.

  The second kernel's body turns a per-(batch, row) block into a three-axis one by adding a trailing unit axis and
  repeating it along the last axis, and a per-(batch, column) block by adding a middle unit axis and repeating it
  along the middle axis.  Read at (b, j, i) the first is the value at (b, j) and the second the value at (b, i):
  a repeated axis is read at coordinate 0 of the unit axis, and adding a unit axis keeps the row-major position.
-/
import Idealize.ShloMosaic.Lib.Pipeline.Value
import Idealize.ShloMosaic.Lib.ValueIdx

noncomputable section

namespace Cert.Layout3

open Idealize.ShloMosaic Idealize.ShloMosaic.ValueIdx

variable {α : Type}

/-- A block with a trailing unit axis, repeated along the last axis, read at (b, j, i) is the block at (b, j, 0). -/
theorem colmap_apply (w : (⟨3, ![8, 128, 1]⟩ : Shape).Idx → α)
    (h3 : (⟨3, ![8, 128, 1]⟩ : Shape).Broadcasts ⟨3, ![8, 128, 512]⟩) (b : Fin 8) (j : Fin 128) (i : Fin 512) :
    broadcastTo ⟨3, ![8, 128, 512]⟩ w h3 (ix3 b j i) = w (ix3 b j (0 : Fin 1)) :=
  broadcastTo_apply _ h3 (ix3 b j i) (ix3 b j (0 : Fin 1)) (fun a => by
    match a with
    | ⟨0, _⟩ => rfl
    | ⟨1, _⟩ => rfl
    | ⟨2, _⟩ => rfl)

/-- A per-(batch, row) block given a trailing unit axis, read at (b, j, 0), is the block at (b, j). -/
theorem unit_apply (v : (⟨2, ![8, 128]⟩ : Shape).Idx → α)
    (h1 : (⟨2, ![8, 128]⟩ : Shape).ShapeCasts ⟨2, ![8, 128]⟩) (h2 : (⟨2, ![8, 128]⟩ : Shape).ShapeCasts ⟨3, ![8, 128, 1]⟩)
    (b : Fin 8) (j : Fin 128) :
    shapeCast ⟨3, ![8, 128, 1]⟩ (shapeCast ⟨2, ![8, 128]⟩ v h1) h2 (ix3 b j (0 : Fin 1)) = v (ix2 b j) := by
  rw [shapeCast_apply _ h2 (ix3 b j (0 : Fin 1)) (ix2 b j) (by
    rw [Shape.rowMajor_val_two, Shape.rowMajor_val_three]
    show b.val * 128 + j.val = (b.val * 128 + j.val) * 1 + 0
    omega)]
  rw [shapeCast_self]

/-- A value per (batch, row), given a trailing unit axis and broadcast along the last axis, read at (b, j, i) is the
    value at (b, j). -/
theorem col_apply (v : (⟨2, ![8, 128]⟩ : Shape).Idx → α)
    (h1 : (⟨2, ![8, 128]⟩ : Shape).ShapeCasts ⟨2, ![8, 128]⟩) (h2 : (⟨2, ![8, 128]⟩ : Shape).ShapeCasts ⟨3, ![8, 128, 1]⟩)
    (h3 : (⟨3, ![8, 128, 1]⟩ : Shape).Broadcasts ⟨3, ![8, 128, 512]⟩) (b : Fin 8) (j : Fin 128) (i : Fin 512) :
    broadcastTo ⟨3, ![8, 128, 512]⟩ (shapeCast ⟨3, ![8, 128, 1]⟩ (shapeCast ⟨2, ![8, 128]⟩ v h1) h2) h3 (ix3 b j i) = v (ix2 b j) := by
  rw [broadcastTo_apply _ h3 (ix3 b j i) (ix3 b j (0 : Fin 1)) (fun a => by
    match a with
    | ⟨0, _⟩ => rfl
    | ⟨1, _⟩ => rfl
    | ⟨2, _⟩ => rfl)]
  rw [shapeCast_apply _ h2 (ix3 b j (0 : Fin 1)) (ix2 b j) (by
    rw [Shape.rowMajor_val_two, Shape.rowMajor_val_three]
    show b.val * 128 + j.val = (b.val * 128 + j.val) * 1 + 0
    omega)]
  rw [shapeCast_self]

/-- A value per (batch, column), given a middle unit axis and broadcast along the middle axis, read at (b, j, i) is the
    value at (b, i). -/
theorem row_apply (u : (⟨2, ![8, 512]⟩ : Shape).Idx → α)
    (h2 : (⟨2, ![8, 512]⟩ : Shape).ShapeCasts ⟨3, ![8, 1, 512]⟩)
    (h3 : (⟨3, ![8, 1, 512]⟩ : Shape).Broadcasts ⟨3, ![8, 128, 512]⟩) (b : Fin 8) (j : Fin 128) (i : Fin 512) :
    broadcastTo ⟨3, ![8, 128, 512]⟩ (shapeCast ⟨3, ![8, 1, 512]⟩ u h2) h3 (ix3 b j i) = u (ix2 b i) := by
  rw [broadcastTo_apply _ h3 (ix3 b j i) (ix3 b (0 : Fin 1) i) (fun a => by
    match a with
    | ⟨0, _⟩ => rfl
    | ⟨1, _⟩ => rfl
    | ⟨2, _⟩ => rfl)]
  rw [shapeCast_apply _ h2 (ix3 b (0 : Fin 1) i) (ix2 b i) (by
    rw [Shape.rowMajor_val_two, Shape.rowMajor_val_three]
    show b.val * 512 + i.val = (b.val * 1 + 0) * 512 + i.val
    omega)]

end Cert.Layout3

end
-- ==== Proof.R1.lean ====
/-
  Region two of the idealized kernel: what its four output arrays hold when it ends.

  The second kernel runs on a 16 by 4 grid.  At point (s, r) every three-axis window holds the 8 by 128 by 512 block
  at block index (s, r, 0) of its array, the two input-activation windows the 8 by 512 block at (s, 0), and the four
  per-(batch, row) windows the 8 by 128 block at (s, r): an element (b, j, i) of the block is element
  (8 s + b, 128 r + j, i) of the array.  The body stores, into each output block,
      E[b,j,i] * (1 - g[b,j]) + p[b,j] * u[b,i] * q[b,j]
  with (E, p, u, q) the old trace, a derivative factor, an input activation and a second per-(batch, row) factor.
  The blocks tile each output array (the point covering row index n is n / 8, and n / 128 on the second axis), so
  each output array ends as that one function of the arrays the region finds, at every index.
-/
import proofs.«104354_j17927193494438_2_alg».proof.Proof.Gen.KernelIdeal.Frame
import proofs.«104354_j17927193494438_2_alg».proof.Proof.Layout3
import Idealize.ShloMosaic.Lib.Pipeline.Value
import Idealize.ShloMosaic.Lib.ValueIdx
import Idealize.ShloMosaic.PureOps.Ideal

set_option maxRecDepth 16384

noncomputable section

namespace Cert.KernelIdeal.R1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The float 1. -/
abbrev one : EReal := Ideal.ofBits .f32 0x3F800000#32

/-- The trace update at an index: E[b,j,i] * (1 - g[b,j]) + p[b,j] * u[b,i] * q[b,j]. -/
def trace (E : S128x512x512.Idx → EReal) (g p u q : S128x512.Idx → EReal) : S128x512x512.Idx → EReal :=
  fun i => E i * (one - g (ix2 (i 0) (i 1))) + p (ix2 (i 0) (i 1)) * u (ix2 (i 0) (i 2)) * q (ix2 (i 0) (i 1))

/-! ## Output window 10: the gate's input-weight trace -/

/-- The printed index maps over the grid: every window the body reads moves with the output window, and the output's
    block indices stay in range. -/
theorem facts1_10 : ∀ t : Fin cfg1.N, win1_0.index t (0 : Fin 3) = win1_10.index t (0 : Fin 3)
    ∧ win1_0.index t (1 : Fin 3) = win1_10.index t (1 : Fin 3)
    ∧ win1_0.index t (2 : Fin 3) = win1_10.index t (2 : Fin 3)
    ∧ win1_4.index t (0 : Fin 2) = win1_10.index t (0 : Fin 3)
    ∧ win1_4.index t (1 : Fin 2) = 0
    ∧ win1_6.index t (0 : Fin 2) = win1_10.index t (0 : Fin 3)
    ∧ win1_6.index t (1 : Fin 2) = win1_10.index t (1 : Fin 3)
    ∧ win1_7.index t (0 : Fin 2) = win1_10.index t (0 : Fin 3)
    ∧ win1_7.index t (1 : Fin 2) = win1_10.index t (1 : Fin 3)
    ∧ win1_9.index t (0 : Fin 2) = win1_10.index t (0 : Fin 3)
    ∧ win1_9.index t (1 : Fin 2) = win1_10.index t (1 : Fin 3)
    ∧ win1_10.index t (2 : Fin 3) = 0
    ∧ win1_10.index t (0 : Fin 3) ≤ 15
    ∧ win1_10.index t (1 : Fin 3) ≤ 3 :=
  (by decide +kernel : ∀ t : Fin grid1.N, _)

/-- Every block of the output array is some point's. -/
theorem onto1_10 : ∀ (q0 : Fin 16) (q1 : Fin 4), ∃ t : Fin cfg1.N, win1_10.index t = ![q0.val, q1.val, 0] :=
  (by decide +kernel : ∀ (q0 : Fin 16) (q1 : Fin 4), ∃ t : Fin grid1.N, win1_10.index t = ![q0.val, q1.val, 0])

/-- The stored value at (b, j, i) of the block, from the loaded blocks. -/
theorem pay1_10 (gB pB qB : FVec Ideal S8x128 .f32) (uB : FVec Ideal S8x512 .f32) (EB : FVec Ideal S8x128x512 .f32)
    (b : Fin 8) (j : Fin 128) (i : Fin 512) :
    (k1_pay1 (k1_pay12 gB EB) (k1_pay13 pB uB) (k1_pay14 qB)) (ix3 b j i)
      = EB (ix3 b j i) * (one - gB (ix2 b j)) + pB (ix2 b j) * uB (ix2 b i) * qB (ix2 b j) := by
  unfold k1_pay1 k1_pay12 k1_pay13 k1_pay14 k1_pay8 k1_pay5 k1_pay9 k1_pay7 k1_pay4
  show EB (ix3 b j i) * (broadcastTo S8x128x512 (subf (broadcast S8x128x1 (Scalar.ofBits .f32 0x3F800000#32)) (shapeCast S8x128x1 (shapeCast S8x128 gB shapeCasts_S8x128_S8x128) shapeCasts_S8x128_S8x128x1)) broadcasts_S8x128x1_S8x128x512 (ix3 b j i))
      + (broadcastTo S8x128x512 (shapeCast S8x128x1 (shapeCast S8x128 pB shapeCasts_S8x128_S8x128) shapeCasts_S8x128_S8x128x1) broadcasts_S8x128x1_S8x128x512 (ix3 b j i))
        * (broadcastTo S8x128x512 (shapeCast S8x1x512 uB shapeCasts_S8x512_S8x1x512) broadcasts_S8x1x512_S8x128x512 (ix3 b j i))
        * (broadcastTo S8x128x512 (shapeCast S8x128x1 (shapeCast S8x128 qB shapeCasts_S8x128_S8x128) shapeCasts_S8x128_S8x128x1) broadcasts_S8x128x1_S8x128x512 (ix3 b j i)) = _
  rw [Cert.Layout3.col_apply pB, Cert.Layout3.col_apply qB, Cert.Layout3.row_apply uB, Cert.Layout3.colmap_apply]
  show EB (ix3 b j i) * (one - shapeCast S8x128x1 (shapeCast S8x128 gB shapeCasts_S8x128_S8x128) shapeCasts_S8x128_S8x128x1 (ix3 b j (0 : Fin 1))) + _ = _
  rw [Cert.Layout3.unit_apply]

/-- The old trace's block, read where the output block sits. -/
theorem rdE1_10 (c : Dev nD) (t : Fin cfg1.N) (b : Fin 8) (j : Fin 128) (i : Fin 512) :
    iblk1 V c 0 t (ix3 b j i) = V c main_arg14 (((cfg1.win 10).blk t).view.emb (ix3 b j i)) := by
  show V c main_arg14 (((cfg1.win 0).blk t).view.emb (ix3 b j i)) = _
  refine congrArg (V c main_arg14) ?_
  funext a; apply Fin.ext
  obtain ⟨f0, f1, f2, f3, f4, f5, f6, f7, f8, f9, f10, f11, f12, f13⟩ := facts1_10 t
  match a with
  | ⟨0, _⟩ => show win1_0.index t (0 : Fin 3) * 8 + 1 * b.val = win1_10.index t (0 : Fin 3) * 8 + 1 * b.val; omega
  | ⟨1, _⟩ => show win1_0.index t (1 : Fin 3) * 128 + 1 * j.val = win1_10.index t (1 : Fin 3) * 128 + 1 * j.val; omega
  | ⟨2, _⟩ => show win1_0.index t (2 : Fin 3) * 512 + 1 * i.val = win1_10.index t (2 : Fin 3) * 512 + 1 * i.val; omega

/-- The input activation's block, read at the output block's batch and column. -/
theorem rdU1_10 (c : Dev nD) (t : Fin cfg1.N) (b : Fin 8) (j : Fin 128) (i : Fin 512) :
    iblk1 V c 4 t (ix2 b i) = V c main_arg0 (ix2 ((((cfg1.win 10).blk t).view.emb (ix3 b j i)) 0) ((((cfg1.win 10).blk t).view.emb (ix3 b j i)) 2)) := by
  show V c main_arg0 (((cfg1.win 4).blk t).view.emb (ix2 b i)) = _
  refine congrArg (V c main_arg0) ?_
  funext a; apply Fin.ext
  obtain ⟨f0, f1, f2, f3, f4, f5, f6, f7, f8, f9, f10, f11, f12, f13⟩ := facts1_10 t
  match a with
  | ⟨0, _⟩ => show win1_4.index t (0 : Fin 2) * 8 + 1 * b.val = win1_10.index t (0 : Fin 3) * 8 + 1 * b.val; omega
  | ⟨1, _⟩ => show win1_4.index t (1 : Fin 2) * 512 + 1 * i.val = win1_10.index t (2 : Fin 3) * 512 + 1 * i.val; omega

/-- A per-(batch, row) block, read at the output block's batch and row. -/
theorem rdS1_10_6 (c : Dev nD) (t : Fin cfg1.N) (b : Fin 8) (j : Fin 128) (i : Fin 512) :
    iblk1 V c 6 t (ix2 b j) = V c main_v0_1 (ix2 ((((cfg1.win 10).blk t).view.emb (ix3 b j i)) 0) ((((cfg1.win 10).blk t).view.emb (ix3 b j i)) 1)) := by
  show V c main_v0_1 (((cfg1.win 6).blk t).view.emb (ix2 b j)) = _
  refine congrArg (V c main_v0_1) ?_
  funext a; apply Fin.ext
  obtain ⟨f0, f1, f2, f3, f4, f5, f6, f7, f8, f9, f10, f11, f12, f13⟩ := facts1_10 t
  match a with
  | ⟨0, _⟩ => show win1_6.index t (0 : Fin 2) * 8 + 1 * b.val = win1_10.index t (0 : Fin 3) * 8 + 1 * b.val; omega
  | ⟨1, _⟩ => show win1_6.index t (1 : Fin 2) * 128 + 1 * j.val = win1_10.index t (1 : Fin 3) * 128 + 1 * j.val; omega

/-- A per-(batch, row) block, read at the output block's batch and row. -/
theorem rdS1_10_7 (c : Dev nD) (t : Fin cfg1.N) (b : Fin 8) (j : Fin 128) (i : Fin 512) :
    iblk1 V c 7 t (ix2 b j) = V c main_v0_2 (ix2 ((((cfg1.win 10).blk t).view.emb (ix3 b j i)) 0) ((((cfg1.win 10).blk t).view.emb (ix3 b j i)) 1)) := by
  show V c main_v0_2 (((cfg1.win 7).blk t).view.emb (ix2 b j)) = _
  refine congrArg (V c main_v0_2) ?_
  funext a; apply Fin.ext
  obtain ⟨f0, f1, f2, f3, f4, f5, f6, f7, f8, f9, f10, f11, f12, f13⟩ := facts1_10 t
  match a with
  | ⟨0, _⟩ => show win1_7.index t (0 : Fin 2) * 8 + 1 * b.val = win1_10.index t (0 : Fin 3) * 8 + 1 * b.val; omega
  | ⟨1, _⟩ => show win1_7.index t (1 : Fin 2) * 128 + 1 * j.val = win1_10.index t (1 : Fin 3) * 128 + 1 * j.val; omega

/-- A per-(batch, row) block, read at the output block's batch and row. -/
theorem rdS1_10_9 (c : Dev nD) (t : Fin cfg1.N) (b : Fin 8) (j : Fin 128) (i : Fin 512) :
    iblk1 V c 9 t (ix2 b j) = V c main_v0_4 (ix2 ((((cfg1.win 10).blk t).view.emb (ix3 b j i)) 0) ((((cfg1.win 10).blk t).view.emb (ix3 b j i)) 1)) := by
  show V c main_v0_4 (((cfg1.win 9).blk t).view.emb (ix2 b j)) = _
  refine congrArg (V c main_v0_4) ?_
  funext a; apply Fin.ext
  obtain ⟨f0, f1, f2, f3, f4, f5, f6, f7, f8, f9, f10, f11, f12, f13⟩ := facts1_10 t
  match a with
  | ⟨0, _⟩ => show win1_9.index t (0 : Fin 2) * 8 + 1 * b.val = win1_10.index t (0 : Fin 3) * 8 + 1 * b.val; omega
  | ⟨1, _⟩ => show win1_9.index t (1 : Fin 2) * 128 + 1 * j.val = win1_10.index t (1 : Fin 3) * 128 + 1 * j.val; omega

/-- The array this window ends as: the trace update of the arrays the region finds. -/
abbrev G10 (c : Dev nD) : S128x512x512.Idx → EReal :=
  trace (V c main_arg14) (V c main_v0_1) (V c main_v0_2) (V c main_arg0) (V c main_v0_4)

/-- What a point writes back is its block of that array. -/
theorem flushed1_10 (c : Dev nD) (t : Fin cfg1.N) :
    (dat1 V c).flushed 10 t = ((cfg1.win 10).blk t).view.read (Elt Ideal) (G10 V c) := by
  show (cfg1.win 10).cut (grid1.coords t) ((dat1 V c).after 10 t) = _
  rw [after1_10]
  unfold out1_10
  rw [View.canon_unit_zero hz3]
  simp only [View.ld_unit_zero (S := S8x128x512) hz3, View.ld_unit_zero (S := S8x128) hz2, View.ld_unit_zero (S := S8x512) hz2]
  funext y
  obtain ⟨b, j, i, rfl⟩ : ∃ (b : Fin 8) (j : Fin 128) (i : Fin 512), y = ix3 b j i := ⟨y 0, y 1, y 2, eq_ix3 y⟩
  refine (pay1_10 (iblk1 V c 6 t) (iblk1 V c 7 t) (iblk1 V c 9 t) (iblk1 V c 4 t) (iblk1 V c 0 t) b j i).trans ?_
  rw [rdE1_10 V c t b j i, rdU1_10 V c t b j i, rdS1_10_6 V c t b j i, rdS1_10_7 V c t b j i, rdS1_10_9 V c t b j i]
  rfl

theorem mem_blk1_10 (t : Fin cfg1.N) (i : S128x512x512.Idx) :
    i ∈ ((cfg1.win 10).blk t).view.set ↔ ∀ a : Fin 3, win1_10.index t a * S8x128x512.size a ≤ (i a).val ∧ (i a).val < win1_10.index t a * S8x128x512.size a + S8x128x512.size a := by
  show i ∈ ((View.whole main_v2_0).slice (win1_10.rect t)).set ↔ _
  rw [View.set_slice_whole, Rect.mem_set_unit]
  exact Iff.rfl

/-- After the region the array is the gate's input-weight trace, updated, at every index. -/
theorem final1_10 (c : Dev nD) : (dat1 V c).arrAt 10 cfg1.N = G10 V c :=
  (dat1 V c).arrAt_eq_of_cover 10 _ (fun t _ => flushed1_10 V c t) (fun i => by
    have hi0 : (i 0).val < 128 := (i 0).isLt
    have hi1 : (i 1).val < 512 := (i 1).isLt
    have hi2 : (i 2).val < 512 := (i 2).isLt
    obtain ⟨t, ht⟩ := onto1_10 ⟨(i 0).val / 8, by omega⟩ ⟨(i 1).val / 128, by omega⟩
    have q0 : win1_10.index t (0 : Fin 3) = (i 0).val / 8 := congrFun ht 0
    have q1 : win1_10.index t (1 : Fin 3) = (i 1).val / 128 := congrFun ht 1
    have q2 : win1_10.index t (2 : Fin 3) = 0 := congrFun ht 2
    refine ⟨t, flush1_10 t, ?_⟩
    rw [mem_blk1_10]
    intro a
    match a with
    | ⟨0, _⟩ => show win1_10.index t (0 : Fin 3) * 8 ≤ (i 0).val ∧ (i 0).val < win1_10.index t (0 : Fin 3) * 8 + 8; omega
    | ⟨1, _⟩ => show win1_10.index t (1 : Fin 3) * 128 ≤ (i 1).val ∧ (i 1).val < win1_10.index t (1 : Fin 3) * 128 + 128; omega
    | ⟨2, _⟩ => show win1_10.index t (2 : Fin 3) * 512 ≤ (i 2).val ∧ (i 2).val < win1_10.index t (2 : Fin 3) * 512 + 512; omega)

/-! ## Output window 11: the gate's hidden-weight trace -/

/-- The printed index maps over the grid: every window the body reads moves with the output window, and the output's
    block indices stay in range. -/
theorem facts1_11 : ∀ t : Fin cfg1.N, win1_1.index t (0 : Fin 3) = win1_11.index t (0 : Fin 3)
    ∧ win1_1.index t (1 : Fin 3) = win1_11.index t (1 : Fin 3)
    ∧ win1_1.index t (2 : Fin 3) = win1_11.index t (2 : Fin 3)
    ∧ win1_5.index t (0 : Fin 2) = win1_11.index t (0 : Fin 3)
    ∧ win1_5.index t (1 : Fin 2) = 0
    ∧ win1_6.index t (0 : Fin 2) = win1_11.index t (0 : Fin 3)
    ∧ win1_6.index t (1 : Fin 2) = win1_11.index t (1 : Fin 3)
    ∧ win1_7.index t (0 : Fin 2) = win1_11.index t (0 : Fin 3)
    ∧ win1_7.index t (1 : Fin 2) = win1_11.index t (1 : Fin 3)
    ∧ win1_9.index t (0 : Fin 2) = win1_11.index t (0 : Fin 3)
    ∧ win1_9.index t (1 : Fin 2) = win1_11.index t (1 : Fin 3)
    ∧ win1_11.index t (2 : Fin 3) = 0
    ∧ win1_11.index t (0 : Fin 3) ≤ 15
    ∧ win1_11.index t (1 : Fin 3) ≤ 3 :=
  (by decide +kernel : ∀ t : Fin grid1.N, _)

/-- Every block of the output array is some point's. -/
theorem onto1_11 : ∀ (q0 : Fin 16) (q1 : Fin 4), ∃ t : Fin cfg1.N, win1_11.index t = ![q0.val, q1.val, 0] :=
  (by decide +kernel : ∀ (q0 : Fin 16) (q1 : Fin 4), ∃ t : Fin grid1.N, win1_11.index t = ![q0.val, q1.val, 0])

/-- The stored value at (b, j, i) of the block, from the loaded blocks. -/
theorem pay1_11 (gB pB qB : FVec Ideal S8x128 .f32) (uB : FVec Ideal S8x512 .f32) (EB : FVec Ideal S8x128x512 .f32)
    (b : Fin 8) (j : Fin 128) (i : Fin 512) :
    (k1_pay11 gB pB qB uB EB) (ix3 b j i)
      = EB (ix3 b j i) * (one - gB (ix2 b j)) + pB (ix2 b j) * uB (ix2 b i) * qB (ix2 b j) := by
  unfold k1_pay11 k1_pay8 k1_pay5 k1_pay10 k1_pay7 k1_pay4
  show EB (ix3 b j i) * (broadcastTo S8x128x512 (subf (broadcast S8x128x1 (Scalar.ofBits .f32 0x3F800000#32)) (shapeCast S8x128x1 (shapeCast S8x128 gB shapeCasts_S8x128_S8x128) shapeCasts_S8x128_S8x128x1)) broadcasts_S8x128x1_S8x128x512 (ix3 b j i))
      + (broadcastTo S8x128x512 (shapeCast S8x128x1 (shapeCast S8x128 pB shapeCasts_S8x128_S8x128) shapeCasts_S8x128_S8x128x1) broadcasts_S8x128x1_S8x128x512 (ix3 b j i))
        * (broadcastTo S8x128x512 (shapeCast S8x1x512 uB shapeCasts_S8x512_S8x1x512) broadcasts_S8x1x512_S8x128x512 (ix3 b j i))
        * (broadcastTo S8x128x512 (shapeCast S8x128x1 (shapeCast S8x128 qB shapeCasts_S8x128_S8x128) shapeCasts_S8x128_S8x128x1) broadcasts_S8x128x1_S8x128x512 (ix3 b j i)) = _
  rw [Cert.Layout3.col_apply pB, Cert.Layout3.col_apply qB, Cert.Layout3.row_apply uB, Cert.Layout3.colmap_apply]
  show EB (ix3 b j i) * (one - shapeCast S8x128x1 (shapeCast S8x128 gB shapeCasts_S8x128_S8x128) shapeCasts_S8x128_S8x128x1 (ix3 b j (0 : Fin 1))) + _ = _
  rw [Cert.Layout3.unit_apply]

/-- The old trace's block, read where the output block sits. -/
theorem rdE1_11 (c : Dev nD) (t : Fin cfg1.N) (b : Fin 8) (j : Fin 128) (i : Fin 512) :
    iblk1 V c 1 t (ix3 b j i) = V c main_arg15 (((cfg1.win 11).blk t).view.emb (ix3 b j i)) := by
  show V c main_arg15 (((cfg1.win 1).blk t).view.emb (ix3 b j i)) = _
  refine congrArg (V c main_arg15) ?_
  funext a; apply Fin.ext
  obtain ⟨f0, f1, f2, f3, f4, f5, f6, f7, f8, f9, f10, f11, f12, f13⟩ := facts1_11 t
  match a with
  | ⟨0, _⟩ => show win1_1.index t (0 : Fin 3) * 8 + 1 * b.val = win1_11.index t (0 : Fin 3) * 8 + 1 * b.val; omega
  | ⟨1, _⟩ => show win1_1.index t (1 : Fin 3) * 128 + 1 * j.val = win1_11.index t (1 : Fin 3) * 128 + 1 * j.val; omega
  | ⟨2, _⟩ => show win1_1.index t (2 : Fin 3) * 512 + 1 * i.val = win1_11.index t (2 : Fin 3) * 512 + 1 * i.val; omega

/-- The input activation's block, read at the output block's batch and column. -/
theorem rdU1_11 (c : Dev nD) (t : Fin cfg1.N) (b : Fin 8) (j : Fin 128) (i : Fin 512) :
    iblk1 V c 5 t (ix2 b i) = V c main_arg1 (ix2 ((((cfg1.win 11).blk t).view.emb (ix3 b j i)) 0) ((((cfg1.win 11).blk t).view.emb (ix3 b j i)) 2)) := by
  show V c main_arg1 (((cfg1.win 5).blk t).view.emb (ix2 b i)) = _
  refine congrArg (V c main_arg1) ?_
  funext a; apply Fin.ext
  obtain ⟨f0, f1, f2, f3, f4, f5, f6, f7, f8, f9, f10, f11, f12, f13⟩ := facts1_11 t
  match a with
  | ⟨0, _⟩ => show win1_5.index t (0 : Fin 2) * 8 + 1 * b.val = win1_11.index t (0 : Fin 3) * 8 + 1 * b.val; omega
  | ⟨1, _⟩ => show win1_5.index t (1 : Fin 2) * 512 + 1 * i.val = win1_11.index t (2 : Fin 3) * 512 + 1 * i.val; omega

/-- A per-(batch, row) block, read at the output block's batch and row. -/
theorem rdS1_11_6 (c : Dev nD) (t : Fin cfg1.N) (b : Fin 8) (j : Fin 128) (i : Fin 512) :
    iblk1 V c 6 t (ix2 b j) = V c main_v0_1 (ix2 ((((cfg1.win 11).blk t).view.emb (ix3 b j i)) 0) ((((cfg1.win 11).blk t).view.emb (ix3 b j i)) 1)) := by
  show V c main_v0_1 (((cfg1.win 6).blk t).view.emb (ix2 b j)) = _
  refine congrArg (V c main_v0_1) ?_
  funext a; apply Fin.ext
  obtain ⟨f0, f1, f2, f3, f4, f5, f6, f7, f8, f9, f10, f11, f12, f13⟩ := facts1_11 t
  match a with
  | ⟨0, _⟩ => show win1_6.index t (0 : Fin 2) * 8 + 1 * b.val = win1_11.index t (0 : Fin 3) * 8 + 1 * b.val; omega
  | ⟨1, _⟩ => show win1_6.index t (1 : Fin 2) * 128 + 1 * j.val = win1_11.index t (1 : Fin 3) * 128 + 1 * j.val; omega

/-- A per-(batch, row) block, read at the output block's batch and row. -/
theorem rdS1_11_7 (c : Dev nD) (t : Fin cfg1.N) (b : Fin 8) (j : Fin 128) (i : Fin 512) :
    iblk1 V c 7 t (ix2 b j) = V c main_v0_2 (ix2 ((((cfg1.win 11).blk t).view.emb (ix3 b j i)) 0) ((((cfg1.win 11).blk t).view.emb (ix3 b j i)) 1)) := by
  show V c main_v0_2 (((cfg1.win 7).blk t).view.emb (ix2 b j)) = _
  refine congrArg (V c main_v0_2) ?_
  funext a; apply Fin.ext
  obtain ⟨f0, f1, f2, f3, f4, f5, f6, f7, f8, f9, f10, f11, f12, f13⟩ := facts1_11 t
  match a with
  | ⟨0, _⟩ => show win1_7.index t (0 : Fin 2) * 8 + 1 * b.val = win1_11.index t (0 : Fin 3) * 8 + 1 * b.val; omega
  | ⟨1, _⟩ => show win1_7.index t (1 : Fin 2) * 128 + 1 * j.val = win1_11.index t (1 : Fin 3) * 128 + 1 * j.val; omega

/-- A per-(batch, row) block, read at the output block's batch and row. -/
theorem rdS1_11_9 (c : Dev nD) (t : Fin cfg1.N) (b : Fin 8) (j : Fin 128) (i : Fin 512) :
    iblk1 V c 9 t (ix2 b j) = V c main_v0_4 (ix2 ((((cfg1.win 11).blk t).view.emb (ix3 b j i)) 0) ((((cfg1.win 11).blk t).view.emb (ix3 b j i)) 1)) := by
  show V c main_v0_4 (((cfg1.win 9).blk t).view.emb (ix2 b j)) = _
  refine congrArg (V c main_v0_4) ?_
  funext a; apply Fin.ext
  obtain ⟨f0, f1, f2, f3, f4, f5, f6, f7, f8, f9, f10, f11, f12, f13⟩ := facts1_11 t
  match a with
  | ⟨0, _⟩ => show win1_9.index t (0 : Fin 2) * 8 + 1 * b.val = win1_11.index t (0 : Fin 3) * 8 + 1 * b.val; omega
  | ⟨1, _⟩ => show win1_9.index t (1 : Fin 2) * 128 + 1 * j.val = win1_11.index t (1 : Fin 3) * 128 + 1 * j.val; omega

/-- The array this window ends as: the trace update of the arrays the region finds. -/
abbrev G11 (c : Dev nD) : S128x512x512.Idx → EReal :=
  trace (V c main_arg15) (V c main_v0_1) (V c main_v0_2) (V c main_arg1) (V c main_v0_4)

/-- What a point writes back is its block of that array. -/
theorem flushed1_11 (c : Dev nD) (t : Fin cfg1.N) :
    (dat1 V c).flushed 11 t = ((cfg1.win 11).blk t).view.read (Elt Ideal) (G11 V c) := by
  show (cfg1.win 11).cut (grid1.coords t) ((dat1 V c).after 11 t) = _
  rw [after1_11]
  unfold out1_11
  rw [View.canon_unit_zero hz3]
  simp only [View.ld_unit_zero (S := S8x128x512) hz3, View.ld_unit_zero (S := S8x128) hz2, View.ld_unit_zero (S := S8x512) hz2]
  funext y
  obtain ⟨b, j, i, rfl⟩ : ∃ (b : Fin 8) (j : Fin 128) (i : Fin 512), y = ix3 b j i := ⟨y 0, y 1, y 2, eq_ix3 y⟩
  refine (pay1_11 (iblk1 V c 6 t) (iblk1 V c 7 t) (iblk1 V c 9 t) (iblk1 V c 5 t) (iblk1 V c 1 t) b j i).trans ?_
  rw [rdE1_11 V c t b j i, rdU1_11 V c t b j i, rdS1_11_6 V c t b j i, rdS1_11_7 V c t b j i, rdS1_11_9 V c t b j i]
  rfl

theorem mem_blk1_11 (t : Fin cfg1.N) (i : S128x512x512.Idx) :
    i ∈ ((cfg1.win 11).blk t).view.set ↔ ∀ a : Fin 3, win1_11.index t a * S8x128x512.size a ≤ (i a).val ∧ (i a).val < win1_11.index t a * S8x128x512.size a + S8x128x512.size a := by
  show i ∈ ((View.whole main_v2_1).slice (win1_11.rect t)).set ↔ _
  rw [View.set_slice_whole, Rect.mem_set_unit]
  exact Iff.rfl

/-- After the region the array is the gate's hidden-weight trace, updated, at every index. -/
theorem final1_11 (c : Dev nD) : (dat1 V c).arrAt 11 cfg1.N = G11 V c :=
  (dat1 V c).arrAt_eq_of_cover 11 _ (fun t _ => flushed1_11 V c t) (fun i => by
    have hi0 : (i 0).val < 128 := (i 0).isLt
    have hi1 : (i 1).val < 512 := (i 1).isLt
    have hi2 : (i 2).val < 512 := (i 2).isLt
    obtain ⟨t, ht⟩ := onto1_11 ⟨(i 0).val / 8, by omega⟩ ⟨(i 1).val / 128, by omega⟩
    have q0 : win1_11.index t (0 : Fin 3) = (i 0).val / 8 := congrFun ht 0
    have q1 : win1_11.index t (1 : Fin 3) = (i 1).val / 128 := congrFun ht 1
    have q2 : win1_11.index t (2 : Fin 3) = 0 := congrFun ht 2
    refine ⟨t, flush1_11 t, ?_⟩
    rw [mem_blk1_11]
    intro a
    match a with
    | ⟨0, _⟩ => show win1_11.index t (0 : Fin 3) * 8 ≤ (i 0).val ∧ (i 0).val < win1_11.index t (0 : Fin 3) * 8 + 8; omega
    | ⟨1, _⟩ => show win1_11.index t (1 : Fin 3) * 128 ≤ (i 1).val ∧ (i 1).val < win1_11.index t (1 : Fin 3) * 128 + 128; omega
    | ⟨2, _⟩ => show win1_11.index t (2 : Fin 3) * 512 ≤ (i 2).val ∧ (i 2).val < win1_11.index t (2 : Fin 3) * 512 + 512; omega)

/-! ## Output window 12: the candidate's input-weight trace -/

/-- The printed index maps over the grid: every window the body reads moves with the output window, and the output's
    block indices stay in range. -/
theorem facts1_12 : ∀ t : Fin cfg1.N, win1_2.index t (0 : Fin 3) = win1_12.index t (0 : Fin 3)
    ∧ win1_2.index t (1 : Fin 3) = win1_12.index t (1 : Fin 3)
    ∧ win1_2.index t (2 : Fin 3) = win1_12.index t (2 : Fin 3)
    ∧ win1_4.index t (0 : Fin 2) = win1_12.index t (0 : Fin 3)
    ∧ win1_4.index t (1 : Fin 2) = 0
    ∧ win1_6.index t (0 : Fin 2) = win1_12.index t (0 : Fin 3)
    ∧ win1_6.index t (1 : Fin 2) = win1_12.index t (1 : Fin 3)
    ∧ win1_8.index t (0 : Fin 2) = win1_12.index t (0 : Fin 3)
    ∧ win1_8.index t (1 : Fin 2) = win1_12.index t (1 : Fin 3)
    ∧ win1_12.index t (2 : Fin 3) = 0
    ∧ win1_12.index t (0 : Fin 3) ≤ 15
    ∧ win1_12.index t (1 : Fin 3) ≤ 3 :=
  (by decide +kernel : ∀ t : Fin grid1.N, _)

/-- Every block of the output array is some point's. -/
theorem onto1_12 : ∀ (q0 : Fin 16) (q1 : Fin 4), ∃ t : Fin cfg1.N, win1_12.index t = ![q0.val, q1.val, 0] :=
  (by decide +kernel : ∀ (q0 : Fin 16) (q1 : Fin 4), ∃ t : Fin grid1.N, win1_12.index t = ![q0.val, q1.val, 0])

/-- The stored value at (b, j, i) of the block, from the loaded blocks. -/
theorem pay1_12 (gB pB qB : FVec Ideal S8x128 .f32) (uB : FVec Ideal S8x512 .f32) (EB : FVec Ideal S8x128x512 .f32)
    (b : Fin 8) (j : Fin 128) (i : Fin 512) :
    (k1_pay3 (k1_pay4 gB) (k1_pay6 pB) (k1_pay8 gB) (k1_pay9 uB) EB) (ix3 b j i)
      = EB (ix3 b j i) * (one - gB (ix2 b j)) + pB (ix2 b j) * uB (ix2 b i) * gB (ix2 b j) := by
  unfold k1_pay3 k1_pay8 k1_pay6 k1_pay9 k1_pay4
  show EB (ix3 b j i) * (broadcastTo S8x128x512 (subf (broadcast S8x128x1 (Scalar.ofBits .f32 0x3F800000#32)) (shapeCast S8x128x1 (shapeCast S8x128 gB shapeCasts_S8x128_S8x128) shapeCasts_S8x128_S8x128x1)) broadcasts_S8x128x1_S8x128x512 (ix3 b j i))
      + (broadcastTo S8x128x512 (shapeCast S8x128x1 (shapeCast S8x128 pB shapeCasts_S8x128_S8x128) shapeCasts_S8x128_S8x128x1) broadcasts_S8x128x1_S8x128x512 (ix3 b j i))
        * (broadcastTo S8x128x512 (shapeCast S8x1x512 uB shapeCasts_S8x512_S8x1x512) broadcasts_S8x1x512_S8x128x512 (ix3 b j i))
        * (broadcastTo S8x128x512 (shapeCast S8x128x1 (shapeCast S8x128 gB shapeCasts_S8x128_S8x128) shapeCasts_S8x128_S8x128x1) broadcasts_S8x128x1_S8x128x512 (ix3 b j i)) = _
  rw [Cert.Layout3.col_apply pB, Cert.Layout3.col_apply gB, Cert.Layout3.row_apply uB, Cert.Layout3.colmap_apply]
  show EB (ix3 b j i) * (one - shapeCast S8x128x1 (shapeCast S8x128 gB shapeCasts_S8x128_S8x128) shapeCasts_S8x128_S8x128x1 (ix3 b j (0 : Fin 1))) + _ = _
  rw [Cert.Layout3.unit_apply]

/-- The old trace's block, read where the output block sits. -/
theorem rdE1_12 (c : Dev nD) (t : Fin cfg1.N) (b : Fin 8) (j : Fin 128) (i : Fin 512) :
    iblk1 V c 2 t (ix3 b j i) = V c main_arg17 (((cfg1.win 12).blk t).view.emb (ix3 b j i)) := by
  show V c main_arg17 (((cfg1.win 2).blk t).view.emb (ix3 b j i)) = _
  refine congrArg (V c main_arg17) ?_
  funext a; apply Fin.ext
  obtain ⟨f0, f1, f2, f3, f4, f5, f6, f7, f8, f9, f10, f11⟩ := facts1_12 t
  match a with
  | ⟨0, _⟩ => show win1_2.index t (0 : Fin 3) * 8 + 1 * b.val = win1_12.index t (0 : Fin 3) * 8 + 1 * b.val; omega
  | ⟨1, _⟩ => show win1_2.index t (1 : Fin 3) * 128 + 1 * j.val = win1_12.index t (1 : Fin 3) * 128 + 1 * j.val; omega
  | ⟨2, _⟩ => show win1_2.index t (2 : Fin 3) * 512 + 1 * i.val = win1_12.index t (2 : Fin 3) * 512 + 1 * i.val; omega

/-- The input activation's block, read at the output block's batch and column. -/
theorem rdU1_12 (c : Dev nD) (t : Fin cfg1.N) (b : Fin 8) (j : Fin 128) (i : Fin 512) :
    iblk1 V c 4 t (ix2 b i) = V c main_arg0 (ix2 ((((cfg1.win 12).blk t).view.emb (ix3 b j i)) 0) ((((cfg1.win 12).blk t).view.emb (ix3 b j i)) 2)) := by
  show V c main_arg0 (((cfg1.win 4).blk t).view.emb (ix2 b i)) = _
  refine congrArg (V c main_arg0) ?_
  funext a; apply Fin.ext
  obtain ⟨f0, f1, f2, f3, f4, f5, f6, f7, f8, f9, f10, f11⟩ := facts1_12 t
  match a with
  | ⟨0, _⟩ => show win1_4.index t (0 : Fin 2) * 8 + 1 * b.val = win1_12.index t (0 : Fin 3) * 8 + 1 * b.val; omega
  | ⟨1, _⟩ => show win1_4.index t (1 : Fin 2) * 512 + 1 * i.val = win1_12.index t (2 : Fin 3) * 512 + 1 * i.val; omega

/-- A per-(batch, row) block, read at the output block's batch and row. -/
theorem rdS1_12_6 (c : Dev nD) (t : Fin cfg1.N) (b : Fin 8) (j : Fin 128) (i : Fin 512) :
    iblk1 V c 6 t (ix2 b j) = V c main_v0_1 (ix2 ((((cfg1.win 12).blk t).view.emb (ix3 b j i)) 0) ((((cfg1.win 12).blk t).view.emb (ix3 b j i)) 1)) := by
  show V c main_v0_1 (((cfg1.win 6).blk t).view.emb (ix2 b j)) = _
  refine congrArg (V c main_v0_1) ?_
  funext a; apply Fin.ext
  obtain ⟨f0, f1, f2, f3, f4, f5, f6, f7, f8, f9, f10, f11⟩ := facts1_12 t
  match a with
  | ⟨0, _⟩ => show win1_6.index t (0 : Fin 2) * 8 + 1 * b.val = win1_12.index t (0 : Fin 3) * 8 + 1 * b.val; omega
  | ⟨1, _⟩ => show win1_6.index t (1 : Fin 2) * 128 + 1 * j.val = win1_12.index t (1 : Fin 3) * 128 + 1 * j.val; omega

/-- A per-(batch, row) block, read at the output block's batch and row. -/
theorem rdS1_12_8 (c : Dev nD) (t : Fin cfg1.N) (b : Fin 8) (j : Fin 128) (i : Fin 512) :
    iblk1 V c 8 t (ix2 b j) = V c main_v0_3 (ix2 ((((cfg1.win 12).blk t).view.emb (ix3 b j i)) 0) ((((cfg1.win 12).blk t).view.emb (ix3 b j i)) 1)) := by
  show V c main_v0_3 (((cfg1.win 8).blk t).view.emb (ix2 b j)) = _
  refine congrArg (V c main_v0_3) ?_
  funext a; apply Fin.ext
  obtain ⟨f0, f1, f2, f3, f4, f5, f6, f7, f8, f9, f10, f11⟩ := facts1_12 t
  match a with
  | ⟨0, _⟩ => show win1_8.index t (0 : Fin 2) * 8 + 1 * b.val = win1_12.index t (0 : Fin 3) * 8 + 1 * b.val; omega
  | ⟨1, _⟩ => show win1_8.index t (1 : Fin 2) * 128 + 1 * j.val = win1_12.index t (1 : Fin 3) * 128 + 1 * j.val; omega

/-- The array this window ends as: the trace update of the arrays the region finds. -/
abbrev G12 (c : Dev nD) : S128x512x512.Idx → EReal :=
  trace (V c main_arg17) (V c main_v0_1) (V c main_v0_3) (V c main_arg0) (V c main_v0_1)

/-- What a point writes back is its block of that array. -/
theorem flushed1_12 (c : Dev nD) (t : Fin cfg1.N) :
    (dat1 V c).flushed 12 t = ((cfg1.win 12).blk t).view.read (Elt Ideal) (G12 V c) := by
  show (cfg1.win 12).cut (grid1.coords t) ((dat1 V c).after 12 t) = _
  rw [after1_12]
  unfold out1_12
  rw [View.canon_unit_zero hz3]
  simp only [View.ld_unit_zero (S := S8x128x512) hz3, View.ld_unit_zero (S := S8x128) hz2, View.ld_unit_zero (S := S8x512) hz2]
  funext y
  obtain ⟨b, j, i, rfl⟩ : ∃ (b : Fin 8) (j : Fin 128) (i : Fin 512), y = ix3 b j i := ⟨y 0, y 1, y 2, eq_ix3 y⟩
  refine (pay1_12 (iblk1 V c 6 t) (iblk1 V c 8 t) (iblk1 V c 6 t) (iblk1 V c 4 t) (iblk1 V c 2 t) b j i).trans ?_
  rw [rdE1_12 V c t b j i, rdU1_12 V c t b j i, rdS1_12_6 V c t b j i, rdS1_12_8 V c t b j i]
  rfl

theorem mem_blk1_12 (t : Fin cfg1.N) (i : S128x512x512.Idx) :
    i ∈ ((cfg1.win 12).blk t).view.set ↔ ∀ a : Fin 3, win1_12.index t a * S8x128x512.size a ≤ (i a).val ∧ (i a).val < win1_12.index t a * S8x128x512.size a + S8x128x512.size a := by
  show i ∈ ((View.whole main_v2_2).slice (win1_12.rect t)).set ↔ _
  rw [View.set_slice_whole, Rect.mem_set_unit]
  exact Iff.rfl

/-- After the region the array is the candidate's input-weight trace, updated, at every index. -/
theorem final1_12 (c : Dev nD) : (dat1 V c).arrAt 12 cfg1.N = G12 V c :=
  (dat1 V c).arrAt_eq_of_cover 12 _ (fun t _ => flushed1_12 V c t) (fun i => by
    have hi0 : (i 0).val < 128 := (i 0).isLt
    have hi1 : (i 1).val < 512 := (i 1).isLt
    have hi2 : (i 2).val < 512 := (i 2).isLt
    obtain ⟨t, ht⟩ := onto1_12 ⟨(i 0).val / 8, by omega⟩ ⟨(i 1).val / 128, by omega⟩
    have q0 : win1_12.index t (0 : Fin 3) = (i 0).val / 8 := congrFun ht 0
    have q1 : win1_12.index t (1 : Fin 3) = (i 1).val / 128 := congrFun ht 1
    have q2 : win1_12.index t (2 : Fin 3) = 0 := congrFun ht 2
    refine ⟨t, flush1_12 t, ?_⟩
    rw [mem_blk1_12]
    intro a
    match a with
    | ⟨0, _⟩ => show win1_12.index t (0 : Fin 3) * 8 ≤ (i 0).val ∧ (i 0).val < win1_12.index t (0 : Fin 3) * 8 + 8; omega
    | ⟨1, _⟩ => show win1_12.index t (1 : Fin 3) * 128 ≤ (i 1).val ∧ (i 1).val < win1_12.index t (1 : Fin 3) * 128 + 128; omega
    | ⟨2, _⟩ => show win1_12.index t (2 : Fin 3) * 512 ≤ (i 2).val ∧ (i 2).val < win1_12.index t (2 : Fin 3) * 512 + 512; omega)

/-! ## Output window 13: the candidate's hidden-weight trace -/

/-- The printed index maps over the grid: every window the body reads moves with the output window, and the output's
    block indices stay in range. -/
theorem facts1_13 : ∀ t : Fin cfg1.N, win1_3.index t (0 : Fin 3) = win1_13.index t (0 : Fin 3)
    ∧ win1_3.index t (1 : Fin 3) = win1_13.index t (1 : Fin 3)
    ∧ win1_3.index t (2 : Fin 3) = win1_13.index t (2 : Fin 3)
    ∧ win1_5.index t (0 : Fin 2) = win1_13.index t (0 : Fin 3)
    ∧ win1_5.index t (1 : Fin 2) = 0
    ∧ win1_6.index t (0 : Fin 2) = win1_13.index t (0 : Fin 3)
    ∧ win1_6.index t (1 : Fin 2) = win1_13.index t (1 : Fin 3)
    ∧ win1_8.index t (0 : Fin 2) = win1_13.index t (0 : Fin 3)
    ∧ win1_8.index t (1 : Fin 2) = win1_13.index t (1 : Fin 3)
    ∧ win1_13.index t (2 : Fin 3) = 0
    ∧ win1_13.index t (0 : Fin 3) ≤ 15
    ∧ win1_13.index t (1 : Fin 3) ≤ 3 :=
  (by decide +kernel : ∀ t : Fin grid1.N, _)

/-- Every block of the output array is some point's. -/
theorem onto1_13 : ∀ (q0 : Fin 16) (q1 : Fin 4), ∃ t : Fin cfg1.N, win1_13.index t = ![q0.val, q1.val, 0] :=
  (by decide +kernel : ∀ (q0 : Fin 16) (q1 : Fin 4), ∃ t : Fin grid1.N, win1_13.index t = ![q0.val, q1.val, 0])

/-- The stored value at (b, j, i) of the block, from the loaded blocks. -/
theorem pay1_13 (gB pB qB : FVec Ideal S8x128 .f32) (uB : FVec Ideal S8x512 .f32) (EB : FVec Ideal S8x128x512 .f32)
    (b : Fin 8) (j : Fin 128) (i : Fin 512) :
    (k1_pay2 (k1_pay4 gB) (k1_pay6 pB) (k1_pay8 gB) (k1_pay10 uB) EB) (ix3 b j i)
      = EB (ix3 b j i) * (one - gB (ix2 b j)) + pB (ix2 b j) * uB (ix2 b i) * gB (ix2 b j) := by
  unfold k1_pay2 k1_pay8 k1_pay6 k1_pay10 k1_pay4
  show EB (ix3 b j i) * (broadcastTo S8x128x512 (subf (broadcast S8x128x1 (Scalar.ofBits .f32 0x3F800000#32)) (shapeCast S8x128x1 (shapeCast S8x128 gB shapeCasts_S8x128_S8x128) shapeCasts_S8x128_S8x128x1)) broadcasts_S8x128x1_S8x128x512 (ix3 b j i))
      + (broadcastTo S8x128x512 (shapeCast S8x128x1 (shapeCast S8x128 pB shapeCasts_S8x128_S8x128) shapeCasts_S8x128_S8x128x1) broadcasts_S8x128x1_S8x128x512 (ix3 b j i))
        * (broadcastTo S8x128x512 (shapeCast S8x1x512 uB shapeCasts_S8x512_S8x1x512) broadcasts_S8x1x512_S8x128x512 (ix3 b j i))
        * (broadcastTo S8x128x512 (shapeCast S8x128x1 (shapeCast S8x128 gB shapeCasts_S8x128_S8x128) shapeCasts_S8x128_S8x128x1) broadcasts_S8x128x1_S8x128x512 (ix3 b j i)) = _
  rw [Cert.Layout3.col_apply pB, Cert.Layout3.col_apply gB, Cert.Layout3.row_apply uB, Cert.Layout3.colmap_apply]
  show EB (ix3 b j i) * (one - shapeCast S8x128x1 (shapeCast S8x128 gB shapeCasts_S8x128_S8x128) shapeCasts_S8x128_S8x128x1 (ix3 b j (0 : Fin 1))) + _ = _
  rw [Cert.Layout3.unit_apply]

/-- The old trace's block, read where the output block sits. -/
theorem rdE1_13 (c : Dev nD) (t : Fin cfg1.N) (b : Fin 8) (j : Fin 128) (i : Fin 512) :
    iblk1 V c 3 t (ix3 b j i) = V c main_arg18 (((cfg1.win 13).blk t).view.emb (ix3 b j i)) := by
  show V c main_arg18 (((cfg1.win 3).blk t).view.emb (ix3 b j i)) = _
  refine congrArg (V c main_arg18) ?_
  funext a; apply Fin.ext
  obtain ⟨f0, f1, f2, f3, f4, f5, f6, f7, f8, f9, f10, f11⟩ := facts1_13 t
  match a with
  | ⟨0, _⟩ => show win1_3.index t (0 : Fin 3) * 8 + 1 * b.val = win1_13.index t (0 : Fin 3) * 8 + 1 * b.val; omega
  | ⟨1, _⟩ => show win1_3.index t (1 : Fin 3) * 128 + 1 * j.val = win1_13.index t (1 : Fin 3) * 128 + 1 * j.val; omega
  | ⟨2, _⟩ => show win1_3.index t (2 : Fin 3) * 512 + 1 * i.val = win1_13.index t (2 : Fin 3) * 512 + 1 * i.val; omega

/-- The input activation's block, read at the output block's batch and column. -/
theorem rdU1_13 (c : Dev nD) (t : Fin cfg1.N) (b : Fin 8) (j : Fin 128) (i : Fin 512) :
    iblk1 V c 5 t (ix2 b i) = V c main_arg1 (ix2 ((((cfg1.win 13).blk t).view.emb (ix3 b j i)) 0) ((((cfg1.win 13).blk t).view.emb (ix3 b j i)) 2)) := by
  show V c main_arg1 (((cfg1.win 5).blk t).view.emb (ix2 b i)) = _
  refine congrArg (V c main_arg1) ?_
  funext a; apply Fin.ext
  obtain ⟨f0, f1, f2, f3, f4, f5, f6, f7, f8, f9, f10, f11⟩ := facts1_13 t
  match a with
  | ⟨0, _⟩ => show win1_5.index t (0 : Fin 2) * 8 + 1 * b.val = win1_13.index t (0 : Fin 3) * 8 + 1 * b.val; omega
  | ⟨1, _⟩ => show win1_5.index t (1 : Fin 2) * 512 + 1 * i.val = win1_13.index t (2 : Fin 3) * 512 + 1 * i.val; omega

/-- A per-(batch, row) block, read at the output block's batch and row. -/
theorem rdS1_13_6 (c : Dev nD) (t : Fin cfg1.N) (b : Fin 8) (j : Fin 128) (i : Fin 512) :
    iblk1 V c 6 t (ix2 b j) = V c main_v0_1 (ix2 ((((cfg1.win 13).blk t).view.emb (ix3 b j i)) 0) ((((cfg1.win 13).blk t).view.emb (ix3 b j i)) 1)) := by
  show V c main_v0_1 (((cfg1.win 6).blk t).view.emb (ix2 b j)) = _
  refine congrArg (V c main_v0_1) ?_
  funext a; apply Fin.ext
  obtain ⟨f0, f1, f2, f3, f4, f5, f6, f7, f8, f9, f10, f11⟩ := facts1_13 t
  match a with
  | ⟨0, _⟩ => show win1_6.index t (0 : Fin 2) * 8 + 1 * b.val = win1_13.index t (0 : Fin 3) * 8 + 1 * b.val; omega
  | ⟨1, _⟩ => show win1_6.index t (1 : Fin 2) * 128 + 1 * j.val = win1_13.index t (1 : Fin 3) * 128 + 1 * j.val; omega

/-- A per-(batch, row) block, read at the output block's batch and row. -/
theorem rdS1_13_8 (c : Dev nD) (t : Fin cfg1.N) (b : Fin 8) (j : Fin 128) (i : Fin 512) :
    iblk1 V c 8 t (ix2 b j) = V c main_v0_3 (ix2 ((((cfg1.win 13).blk t).view.emb (ix3 b j i)) 0) ((((cfg1.win 13).blk t).view.emb (ix3 b j i)) 1)) := by
  show V c main_v0_3 (((cfg1.win 8).blk t).view.emb (ix2 b j)) = _
  refine congrArg (V c main_v0_3) ?_
  funext a; apply Fin.ext
  obtain ⟨f0, f1, f2, f3, f4, f5, f6, f7, f8, f9, f10, f11⟩ := facts1_13 t
  match a with
  | ⟨0, _⟩ => show win1_8.index t (0 : Fin 2) * 8 + 1 * b.val = win1_13.index t (0 : Fin 3) * 8 + 1 * b.val; omega
  | ⟨1, _⟩ => show win1_8.index t (1 : Fin 2) * 128 + 1 * j.val = win1_13.index t (1 : Fin 3) * 128 + 1 * j.val; omega

/-- The array this window ends as: the trace update of the arrays the region finds. -/
abbrev G13 (c : Dev nD) : S128x512x512.Idx → EReal :=
  trace (V c main_arg18) (V c main_v0_1) (V c main_v0_3) (V c main_arg1) (V c main_v0_1)

/-- What a point writes back is its block of that array. -/
theorem flushed1_13 (c : Dev nD) (t : Fin cfg1.N) :
    (dat1 V c).flushed 13 t = ((cfg1.win 13).blk t).view.read (Elt Ideal) (G13 V c) := by
  show (cfg1.win 13).cut (grid1.coords t) ((dat1 V c).after 13 t) = _
  rw [after1_13]
  unfold out1_13
  rw [View.canon_unit_zero hz3]
  simp only [View.ld_unit_zero (S := S8x128x512) hz3, View.ld_unit_zero (S := S8x128) hz2, View.ld_unit_zero (S := S8x512) hz2]
  funext y
  obtain ⟨b, j, i, rfl⟩ : ∃ (b : Fin 8) (j : Fin 128) (i : Fin 512), y = ix3 b j i := ⟨y 0, y 1, y 2, eq_ix3 y⟩
  refine (pay1_13 (iblk1 V c 6 t) (iblk1 V c 8 t) (iblk1 V c 6 t) (iblk1 V c 5 t) (iblk1 V c 3 t) b j i).trans ?_
  rw [rdE1_13 V c t b j i, rdU1_13 V c t b j i, rdS1_13_6 V c t b j i, rdS1_13_8 V c t b j i]
  rfl

theorem mem_blk1_13 (t : Fin cfg1.N) (i : S128x512x512.Idx) :
    i ∈ ((cfg1.win 13).blk t).view.set ↔ ∀ a : Fin 3, win1_13.index t a * S8x128x512.size a ≤ (i a).val ∧ (i a).val < win1_13.index t a * S8x128x512.size a + S8x128x512.size a := by
  show i ∈ ((View.whole main_v2_3).slice (win1_13.rect t)).set ↔ _
  rw [View.set_slice_whole, Rect.mem_set_unit]
  exact Iff.rfl

/-- After the region the array is the candidate's hidden-weight trace, updated, at every index. -/
theorem final1_13 (c : Dev nD) : (dat1 V c).arrAt 13 cfg1.N = G13 V c :=
  (dat1 V c).arrAt_eq_of_cover 13 _ (fun t _ => flushed1_13 V c t) (fun i => by
    have hi0 : (i 0).val < 128 := (i 0).isLt
    have hi1 : (i 1).val < 512 := (i 1).isLt
    have hi2 : (i 2).val < 512 := (i 2).isLt
    obtain ⟨t, ht⟩ := onto1_13 ⟨(i 0).val / 8, by omega⟩ ⟨(i 1).val / 128, by omega⟩
    have q0 : win1_13.index t (0 : Fin 3) = (i 0).val / 8 := congrFun ht 0
    have q1 : win1_13.index t (1 : Fin 3) = (i 1).val / 128 := congrFun ht 1
    have q2 : win1_13.index t (2 : Fin 3) = 0 := congrFun ht 2
    refine ⟨t, flush1_13 t, ?_⟩
    rw [mem_blk1_13]
    intro a
    match a with
    | ⟨0, _⟩ => show win1_13.index t (0 : Fin 3) * 8 ≤ (i 0).val ∧ (i 0).val < win1_13.index t (0 : Fin 3) * 8 + 8; omega
    | ⟨1, _⟩ => show win1_13.index t (1 : Fin 3) * 128 ≤ (i 1).val ∧ (i 1).val < win1_13.index t (1 : Fin 3) * 128 + 128; omega
    | ⟨2, _⟩ => show win1_13.index t (2 : Fin 3) * 512 ≤ (i 2).val ∧ (i 2).val < win1_13.index t (2 : Fin 3) * 512 + 512; omega)

end Cert.KernelIdeal.R1

end
-- ==== Proof.B0.lean ====
/-
  Region one against the reference, as whole arrays at the ideal instance.

  At the ideal instance a float of any format is an extended real and a change of format is the identity.  The
  kernel's product x . W^T, contracting the second axis of both operands into a zero accumulator, and the reference's
  product of x with the transposed weight are the same sum over k of x[i0, k] * W[i1, k].  A bias row given a
  leading unit axis and repeated down the rows is the reference's two-step broadcast of it; a splat constant is the
  reference's broadcast scalar; the sigmoid is 1 / (1 + exp(-x)) on both sides, the word of 1.0 being the real 1.
  With these, each 128 by 512 array the first kernel produces is, operation for operation, the reference's stage of
  the same arguments: the gate, the candidate, the new state, the open indicator, the two derivative factors, the
  candidate minus the old state, the two bias traces, and the output.
-/
import proofs.«104354_j17927193494438_2_alg».proof.Proof.Gen.KernelIdeal.Skeleton
import proofs.«104354_j17927193494438_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Bridge0

open Idealize.ShloMosaic Idealize.ShloMosaic.TcCoe Idealize.SL.Sem Idealize.ShloMosaic.ValueIdx
open Cert.ReferenceIdeal.Read

theorem lhs0 (i : Cert.KernelIdeal.S128x512.Idx) (q : Cert.KernelIdeal.dot_S128x512_S512x512_S128x512_1_1_0_0_n_n.contr.Idx) : (Cert.KernelIdeal.dot_S128x512_S512x512_S128x512_1_1_0_0_n_n.lhsIdx i q 0).val = (i 0).val := by
  unfold DotDims.lhsIdx
  rw [dif_neg (show ¬(0 : Fin Cert.KernelIdeal.S128x512.rank) ∈ Cert.KernelIdeal.dot_S128x512_S512x512_S128x512_1_1_0_0_n_n.lhsBatch by decide), dif_pos (show (0 : Fin Cert.KernelIdeal.S128x512.rank) ∈ Cert.KernelIdeal.dot_S128x512_S512x512_S128x512_1_1_0_0_n_n.lhsNonContracting by decide)]
  rfl
theorem lhs1 (i : Cert.KernelIdeal.S128x512.Idx) (q : Cert.KernelIdeal.dot_S128x512_S512x512_S128x512_1_1_0_0_n_n.contr.Idx) : (Cert.KernelIdeal.dot_S128x512_S512x512_S128x512_1_1_0_0_n_n.lhsIdx i q 1).val = (q ⟨0, by decide⟩).val :=
  Cert.KernelIdeal.dot_S128x512_S512x512_S128x512_1_1_0_0_n_n.lhsIdx_val_of_single rfl i q
theorem rhs1 (i : Cert.KernelIdeal.S128x512.Idx) (q : Cert.KernelIdeal.dot_S128x512_S512x512_S128x512_1_1_0_0_n_n.contr.Idx) : (Cert.KernelIdeal.dot_S128x512_S512x512_S128x512_1_1_0_0_n_n.rhsIdx i q 1).val = (q ⟨0, by decide⟩).val :=
  Cert.KernelIdeal.dot_S128x512_S512x512_S128x512_1_1_0_0_n_n.rhsIdx_val_of_single rfl i q
theorem rhs0 (i : Cert.KernelIdeal.S128x512.Idx) (q : Cert.KernelIdeal.dot_S128x512_S512x512_S128x512_1_1_0_0_n_n.contr.Idx) : (Cert.KernelIdeal.dot_S128x512_S512x512_S128x512_1_1_0_0_n_n.rhsIdx i q 0).val = (i 1).val := by
  unfold DotDims.rhsIdx
  rw [dif_neg (show ¬(0 : Fin Cert.KernelIdeal.S512x512.rank) ∈ Cert.KernelIdeal.dot_S128x512_S512x512_S128x512_1_1_0_0_n_n.rhsBatch by decide), dif_pos (show (0 : Fin Cert.KernelIdeal.S512x512.rank) ∈ Cert.KernelIdeal.dot_S128x512_S512x512_S128x512_1_1_0_0_n_n.rhsNonContracting by decide)]
  rfl

/-- The kernel's product, into a zero accumulator, at (i0, i1): the sum over k of x[i0, k] * W[i1, k]. -/
theorem mmK_apply {φ₁ φ₂ : FTy} (p : Option ContractPrecision) (x : FVec Ideal Cert.KernelIdeal.S128x512 φ₁) (W : FVec Ideal Cert.KernelIdeal.S512x512 φ₂) (i : Cert.KernelIdeal.S128x512.Idx) :
    matmul Cert.KernelIdeal.dot_S128x512_S512x512_S128x512_1_1_0_0_n_n p x W (constant Cert.KernelIdeal.S128x512 .f32 0x00000000#32) i = ∑ k : Fin 512, x (ix2 (i 0) k) * W (ix2 (i 1) k) := by
  simp only [matmul]
  rw [Ideal.matmul_constant_zero_apply, ← Equiv.sum_comp (ValueIdx.contrEquiv1 Cert.KernelIdeal.dot_S128x512_S512x512_S128x512_1_1_0_0_n_n 512 rfl rfl).symm]
  refine Finset.sum_congr rfl fun k _ => ?_
  have hk := ValueIdx.contrEquiv1_symm_val Cert.KernelIdeal.dot_S128x512_S512x512_S128x512_1_1_0_0_n_n 512 rfl rfl k
  have el : Cert.KernelIdeal.dot_S128x512_S512x512_S128x512_1_1_0_0_n_n.lhsIdx i ((ValueIdx.contrEquiv1 Cert.KernelIdeal.dot_S128x512_S512x512_S128x512_1_1_0_0_n_n 512 rfl rfl).symm k) = ix2 (i 0) k := funext fun a => Fin.ext (by
    match a with
    | ⟨0, _⟩ => exact lhs0 _ _
    | ⟨1, _⟩ => exact (lhs1 _ _).trans hk)
  have er : Cert.KernelIdeal.dot_S128x512_S512x512_S128x512_1_1_0_0_n_n.rhsIdx i ((ValueIdx.contrEquiv1 Cert.KernelIdeal.dot_S128x512_S512x512_S128x512_1_1_0_0_n_n 512 rfl rfl).symm k) = ix2 (i 1) k := funext fun a => Fin.ext (by
    match a with
    | ⟨0, _⟩ => exact rhs0 _ _
    | ⟨1, _⟩ => exact (rhs1 _ _).trans hk)
  rw [el, er]
  rfl

/-- The reference's product with the transposed weight at (i0, i1): the same sum. -/
theorem mmR_apply (x : (⟨Cert.ReferenceIdeal.S128x512, .f32⟩ : BufTy).Contents (Elt Ideal)) (W : (⟨Cert.ReferenceIdeal.S512x512, .f32⟩ : BufTy).Contents (Elt Ideal)) (i : Cert.ReferenceIdeal.S128x512.Idx) :
    val_main_v1 (F := Ideal) x W i = ∑ k : Fin 512, x (ix2 (i 0) k) * W (ix2 (i 1) k) := by
  rw [val_main_v1_apply]
  refine Finset.sum_congr rfl fun k _ => ?_
  rw [val_main_v0_apply]
  have e1 : lidx_main_v1 i k = ix2 (i 0) k := funext fun a => by match a with | ⟨0, _⟩ => rfl | ⟨1, _⟩ => rfl
  have e2 : idx_main_v0 (ridx_main_v1 i k) = ix2 (i 1) k := funext fun a => by match a with | ⟨0, _⟩ => rfl | ⟨1, _⟩ => rfl
  rw [e1, e2]
  rfl

/-- The kernel's product against a weight is the reference's product against the transposed weight. -/
theorem mm_eq {φ₁ φ₂ : FTy} (p : Option ContractPrecision) (x : FVec Ideal Cert.KernelIdeal.S128x512 φ₁) (W : FVec Ideal Cert.KernelIdeal.S512x512 φ₂) :
    matmul Cert.KernelIdeal.dot_S128x512_S512x512_S128x512_1_1_0_0_n_n p x W (constant Cert.KernelIdeal.S128x512 .f32 0x00000000#32) = val_main_v1 (F := Ideal) x W :=
  funext fun i => (mmK_apply p x W i).trans (mmR_apply x W i).symm

/-- The word of 1.0 is the real 1. -/
theorem one_eq : Ideal.ofBits .f32 0x3F800000#32 = 1 := by simp [Ideal.ofBits, Ideal.ieee, -EReal.coe_mul]; norm_num

/-- A bias row, given a leading unit axis and repeated down the 128 rows, is the reference's two broadcasts of it. -/
theorem bias_eq (b : FVec Ideal Cert.KernelIdeal.S512 .f32) (h1 : Cert.KernelIdeal.S512.ShapeCasts Cert.KernelIdeal.S1x512) (h2 : Cert.KernelIdeal.S1x512.Broadcasts Cert.KernelIdeal.S128x512)
    (h3 : Cert.ReferenceIdeal.S1x512.BroadcastsInDim Cert.ReferenceIdeal.S128x512 ![0, 1]) (h4 : Cert.ReferenceIdeal.S512.BroadcastsInDim Cert.ReferenceIdeal.S1x512 ![1]) :
    broadcastTo Cert.KernelIdeal.S128x512 (shapeCast Cert.KernelIdeal.S1x512 b h1) h2
      = broadcastInDim Cert.ReferenceIdeal.S128x512 ![0, 1] h3 (broadcastInDim Cert.ReferenceIdeal.S1x512 ![1] h4 b) := by
  funext i
  obtain ⟨p, q, rfl⟩ : ∃ (p : Fin 128) (q : Fin 512), i = ix2 p q := ⟨i 0, i 1, eq_ix2 i⟩
  rw [broadcastTo_apply _ h2 (ix2 p q) (ix2 (0 : Fin 1) q) (fun a => by
    match a with
    | ⟨0, _⟩ => rfl
    | ⟨1, _⟩ => rfl)]
  rw [shapeCast_apply _ h1 (ix2 (0 : Fin 1) q) (ix1 q) (by
    rw [Shape.rowMajor_val_one, Shape.rowMajor_val_two]
    show q.val = 0 * 512 + q.val
    omega)]
  rw [broadcastInDim_apply ![0, 1] h3 _ (ix2 p q) (ix2 (0 : Fin 1) q) (fun a => by
    match a with
    | ⟨0, _⟩ => rfl
    | ⟨1, _⟩ => rfl)]
  rw [broadcastInDim_apply ![1] h4 _ (ix2 (0 : Fin 1) q) (ix1 q) (fun a => by
    match a with
    | ⟨0, _⟩ => rfl)]

/-- A splat constant is the reference's broadcast of the scalar constant. -/
theorem const_eq (w : BitVec 32) (h : Cert.ReferenceIdeal.S_.BroadcastsInDim Cert.ReferenceIdeal.S128x512 ![]) :
    broadcast Cert.KernelIdeal.S128x512 (Scalar.ofBits (F := Ideal) .f32 w)
      = broadcastInDim Cert.ReferenceIdeal.S128x512 ![] h (constant (F := Ideal) Cert.ReferenceIdeal.S_ .f32 w) := by
  funext i
  exact (broadcastInDim_apply ![] h (constant (F := Ideal) Cert.ReferenceIdeal.S_ .f32 w) i (fun a => a.elim0) (fun a => a.elim0)).symm

/-- The sigmoid is 1 / (1 + exp(-x)), as the reference spells it. -/
theorem logistic_eq (v : FVec Ideal Cert.KernelIdeal.S128x512 .f32) (h : Cert.ReferenceIdeal.S_.BroadcastsInDim Cert.ReferenceIdeal.S128x512 ![]) :
    logistic v = Host.divf (F := Ideal) (broadcastInDim Cert.ReferenceIdeal.S128x512 ![] h (constant (F := Ideal) Cert.ReferenceIdeal.S_ .f32 0x3F800000#32))
      (addf (broadcastInDim Cert.ReferenceIdeal.S128x512 ![] h (constant (F := Ideal) Cert.ReferenceIdeal.S_ .f32 0x3F800000#32)) (Host.exp (F := Ideal) (Host.negf (F := Ideal) v))) := by
  funext i
  rw [← const_eq 0x3F800000#32 h]
  show Ideal.logistic (v i) = Ideal.div (Ideal.ofBits .f32 0x3F800000#32) (Ideal.ofBits .f32 0x3F800000#32 + Ideal.exp (-(v i)))
  rw [one_eq]
  rfl

/-! ## The arrays -/

/-- The gate: relu(tanh(x . Wgx^T + h . Wgh^T + bg)). -/
theorem g_eq (x hl : FVec Ideal Cert.KernelIdeal.S128x512 .f32) (bg : FVec Ideal Cert.KernelIdeal.S512 .f32) (wgx : FVec Ideal Cert.KernelIdeal.S512x512 .f32) (wgh : FVec Ideal Cert.KernelIdeal.S512x512 .f32) :
    Cert.KernelIdeal.Gen.k0_pay5 (F := Ideal) x hl bg wgx wgh = val_main_v9 (F := Ideal) x hl wgx wgh bg := by
  unfold Cert.KernelIdeal.Gen.k0_pay5
  simp only [mm_eq, bias_eq _ _ _ Cert.ReferenceIdeal.Gen.bcast_S1x512_S128x512_0_1 Cert.ReferenceIdeal.Gen.bcast_S512_S1x512_1, const_eq _ Cert.ReferenceIdeal.Gen.bcast_S_S128x512]
  rfl

/-- The candidate: tanh(x . Wrx^T + h . Wrh^T + br). -/
theorem r_eq (x hl : FVec Ideal Cert.KernelIdeal.S128x512 .f32) (br : FVec Ideal Cert.KernelIdeal.S512 .f32) (wrx : FVec Ideal Cert.KernelIdeal.S512x512 .f32) (wrh : FVec Ideal Cert.KernelIdeal.S512x512 .f32) :
    Cert.KernelIdeal.Gen.k0_pay7 (F := Ideal) x hl br wrx wrh = val_main_v18 (F := Ideal) x hl wrx wrh br := by
  unfold Cert.KernelIdeal.Gen.k0_pay7 Cert.KernelIdeal.Gen.k0_pay6
  simp only [mm_eq, bias_eq _ _ _ Cert.ReferenceIdeal.Gen.bcast_S1x512_S128x512_0_1 Cert.ReferenceIdeal.Gen.bcast_S512_S1x512_1, const_eq _ Cert.ReferenceIdeal.Gen.bcast_S_S128x512]
  rfl

/-- The new state: g * r + (1 - g) * h. -/
theorem h_eq (x hl : FVec Ideal Cert.KernelIdeal.S128x512 .f32) (bg : FVec Ideal Cert.KernelIdeal.S512 .f32) (br : FVec Ideal Cert.KernelIdeal.S512 .f32) (wgx : FVec Ideal Cert.KernelIdeal.S512x512 .f32) (wgh : FVec Ideal Cert.KernelIdeal.S512x512 .f32) (wrx : FVec Ideal Cert.KernelIdeal.S512x512 .f32) (wrh : FVec Ideal Cert.KernelIdeal.S512x512 .f32) :
    Cert.KernelIdeal.Gen.k0_pay8 (F := Ideal) x hl bg br wgx wgh wrx wrh = val_main_v23 (F := Ideal) x hl wgx wgh bg wrx wrh br := by
  unfold Cert.KernelIdeal.Gen.k0_pay8
  rw [g_eq, r_eq]
  simp only [const_eq _ Cert.ReferenceIdeal.Gen.bcast_S_S128x512]
  rfl

/-- The open indicator: clip(ceil(g), 0, 1). -/
theorem open_eq (x hl : FVec Ideal Cert.KernelIdeal.S128x512 .f32) (bg : FVec Ideal Cert.KernelIdeal.S512 .f32) (wgx : FVec Ideal Cert.KernelIdeal.S512x512 .f32) (wgh : FVec Ideal Cert.KernelIdeal.S512x512 .f32) :
    Cert.KernelIdeal.Gen.k0_pay9 (F := Ideal) (val_main_v9 (F := Ideal) x hl wgx wgh bg) = val_main_v25 (F := Ideal) x hl wgx wgh bg := by
  unfold Cert.KernelIdeal.Gen.k0_pay9
  simp only [const_eq _ Cert.ReferenceIdeal.Gen.bcast_S_S128x512]
  rfl

/-- The gate's derivative factor: (1 - g * g) * open. -/
theorem dg_eq (x hl : FVec Ideal Cert.KernelIdeal.S128x512 .f32) (bg : FVec Ideal Cert.KernelIdeal.S512 .f32) (wgx : FVec Ideal Cert.KernelIdeal.S512x512 .f32) (wgh : FVec Ideal Cert.KernelIdeal.S512x512 .f32) :
    Cert.KernelIdeal.Gen.k0_pay10 (F := Ideal) (val_main_v9 (F := Ideal) x hl wgx wgh bg) = val_main_v29 (F := Ideal) x hl wgx wgh bg := by
  unfold Cert.KernelIdeal.Gen.k0_pay10
  rw [open_eq]
  simp only [const_eq _ Cert.ReferenceIdeal.Gen.bcast_S_S128x512]
  rfl

/-- The candidate's derivative factor: 1 - r * r. -/
theorem dr_eq (x hl : FVec Ideal Cert.KernelIdeal.S128x512 .f32) (br : FVec Ideal Cert.KernelIdeal.S512 .f32) (wrx : FVec Ideal Cert.KernelIdeal.S512x512 .f32) (wrh : FVec Ideal Cert.KernelIdeal.S512x512 .f32) :
    Cert.KernelIdeal.Gen.k0_pay11 (F := Ideal) (val_main_v18 (F := Ideal) x hl wrx wrh br) = val_main_v32 (F := Ideal) x hl wrx wrh br := by
  unfold Cert.KernelIdeal.Gen.k0_pay11
  simp only [const_eq _ Cert.ReferenceIdeal.Gen.bcast_S_S128x512]
  rfl

/-- The candidate minus the old state. -/
theorem dlt_eq (x hl : FVec Ideal Cert.KernelIdeal.S128x512 .f32) (br : FVec Ideal Cert.KernelIdeal.S512 .f32) (wrx : FVec Ideal Cert.KernelIdeal.S512x512 .f32) (wrh : FVec Ideal Cert.KernelIdeal.S512x512 .f32) :
    Cert.KernelIdeal.Gen.k0_pay12 (F := Ideal) hl (val_main_v18 (F := Ideal) x hl wrx wrh br) = val_main_v33 (F := Ideal) x hl wrx wrh br := by
  unfold Cert.KernelIdeal.Gen.k0_pay12
  rfl

/-- The gate bias trace: e * (1 - g) + dg * (r - h). -/
theorem ebg_eq (x hl : FVec Ideal Cert.KernelIdeal.S128x512 .f32) (bg : FVec Ideal Cert.KernelIdeal.S512 .f32) (br : FVec Ideal Cert.KernelIdeal.S512 .f32) (wgx : FVec Ideal Cert.KernelIdeal.S512x512 .f32) (wgh : FVec Ideal Cert.KernelIdeal.S512x512 .f32) (wrx : FVec Ideal Cert.KernelIdeal.S512x512 .f32) (wrh : FVec Ideal Cert.KernelIdeal.S512x512 .f32) (e : FVec Ideal Cert.KernelIdeal.S128x512 .f32) :
    Cert.KernelIdeal.Gen.k0_pay14 (F := Ideal) hl (val_main_v9 (F := Ideal) x hl wgx wgh bg) (val_main_v18 (F := Ideal) x hl wrx wrh br) e
      = val_main_v64 (F := Ideal) x hl wgx wgh bg wrx wrh br e := by
  unfold Cert.KernelIdeal.Gen.k0_pay14 Cert.KernelIdeal.Gen.k0_pay13
  rw [dg_eq, dlt_eq]
  simp only [const_eq _ Cert.ReferenceIdeal.Gen.bcast_S_S128x512]
  rfl

/-- The candidate bias trace: e * (1 - g) + dr * g. -/
theorem ebr_eq (x hl : FVec Ideal Cert.KernelIdeal.S128x512 .f32) (bg : FVec Ideal Cert.KernelIdeal.S512 .f32) (br : FVec Ideal Cert.KernelIdeal.S512 .f32) (wgx : FVec Ideal Cert.KernelIdeal.S512x512 .f32) (wgh : FVec Ideal Cert.KernelIdeal.S512x512 .f32) (wrx : FVec Ideal Cert.KernelIdeal.S512x512 .f32) (wrh : FVec Ideal Cert.KernelIdeal.S512x512 .f32) (e : FVec Ideal Cert.KernelIdeal.S128x512 .f32) :
    Cert.KernelIdeal.Gen.k0_pay15 (F := Ideal) (val_main_v9 (F := Ideal) x hl wgx wgh bg) (val_main_v18 (F := Ideal) x hl wrx wrh br) e
      = val_main_v89 (F := Ideal) x hl wgx wgh bg wrx wrh br e := by
  unfold Cert.KernelIdeal.Gen.k0_pay15 Cert.KernelIdeal.Gen.k0_pay13
  rw [dr_eq]
  simp only [const_eq _ Cert.ReferenceIdeal.Gen.bcast_S_S128x512]
  rfl

/-- The output: sigmoid(x . Wox^T + h' . Woh^T + bo) * tanh(x . Wpx^T + h' . Wph^T + bp), h' the new state. -/
theorem out_eq (x hl : FVec Ideal Cert.KernelIdeal.S128x512 .f32) (bg : FVec Ideal Cert.KernelIdeal.S512 .f32) (br : FVec Ideal Cert.KernelIdeal.S512 .f32) (wgx : FVec Ideal Cert.KernelIdeal.S512x512 .f32) (wgh : FVec Ideal Cert.KernelIdeal.S512x512 .f32) (wrx : FVec Ideal Cert.KernelIdeal.S512x512 .f32) (wrh : FVec Ideal Cert.KernelIdeal.S512x512 .f32)
    (wpx : FVec Ideal Cert.KernelIdeal.S512x512 .f32) (wph : FVec Ideal Cert.KernelIdeal.S512x512 .f32) (bp : FVec Ideal Cert.KernelIdeal.S512 .f32) (wox : FVec Ideal Cert.KernelIdeal.S512x512 .f32) (woh : FVec Ideal Cert.KernelIdeal.S512x512 .f32) (bo : FVec Ideal Cert.KernelIdeal.S512 .f32) :
    Cert.KernelIdeal.Gen.k0_pay1 (F := Ideal) (Cert.KernelIdeal.Gen.k0_pay4 bo) (Cert.KernelIdeal.Gen.k0_pay6 x) (Cert.KernelIdeal.Gen.k0_pay16 (val_main_v23 (F := Ideal) x hl wgx wgh bg wrx wrh br))
        (Cert.KernelIdeal.Gen.k0_pay17 (Cert.KernelIdeal.Gen.k0_pay3 bp) (Cert.KernelIdeal.Gen.k0_pay6 x) (val_main_v23 (F := Ideal) x hl wgx wgh bg wrx wrh br) wpx wph) wox woh
      = val_main_v113 (F := Ideal) x hl wgx wgh bg wrx wrh br wpx wph bp wox woh bo := by
  unfold Cert.KernelIdeal.Gen.k0_pay1 Cert.KernelIdeal.Gen.k0_pay17 Cert.KernelIdeal.Gen.k0_pay4 Cert.KernelIdeal.Gen.k0_pay3 Cert.KernelIdeal.Gen.k0_pay6 Cert.KernelIdeal.Gen.k0_pay16
  simp only [mm_eq, bias_eq _ _ _ Cert.ReferenceIdeal.Gen.bcast_S1x512_S128x512_0_1 Cert.ReferenceIdeal.Gen.bcast_S512_S1x512_1, logistic_eq _ Cert.ReferenceIdeal.Gen.bcast_S_S128x512]
  rfl

end Cert.Bridge0
end
-- ==== Proof.Mean.lean ====
/-
  The mean of the open indicator.

  The kernel sums each of the 128 rows over its 512 entries, sums the 128 row sums, and multiplies by the float
  2^-16; then the 1 by 1 result is reshaped to a scalar.  The reference sums all 128 * 512 entries from a zero and
  divides by the float 65536.  A finite sum over all index pairs is the sum over rows of the sums over columns
  (addition of extended reals is commutative and associative), 0 is neutral, the word of 65536.0 is the real 65536
  and the word of 2^-16 is the real 1/65536, and dividing an extended real by a nonzero real r is multiplying it
  by 1/r.
-/
import proofs.«104354_j17927193494438_2_alg».proof.Proof.Gen.KernelIdeal.Skeleton
import proofs.«104354_j17927193494438_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Mean

open Idealize.ShloMosaic Idealize.ShloMosaic.TcCoe Idealize.SL.Sem Idealize.ShloMosaic.ValueIdx
open Cert.ReferenceIdeal.Read

/-- The word of 65536.0 is the real 65536. -/
theorem big_eq : Ideal.ofBits .f32 0x47800000#32 = ((65536 : ℝ) : EReal) := by
  simp [Ideal.ofBits, Ideal.ieee, -EReal.coe_mul]; norm_num

/-- The word of 2^-16 is the real 1/65536. -/
theorem small_eq : Ideal.ofBits .f32 0x37800000#32 = ((1 / 65536 : ℝ) : EReal) := by
  simp [Ideal.ofBits, Ideal.ieee, -EReal.coe_mul]; norm_num

/-- A row's sum. -/
theorem rowsum (v : FVec Ideal Cert.KernelIdeal.S128x512 .f32) (h : Cert.KernelIdeal.S128x512.Reduces [1] Cert.KernelIdeal.S128) (hφ : FKind.Formats FTy.f32)
    (hacc : (0x00000000#32 : BitVec 32) = 0x00000000#32) (r : Fin 128) :
    multiReduction .add [1] Cert.KernelIdeal.S128 v 0x00000000#32 h hφ hacc (ix1 r) = ∑ k : Fin 512, v (ix2 r k) := by
  refine (Ideal.multiReduction_add_single v 0x00000000#32 h hφ hacc (ix1 r)).trans ?_
  refine Finset.sum_congr rfl fun k _ => congrArg v ?_
  funext a; apply Fin.ext
  match a with
  | ⟨0, _⟩ => rfl
  | ⟨1, _⟩ => rfl

/-- The sum of a column of 128 entries. -/
theorem colsum (v : FVec Ideal Cert.KernelIdeal.S128x1 .f32) (h : Cert.KernelIdeal.S128x1.Reduces [0] Cert.KernelIdeal.S1) (hφ : FKind.Formats FTy.f32)
    (hacc : (0x00000000#32 : BitVec 32) = 0x00000000#32) :
    multiReduction .add [0] Cert.KernelIdeal.S1 v 0x00000000#32 h hφ hacc (ix1 (0 : Fin 1)) = ∑ k : Fin 128, v (ix2 k (0 : Fin 1)) := by
  refine (Ideal.multiReduction_add_single v 0x00000000#32 h hφ hacc (ix1 (0 : Fin 1))).trans ?_
  refine Finset.sum_congr rfl fun k _ => congrArg v ?_
  funext a; apply Fin.ext
  match a with
  | ⟨0, _⟩ => rfl
  | ⟨1, _⟩ => rfl

/-- The kernel's 1 by 1 result: the sum of the row sums, times the word of 2^-16. -/
theorem kernel_mean (H : FVec Ideal Cert.KernelIdeal.S128x512 .f32) :
    Cert.KernelIdeal.Gen.k0_pay2 (F := Ideal) H (ix2 (0 : Fin 1) (0 : Fin 1))
      = (∑ r : Fin 128, ∑ k : Fin 512, H (ix2 r k)) * Ideal.ofBits .f32 0x37800000#32 := by
  unfold Cert.KernelIdeal.Gen.k0_pay2
  show (shapeCast Cert.KernelIdeal.S1x1 _ _ (ix2 (0 : Fin 1) (0 : Fin 1))) * Ideal.ofBits .f32 0x37800000#32 = _
  refine congrArg (· * Ideal.ofBits .f32 0x37800000#32) ?_
  refine (shapeCast_apply _ _ (ix2 (0 : Fin 1) (0 : Fin 1)) (ix1 (0 : Fin 1)) (by
    rw [Shape.rowMajor_val_one, Shape.rowMajor_val_two]; rfl)).trans ?_
  refine (colsum _ _ _ _).trans ?_
  refine Finset.sum_congr rfl fun r _ => ?_
  refine (shapeCast_apply _ _ (ix2 r (0 : Fin 1)) (ix1 r) (by
    rw [Shape.rowMajor_val_one, Shape.rowMajor_val_two]
    show r.val = r.val * 1 + 0
    omega)).trans ?_
  exact rowsum H _ _ _ r

/-- The two means agree. -/
theorem mean_law (H : (⟨2, ![128, 512]⟩ : Shape).Idx → EReal) :
    (∑ r : Fin 128, ∑ k : Fin 512, H (ix2 r k)) * Ideal.ofBits .f32 0x37800000#32
      = Ideal.div (Ideal.ofBits .f32 0x00000000#32 + ∑ j, H j) (Ideal.ofBits .f32 0x47800000#32) := by
  rw [Ideal.ofBits_zero_f32, zero_add, sum_idx2, big_eq, Ideal.div_coe (by norm_num : (65536 : ℝ) ≠ 0), small_eq]

end Cert.Mean
end
-- ==== Proof.RefTrace.lean ====
/-
  The reference's four weight traces at an index.

  Each is old * (1 - g_j) + p_j * u_i * q_j written with broadcasts: a per-(batch, row) array is given a trailing unit
  axis and repeated along the last axis, an input activation a middle unit axis and repeated along the middle axis.
  Read at (b, j, k), a repeated array is its source at (b, j) or at (b, k), so each result at (b, j, k) is
      old[b,j,k] * (1 - g[b,j]) + p[b,j] * u[b,k] * q[b,j].
-/
import proofs.«104354_j17927193494438_2_alg».proof.Proof.R1
import proofs.«104354_j17927193494438_2_alg».proof.Proof.Gen.ReferenceIdeal.Read

set_option maxRecDepth 16384

noncomputable section

namespace Cert.RefTrace

open Idealize.ShloMosaic Idealize.ShloMosaic.TcCoe Idealize.SL.Sem Idealize.ShloMosaic.ValueIdx
open Cert.ReferenceIdeal.Read
open Cert.KernelIdeal.R1 (trace one)

/-- The gate's hidden-weight trace, at an index. -/
theorem gh_ref (x : (⟨Cert.ReferenceIdeal.S128x512, .f32⟩ : BufTy).Contents (Elt Ideal)) (hl : (⟨Cert.ReferenceIdeal.S128x512, .f32⟩ : BufTy).Contents (Elt Ideal)) (wgx : (⟨Cert.ReferenceIdeal.S512x512, .f32⟩ : BufTy).Contents (Elt Ideal)) (wgh : (⟨Cert.ReferenceIdeal.S512x512, .f32⟩ : BufTy).Contents (Elt Ideal)) (bg : (⟨Cert.ReferenceIdeal.S512, .f32⟩ : BufTy).Contents (Elt Ideal)) (wrx : (⟨Cert.ReferenceIdeal.S512x512, .f32⟩ : BufTy).Contents (Elt Ideal)) (wrh : (⟨Cert.ReferenceIdeal.S512x512, .f32⟩ : BufTy).Contents (Elt Ideal)) (br : (⟨Cert.ReferenceIdeal.S512, .f32⟩ : BufTy).Contents (Elt Ideal)) (E : (⟨Cert.ReferenceIdeal.S128x512x512, .f32⟩ : BufTy).Contents (Elt Ideal)) :
    val_main_v49 (F := Ideal) x hl wgx wgh bg wrx wrh br E
      = trace E (val_main_v9 (F := Ideal) x hl wgx wgh bg) (val_main_v29 (F := Ideal) x hl wgx wgh bg) hl (val_main_v33 (F := Ideal) x hl wrx wrh br) := by
  funext i
  obtain ⟨b, j, k, rfl⟩ : ∃ (b : Fin 128) (j : Fin 512) (k : Fin 512), i = ix3 b j k := ⟨i 0, i 1, i 2, eq_ix3 i⟩
  have e1 : idx_main_v34 (idx_main_v42 (ix3 b j k)) = ix2 b j := funext fun a => by match a with | ⟨0, _⟩ => rfl | ⟨1, _⟩ => rfl
  have e2 : idx_main_v35 (idx_main_v44 (ix3 b j k)) = ix2 b j := funext fun a => by match a with | ⟨0, _⟩ => rfl | ⟨1, _⟩ => rfl
  have e3 : idx_main_v38 (idx_main_v45 (ix3 b j k)) = ix2 b k := funext fun a => by match a with | ⟨0, _⟩ => rfl | ⟨1, _⟩ => rfl
  have e4 : idx_main_v39 (idx_main_v47 (ix3 b j k)) = ix2 b j := funext fun a => by match a with | ⟨0, _⟩ => rfl | ⟨1, _⟩ => rfl
  simp only [val_main_v49_apply, val_main_v43_apply, val_main_v42_apply, val_main_v41_apply, val_main_v40_apply, val_main_v44_apply, val_main_v35_apply, val_main_v45_apply, val_main_v38_apply, val_main_v46_apply, val_main_v47_apply, val_main_v39_apply, val_main_v48_apply, val_main_v34_apply]
  simp only [e1, e2, e3, e4]
  rfl

/-- The gate's input-weight trace, at an index. -/
theorem gx_ref (x : (⟨Cert.ReferenceIdeal.S128x512, .f32⟩ : BufTy).Contents (Elt Ideal)) (hl : (⟨Cert.ReferenceIdeal.S128x512, .f32⟩ : BufTy).Contents (Elt Ideal)) (wgx : (⟨Cert.ReferenceIdeal.S512x512, .f32⟩ : BufTy).Contents (Elt Ideal)) (wgh : (⟨Cert.ReferenceIdeal.S512x512, .f32⟩ : BufTy).Contents (Elt Ideal)) (bg : (⟨Cert.ReferenceIdeal.S512, .f32⟩ : BufTy).Contents (Elt Ideal)) (wrx : (⟨Cert.ReferenceIdeal.S512x512, .f32⟩ : BufTy).Contents (Elt Ideal)) (wrh : (⟨Cert.ReferenceIdeal.S512x512, .f32⟩ : BufTy).Contents (Elt Ideal)) (br : (⟨Cert.ReferenceIdeal.S512, .f32⟩ : BufTy).Contents (Elt Ideal)) (E : (⟨Cert.ReferenceIdeal.S128x512x512, .f32⟩ : BufTy).Contents (Elt Ideal)) :
    val_main_v59 (F := Ideal) x hl wgx wgh bg wrx wrh br E
      = trace E (val_main_v9 (F := Ideal) x hl wgx wgh bg) (val_main_v29 (F := Ideal) x hl wgx wgh bg) x (val_main_v33 (F := Ideal) x hl wrx wrh br) := by
  funext i
  obtain ⟨b, j, k, rfl⟩ : ∃ (b : Fin 128) (j : Fin 512) (k : Fin 512), i = ix3 b j k := ⟨i 0, i 1, i 2, eq_ix3 i⟩
  have e1 : idx_main_v34 (idx_main_v52 (ix3 b j k)) = ix2 b j := funext fun a => by match a with | ⟨0, _⟩ => rfl | ⟨1, _⟩ => rfl
  have e2 : idx_main_v35 (idx_main_v54 (ix3 b j k)) = ix2 b j := funext fun a => by match a with | ⟨0, _⟩ => rfl | ⟨1, _⟩ => rfl
  have e3 : idx_main_v37 (idx_main_v55 (ix3 b j k)) = ix2 b k := funext fun a => by match a with | ⟨0, _⟩ => rfl | ⟨1, _⟩ => rfl
  have e4 : idx_main_v39 (idx_main_v57 (ix3 b j k)) = ix2 b j := funext fun a => by match a with | ⟨0, _⟩ => rfl | ⟨1, _⟩ => rfl
  simp only [val_main_v59_apply, val_main_v53_apply, val_main_v52_apply, val_main_v51_apply, val_main_v50_apply, val_main_v54_apply, val_main_v35_apply, val_main_v55_apply, val_main_v37_apply, val_main_v56_apply, val_main_v57_apply, val_main_v39_apply, val_main_v58_apply, val_main_v34_apply]
  simp only [e1, e2, e3, e4]
  rfl

/-- The candidate's hidden-weight trace, at an index. -/
theorem rh_ref (x : (⟨Cert.ReferenceIdeal.S128x512, .f32⟩ : BufTy).Contents (Elt Ideal)) (hl : (⟨Cert.ReferenceIdeal.S128x512, .f32⟩ : BufTy).Contents (Elt Ideal)) (wgx : (⟨Cert.ReferenceIdeal.S512x512, .f32⟩ : BufTy).Contents (Elt Ideal)) (wgh : (⟨Cert.ReferenceIdeal.S512x512, .f32⟩ : BufTy).Contents (Elt Ideal)) (bg : (⟨Cert.ReferenceIdeal.S512, .f32⟩ : BufTy).Contents (Elt Ideal)) (wrx : (⟨Cert.ReferenceIdeal.S512x512, .f32⟩ : BufTy).Contents (Elt Ideal)) (wrh : (⟨Cert.ReferenceIdeal.S512x512, .f32⟩ : BufTy).Contents (Elt Ideal)) (br : (⟨Cert.ReferenceIdeal.S512, .f32⟩ : BufTy).Contents (Elt Ideal)) (E : (⟨Cert.ReferenceIdeal.S128x512x512, .f32⟩ : BufTy).Contents (Elt Ideal)) :
    val_main_v74 (F := Ideal) x hl wgx wgh bg wrx wrh br E
      = trace E (val_main_v9 (F := Ideal) x hl wgx wgh bg) (val_main_v32 (F := Ideal) x hl wrx wrh br) hl (val_main_v9 (F := Ideal) x hl wgx wgh bg) := by
  funext i
  obtain ⟨b, j, k, rfl⟩ : ∃ (b : Fin 128) (j : Fin 512) (k : Fin 512), i = ix3 b j k := ⟨i 0, i 1, i 2, eq_ix3 i⟩
  have e1 : idx_main_v34 (idx_main_v67 (ix3 b j k)) = ix2 b j := funext fun a => by match a with | ⟨0, _⟩ => rfl | ⟨1, _⟩ => rfl
  have e2 : idx_main_v36 (idx_main_v69 (ix3 b j k)) = ix2 b j := funext fun a => by match a with | ⟨0, _⟩ => rfl | ⟨1, _⟩ => rfl
  have e3 : idx_main_v38 (idx_main_v70 (ix3 b j k)) = ix2 b k := funext fun a => by match a with | ⟨0, _⟩ => rfl | ⟨1, _⟩ => rfl
  have e4 : idx_main_v34 (idx_main_v72 (ix3 b j k)) = ix2 b j := funext fun a => by match a with | ⟨0, _⟩ => rfl | ⟨1, _⟩ => rfl
  simp only [val_main_v74_apply, val_main_v68_apply, val_main_v67_apply, val_main_v66_apply, val_main_v65_apply, val_main_v69_apply, val_main_v36_apply, val_main_v70_apply, val_main_v38_apply, val_main_v71_apply, val_main_v72_apply, val_main_v34_apply, val_main_v73_apply]
  simp only [e1, e2, e3, e4]
  rfl

/-- The candidate's input-weight trace, at an index. -/
theorem rx_ref (x : (⟨Cert.ReferenceIdeal.S128x512, .f32⟩ : BufTy).Contents (Elt Ideal)) (hl : (⟨Cert.ReferenceIdeal.S128x512, .f32⟩ : BufTy).Contents (Elt Ideal)) (wgx : (⟨Cert.ReferenceIdeal.S512x512, .f32⟩ : BufTy).Contents (Elt Ideal)) (wgh : (⟨Cert.ReferenceIdeal.S512x512, .f32⟩ : BufTy).Contents (Elt Ideal)) (bg : (⟨Cert.ReferenceIdeal.S512, .f32⟩ : BufTy).Contents (Elt Ideal)) (wrx : (⟨Cert.ReferenceIdeal.S512x512, .f32⟩ : BufTy).Contents (Elt Ideal)) (wrh : (⟨Cert.ReferenceIdeal.S512x512, .f32⟩ : BufTy).Contents (Elt Ideal)) (br : (⟨Cert.ReferenceIdeal.S512, .f32⟩ : BufTy).Contents (Elt Ideal)) (E : (⟨Cert.ReferenceIdeal.S128x512x512, .f32⟩ : BufTy).Contents (Elt Ideal)) :
    val_main_v84 (F := Ideal) x hl wgx wgh bg wrx wrh br E
      = trace E (val_main_v9 (F := Ideal) x hl wgx wgh bg) (val_main_v32 (F := Ideal) x hl wrx wrh br) x (val_main_v9 (F := Ideal) x hl wgx wgh bg) := by
  funext i
  obtain ⟨b, j, k, rfl⟩ : ∃ (b : Fin 128) (j : Fin 512) (k : Fin 512), i = ix3 b j k := ⟨i 0, i 1, i 2, eq_ix3 i⟩
  have e1 : idx_main_v34 (idx_main_v77 (ix3 b j k)) = ix2 b j := funext fun a => by match a with | ⟨0, _⟩ => rfl | ⟨1, _⟩ => rfl
  have e2 : idx_main_v36 (idx_main_v79 (ix3 b j k)) = ix2 b j := funext fun a => by match a with | ⟨0, _⟩ => rfl | ⟨1, _⟩ => rfl
  have e3 : idx_main_v37 (idx_main_v80 (ix3 b j k)) = ix2 b k := funext fun a => by match a with | ⟨0, _⟩ => rfl | ⟨1, _⟩ => rfl
  have e4 : idx_main_v34 (idx_main_v82 (ix3 b j k)) = ix2 b j := funext fun a => by match a with | ⟨0, _⟩ => rfl | ⟨1, _⟩ => rfl
  simp only [val_main_v84_apply, val_main_v78_apply, val_main_v77_apply, val_main_v76_apply, val_main_v75_apply, val_main_v79_apply, val_main_v36_apply, val_main_v80_apply, val_main_v37_apply, val_main_v81_apply, val_main_v82_apply, val_main_v34_apply, val_main_v83_apply]
  simp only [e1, e2, e3, e4]
  rfl

end Cert.RefTrace
end
-- ==== Proof.KValue.lean ====
/-
  The idealized kernel's nine results as functions of the launch arguments.

  The run ends with every buffer at its W3 contents.  A result of the first region that the second region does not
  stage (the output, the new state, the two bias traces) is untouched by the second region and by the reshape, so
  it holds what the first region left: the body's value of the whole argument arrays, which is the reference's stage
  of those arguments.  The scalar mean is the reshape of the first region's 1 by 1 array.  A weight trace is the
  second region's output array: the trace update of the arrays that region finds, and those are the launch arguments
  (which no region and no host operation writes) and the first region's gate, derivative factors and difference.
-/
import proofs.«104354_j17927193494438_2_alg».proof.Proof.KRun
import proofs.«104354_j17927193494438_2_alg».proof.Proof.R0
import proofs.«104354_j17927193494438_2_alg».proof.Proof.R1
import proofs.«104354_j17927193494438_2_alg».proof.Proof.B0
import proofs.«104354_j17927193494438_2_alg».proof.Proof.Mean
import proofs.«104354_j17927193494438_2_alg».proof.Proof.RefTrace
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)
open Cert.ReferenceIdeal.Read

variable (m : (ℓ : Loc nD τ sig) → Buf (Elt Ideal) ℓ) (ρ : Dev nD → PrngReg)

/-! ## Through the reshape: it writes only the scalar mean -/

theorem host_v0_0 (c : Dev nD) : W2 m ρ c (Proc.devRef .tc main_v0_0) = W1 m ρ c (Proc.devRef .tc main_v0_0) :=
  StableHlo.after_of_forall_not_mem (b := Proc.devRef .tc main_v0_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_v0_1 (c : Dev nD) : W2 m ρ c (Proc.devRef .tc main_v0_1) = W1 m ρ c (Proc.devRef .tc main_v0_1) :=
  StableHlo.after_of_forall_not_mem (b := Proc.devRef .tc main_v0_1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_v0_2 (c : Dev nD) : W2 m ρ c (Proc.devRef .tc main_v0_2) = W1 m ρ c (Proc.devRef .tc main_v0_2) :=
  StableHlo.after_of_forall_not_mem (b := Proc.devRef .tc main_v0_2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_v0_3 (c : Dev nD) : W2 m ρ c (Proc.devRef .tc main_v0_3) = W1 m ρ c (Proc.devRef .tc main_v0_3) :=
  StableHlo.after_of_forall_not_mem (b := Proc.devRef .tc main_v0_3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_v0_4 (c : Dev nD) : W2 m ρ c (Proc.devRef .tc main_v0_4) = W1 m ρ c (Proc.devRef .tc main_v0_4) :=
  StableHlo.after_of_forall_not_mem (b := Proc.devRef .tc main_v0_4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_v0_5 (c : Dev nD) : W2 m ρ c (Proc.devRef .tc main_v0_5) = W1 m ρ c (Proc.devRef .tc main_v0_5) :=
  StableHlo.after_of_forall_not_mem (b := Proc.devRef .tc main_v0_5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_v0_7 (c : Dev nD) : W2 m ρ c (Proc.devRef .tc main_v0_7) = W1 m ρ c (Proc.devRef .tc main_v0_7) :=
  StableHlo.after_of_forall_not_mem (b := Proc.devRef .tc main_v0_7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_v0_8 (c : Dev nD) : W2 m ρ c (Proc.devRef .tc main_v0_8) = W1 m ρ c (Proc.devRef .tc main_v0_8) :=
  StableHlo.after_of_forall_not_mem (b := Proc.devRef .tc main_v0_8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem host_v1 (c : Dev nD) :
    W2 m ρ c (Proc.devRef .tc main_v1) = shapeCast S_ (W1 m ρ c (Proc.devRef .tc main_v0_6)) shapeCasts_S1x1_S_ := by
  show StableHlo.after hostOps1 (W1 m ρ c) (Proc.devRef .tc main_v1) = _
  after_results
  rfl

/-! ## What the first region leaves -/

theorem gate (c : Dev nD) : W1 m ρ c (Proc.devRef .tc main_v0_1) = (val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
  ((W1_arr m ρ c 17).trans (R0.final0_17 (V0 m ρ) c)).trans (Cert.Bridge0.g_eq _ _ _ _ _)

theorem dgate (c : Dev nD) : W1 m ρ c (Proc.devRef .tc main_v0_2) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ((W1_arr m ρ c 18).trans (R0.final0_18 (V0 m ρ) c)).trans
    ((congrArg (k0_pay10 (F := Ideal)) (Cert.Bridge0.g_eq _ _ _ _ _)).trans (Cert.Bridge0.dg_eq _ _ _ _ _))

theorem dcand (c : Dev nD) : W1 m ρ c (Proc.devRef .tc main_v0_3) = val_main_v32 (F := Ideal) (m ((c : Thread nD τ).loc main_arg0)) (m ((c : Thread nD τ).loc main_arg1)) (m ((c : Thread nD τ).loc main_arg5)) (m ((c : Thread nD τ).loc main_arg6)) (m ((c : Thread nD τ).loc main_arg7)) :=
  ((W1_arr m ρ c 19).trans (R0.final0_19 (V0 m ρ) c)).trans
    ((congrArg (k0_pay11 (F := Ideal)) (Cert.Bridge0.r_eq _ _ _ _ _)).trans (Cert.Bridge0.dr_eq _ _ _ _ _))

theorem diff (c : Dev nD) : W1 m ρ c (Proc.devRef .tc main_v0_4) = val_main_v33 (F := Ideal) (m ((c : Thread nD τ).loc main_arg0)) (m ((c : Thread nD τ).loc main_arg1)) (m ((c : Thread nD τ).loc main_arg5)) (m ((c : Thread nD τ).loc main_arg6)) (m ((c : Thread nD τ).loc main_arg7)) :=
  ((W1_arr m ρ c 20).trans (R0.final0_20 (V0 m ρ) c)).trans
    ((congrArg (k0_pay12 (F := Ideal) (m ((c : Thread nD τ).loc main_arg1))) (Cert.Bridge0.r_eq _ _ _ _ _)).trans (Cert.Bridge0.dlt_eq _ _ _ _ _))

theorem state (c : Dev nD) : W1 m ρ c (Proc.devRef .tc main_v0_0) = (val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  ((W1_arr m ρ c 16).trans (R0.final0_16 (V0 m ρ) c)).trans (Cert.Bridge0.h_eq _ _ _ _ _ _ _ _)

theorem output (c : Dev nD) : W1 m ρ c (Proc.devRef .tc main_v0_5)
    = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W1_arr m ρ c 21).trans (R0.final0_21 (V0 m ρ) c)).trans ?_
  show k0_pay1 (F := Ideal) (k0_pay4 (m ((c : Thread nD τ).loc main_arg13))) (k0_pay6 (m ((c : Thread nD τ).loc main_arg0))) (k0_pay16 (k0_pay8 (m ((c : Thread nD τ).loc main_arg0)) (m ((c : Thread nD τ).loc main_arg1)) (m ((c : Thread nD τ).loc main_arg4)) (m ((c : Thread nD τ).loc main_arg7)) (m ((c : Thread nD τ).loc main_arg2)) (m ((c : Thread nD τ).loc main_arg3)) (m ((c : Thread nD τ).loc main_arg5)) (m ((c : Thread nD τ).loc main_arg6))))
      (k0_pay17 (k0_pay3 (m ((c : Thread nD τ).loc main_arg10))) (k0_pay6 (m ((c : Thread nD τ).loc main_arg0))) (k0_pay8 (m ((c : Thread nD τ).loc main_arg0)) (m ((c : Thread nD τ).loc main_arg1)) (m ((c : Thread nD τ).loc main_arg4)) (m ((c : Thread nD τ).loc main_arg7)) (m ((c : Thread nD τ).loc main_arg2)) (m ((c : Thread nD τ).loc main_arg3)) (m ((c : Thread nD τ).loc main_arg5)) (m ((c : Thread nD τ).loc main_arg6))) (m ((c : Thread nD τ).loc main_arg8)) (m ((c : Thread nD τ).loc main_arg9))) (m ((c : Thread nD τ).loc main_arg11)) (m ((c : Thread nD τ).loc main_arg12)) = _
  rw [Cert.Bridge0.h_eq]
  exact Cert.Bridge0.out_eq _ _ _ _ _ _ _ _ _ _ _ _ _ _

theorem gbias (c : Dev nD) : W1 m ρ c (Proc.devRef .tc main_v0_7) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) := by
  refine ((W1_arr m ρ c 23).trans (R0.final0_23 (V0 m ρ) c)).trans ?_
  show k0_pay14 (F := Ideal) (m ((c : Thread nD τ).loc main_arg1)) (k0_pay5 (m ((c : Thread nD τ).loc main_arg0)) (m ((c : Thread nD τ).loc main_arg1)) (m ((c : Thread nD τ).loc main_arg4)) (m ((c : Thread nD τ).loc main_arg2)) (m ((c : Thread nD τ).loc main_arg3))) (k0_pay7 (m ((c : Thread nD τ).loc main_arg0)) (m ((c : Thread nD τ).loc main_arg1)) (m ((c : Thread nD τ).loc main_arg7)) (m ((c : Thread nD τ).loc main_arg5)) (m ((c : Thread nD τ).loc main_arg6))) (m ((c : Thread nD τ).loc main_arg16)) = _
  rw [Cert.Bridge0.g_eq, Cert.Bridge0.r_eq]
  exact Cert.Bridge0.ebg_eq _ _ _ _ _ _ _ _ _

theorem cbias (c : Dev nD) : W1 m ρ c (Proc.devRef .tc main_v0_8) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg19)) := by
  refine ((W1_arr m ρ c 24).trans (R0.final0_24 (V0 m ρ) c)).trans ?_
  show k0_pay15 (F := Ideal) (k0_pay5 (m ((c : Thread nD τ).loc main_arg0)) (m ((c : Thread nD τ).loc main_arg1)) (m ((c : Thread nD τ).loc main_arg4)) (m ((c : Thread nD τ).loc main_arg2)) (m ((c : Thread nD τ).loc main_arg3))) (k0_pay7 (m ((c : Thread nD τ).loc main_arg0)) (m ((c : Thread nD τ).loc main_arg1)) (m ((c : Thread nD τ).loc main_arg7)) (m ((c : Thread nD τ).loc main_arg5)) (m ((c : Thread nD τ).loc main_arg6))) (m ((c : Thread nD τ).loc main_arg19)) = _
  rw [Cert.Bridge0.g_eq, Cert.Bridge0.r_eq]
  exact Cert.Bridge0.ebr_eq _ _ _ _ _ _ _ _ _

/-- The 1 by 1 array: the kernel's mean of the open indicator. -/
theorem mean11 (c : Dev nD) : W1 m ρ c (Proc.devRef .tc main_v0_6) = k0_pay2 (F := Ideal) (val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine ((W1_arr m ρ c 22).trans (R0.final0_22 (V0 m ρ) c)).trans ?_
  show k0_pay2 (F := Ideal) (k0_pay9 (k0_pay5 (m ((c : Thread nD τ).loc main_arg0)) (m ((c : Thread nD τ).loc main_arg1)) (m ((c : Thread nD τ).loc main_arg4)) (m ((c : Thread nD τ).loc main_arg2)) (m ((c : Thread nD τ).loc main_arg3)))) = _
  rw [Cert.Bridge0.g_eq, Cert.Bridge0.open_eq]

/-! ## The nine results -/

theorem res_out (c : Dev nD) : W3 m ρ c (Proc.devRef .tc main_v0_5)
    = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  ((W3_of_ne m ρ c main_v0_5 (by decide)).trans (host_v0_5 m ρ c)).trans (output m ρ c)

theorem res_state (c : Dev nD) : W3 m ρ c (Proc.devRef .tc main_v0_0) = (val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  ((W3_of_ne m ρ c main_v0_0 (by decide)).trans (host_v0_0 m ρ c)).trans (state m ρ c)

theorem res_gbias (c : Dev nD) : W3 m ρ c (Proc.devRef .tc main_v0_7) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) :=
  ((W3_of_ne m ρ c main_v0_7 (by decide)).trans (host_v0_7 m ρ c)).trans (gbias m ρ c)

theorem res_cbias (c : Dev nD) : W3 m ρ c (Proc.devRef .tc main_v0_8) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg19)) :=
  ((W3_of_ne m ρ c main_v0_8 (by decide)).trans (host_v0_8 m ρ c)).trans (cbias m ρ c)

theorem res_mean (c : Dev nD) : W3 m ρ c (Proc.devRef .tc main_v1) = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W3_of_ne m ρ c main_v1 (by decide)).trans (host_v1 m ρ c)).trans ?_
  rw [mean11]
  funext i
  refine (shapeCast_apply _ shapeCasts_S1x1_S_ i (ix2 (0 : Fin 1) (0 : Fin 1)) (by
    rw [Shape.rowMajor_val_two]
    have h := (Shape.rowMajor S_ i).isLt
    have h1 : S_.numel = 1 := rfl
    show 0 * 1 + 0 = _
    omega)).trans ?_
  rw [Cert.Mean.kernel_mean, Cert.Mean.mean_law, val_main_v115_apply, val_main_v114_apply]
  rfl

/-! ## What the second region finds in its input arrays -/

theorem find_arg14 (c : Dev nD) : V2 m ρ c main_arg14 = m ((c : Thread nD τ).loc main_arg14) :=
  (((W3_arr m ρ c 0).trans (((dat1 (V2 m ρ) c).arrAt_in 0 rfl _).trans (A_eq1 (V2 m ρ) c 0))).symm).trans (W3_main_arg14 m ρ c)

theorem find_arg15 (c : Dev nD) : V2 m ρ c main_arg15 = m ((c : Thread nD τ).loc main_arg15) :=
  (((W3_arr m ρ c 1).trans (((dat1 (V2 m ρ) c).arrAt_in 1 rfl _).trans (A_eq1 (V2 m ρ) c 1))).symm).trans (W3_main_arg15 m ρ c)

theorem find_arg17 (c : Dev nD) : V2 m ρ c main_arg17 = m ((c : Thread nD τ).loc main_arg17) :=
  (((W3_arr m ρ c 2).trans (((dat1 (V2 m ρ) c).arrAt_in 2 rfl _).trans (A_eq1 (V2 m ρ) c 2))).symm).trans (W3_main_arg17 m ρ c)

theorem find_arg18 (c : Dev nD) : V2 m ρ c main_arg18 = m ((c : Thread nD τ).loc main_arg18) :=
  (((W3_arr m ρ c 3).trans (((dat1 (V2 m ρ) c).arrAt_in 3 rfl _).trans (A_eq1 (V2 m ρ) c 3))).symm).trans (W3_main_arg18 m ρ c)

theorem find_arg0 (c : Dev nD) : V2 m ρ c main_arg0 = m ((c : Thread nD τ).loc main_arg0) :=
  (((W3_arr m ρ c 4).trans (((dat1 (V2 m ρ) c).arrAt_in 4 rfl _).trans (A_eq1 (V2 m ρ) c 4))).symm).trans (W3_main_arg0 m ρ c)

theorem find_arg1 (c : Dev nD) : V2 m ρ c main_arg1 = m ((c : Thread nD τ).loc main_arg1) :=
  (((W3_arr m ρ c 5).trans (((dat1 (V2 m ρ) c).arrAt_in 5 rfl _).trans (A_eq1 (V2 m ρ) c 5))).symm).trans (W3_main_arg1 m ρ c)

theorem find_gate (c : Dev nD) : V2 m ρ c main_v0_1 = (val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := (host_v0_1 m ρ c).trans (gate m ρ c)
theorem find_dgate (c : Dev nD) : V2 m ρ c main_v0_2 = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (host_v0_2 m ρ c).trans (dgate m ρ c)
theorem find_dcand (c : Dev nD) : V2 m ρ c main_v0_3 = val_main_v32 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := (host_v0_3 m ρ c).trans (dcand m ρ c)
theorem find_diff (c : Dev nD) : V2 m ρ c main_v0_4 = val_main_v33 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := (host_v0_4 m ρ c).trans (diff m ρ c)

/-! ## The four weight traces -/

theorem res_gx (c : Dev nD) : W3 m ρ c (Proc.devRef .tc main_v2_0) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) := by
  refine ((W3_arr m ρ c 10).trans (R1.final1_10 (V2 m ρ) c)).trans ?_
  show R1.trace (V2 m ρ c main_arg14) (V2 m ρ c main_v0_1) (V2 m ρ c main_v0_2) (V2 m ρ c main_arg0) (V2 m ρ c main_v0_4) = _
  rw [find_arg14 m ρ c, find_gate m ρ c, find_dgate m ρ c, find_arg0 m ρ c, find_diff m ρ c]
  exact (Cert.RefTrace.gx_ref _ _ _ _ _ _ _ _ _).symm

theorem res_gh (c : Dev nD) : W3 m ρ c (Proc.devRef .tc main_v2_1) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg15)) := by
  refine ((W3_arr m ρ c 11).trans (R1.final1_11 (V2 m ρ) c)).trans ?_
  show R1.trace (V2 m ρ c main_arg15) (V2 m ρ c main_v0_1) (V2 m ρ c main_v0_2) (V2 m ρ c main_arg1) (V2 m ρ c main_v0_4) = _
  rw [find_arg15 m ρ c, find_gate m ρ c, find_dgate m ρ c, find_arg1 m ρ c, find_diff m ρ c]
  exact (Cert.RefTrace.gh_ref _ _ _ _ _ _ _ _ _).symm

theorem res_rx (c : Dev nD) : W3 m ρ c (Proc.devRef .tc main_v2_2) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) := by
  refine ((W3_arr m ρ c 12).trans (R1.final1_12 (V2 m ρ) c)).trans ?_
  show R1.trace (V2 m ρ c main_arg17) (V2 m ρ c main_v0_1) (V2 m ρ c main_v0_3) (V2 m ρ c main_arg0) (V2 m ρ c main_v0_1) = _
  rw [find_arg17 m ρ c, find_gate m ρ c, find_dcand m ρ c, find_arg0 m ρ c]
  exact (Cert.RefTrace.rx_ref _ _ _ _ _ _ _ _ _).symm

theorem res_rh (c : Dev nD) : W3 m ρ c (Proc.devRef .tc main_v2_3) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg18)) := by
  refine ((W3_arr m ρ c 13).trans (R1.final1_13 (V2 m ρ) c)).trans ?_
  show R1.trace (V2 m ρ c main_arg18) (V2 m ρ c main_v0_1) (V2 m ρ c main_v0_3) (V2 m ρ c main_arg1) (V2 m ρ c main_v0_1) = _
  rw [find_arg18 m ρ c, find_gate m ρ c, find_dcand m ρ c, find_arg1 m ρ c]
  exact (Cert.RefTrace.rh_ref _ _ _ _ _ _ _ _ _).symm

end Cert.KernelIdeal.KValue

end
-- ==== Proof.KResult.lean ====
/-
  The idealized kernel's run, read: every weakly fair execution terminates without a fault, each of the nine results
  holds the reference's stage of the launch arguments, and the arguments are unchanged.
-/
import proofs.«104354_j17927193494438_2_alg».proof.Proof.KValue

set_option maxRecDepth 16384

noncomputable section

namespace Cert.KernelIdeal.KResult

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v0_5) = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v0_0) = val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v2_0) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14))
      ∧ r.2.mem ((c.tc : Thread nD τ).loc main_v2_1) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg15))
      ∧ r.2.mem ((c.tc : Thread nD τ).loc main_v0_7) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg16))
      ∧ r.2.mem ((c.tc : Thread nD τ).loc main_v2_2) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg17))
      ∧ r.2.mem ((c.tc : Thread nD τ).loc main_v2_3) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg18))
      ∧ r.2.mem ((c.tc : Thread nD τ).loc main_v0_8) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg19))
      ∧ r.2.mem ((c.tc : Thread nD τ).loc main_v1) = val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c main_v0_5 (by decide)).trans (KValue.res_out m ρ c),
     (h c main_v0_0 (by decide)).trans (KValue.res_state m ρ c),
     (h c main_v2_0 (by decide)).trans (KValue.res_gx m ρ c),
     (h c main_v2_1 (by decide)).trans (KValue.res_gh m ρ c),
     (h c main_v0_7 (by decide)).trans (KValue.res_gbias m ρ c),
     (h c main_v2_2 (by decide)).trans (KValue.res_rx m ρ c),
     (h c main_v2_3 (by decide)).trans (KValue.res_rh m ρ c),
     (h c main_v0_8 (by decide)).trans (KValue.res_cbias m ρ c),
     (h c main_v1 (by decide)).trans (KValue.res_mean m ρ c),
     (h c main_arg0 (by decide)).trans (W3_main_arg0 m ρ c),
     (h c main_arg1 (by decide)).trans (W3_main_arg1 m ρ c),
     (h c main_arg2 (by decide)).trans (W3_main_arg2 m ρ c),
     (h c main_arg3 (by decide)).trans (W3_main_arg3 m ρ c),
     (h c main_arg4 (by decide)).trans (W3_main_arg4 m ρ c),
     (h c main_arg5 (by decide)).trans (W3_main_arg5 m ρ c),
     (h c main_arg6 (by decide)).trans (W3_main_arg6 m ρ c),
     (h c main_arg7 (by decide)).trans (W3_main_arg7 m ρ c),
     (h c main_arg8 (by decide)).trans (W3_main_arg8 m ρ c),
     (h c main_arg9 (by decide)).trans (W3_main_arg9 m ρ c),
     (h c main_arg10 (by decide)).trans (W3_main_arg10 m ρ c),
     (h c main_arg11 (by decide)).trans (W3_main_arg11 m ρ c),
     (h c main_arg12 (by decide)).trans (W3_main_arg12 m ρ c),
     (h c main_arg13 (by decide)).trans (W3_main_arg13 m ρ c),
     (h c main_arg14 (by decide)).trans (W3_main_arg14 m ρ c),
     (h c main_arg15 (by decide)).trans (W3_main_arg15 m ρ c),
     (h c main_arg16 (by decide)).trans (W3_main_arg16 m ρ c),
     (h c main_arg17 (by decide)).trans (W3_main_arg17 m ρ c),
     (h c main_arg18 (by decide)).trans (W3_main_arg18 m ρ c),
     (h c main_arg19 (by decide)).trans (W3_main_arg19 m ρ c)⟩)
    (Named.run_final m ρ)

end Cert.KernelIdeal.KResult

end
-- ==== Proof.lean ====
/-
  The certificate: a fused gated recurrent cell with eligibility-trace updates, two kernels against a jnp reference.

  The first kernel, on a one-point grid, computes from whole arrays the gate g = relu(tanh(x . Wgx^T + h . Wgh^T + bg)),
  the candidate r = tanh(x . Wrx^T + h . Wrh^T + br), the new state g r + (1 - g) h, the open indicator
  clip(ceil g, 0, 1) and its mean, the derivative factors (1 - g^2) open and 1 - r^2, the difference r - h, the two
  bias traces and the output sigmoid(..) tanh(..).  The second kernel, on a 16 by 4 grid of 8 by 128 by 512 blocks,
  updates the four weight traces as old (1 - g_j) + p_j u_i q_j.  The reference computes the same nine results with
  host operations on whole arrays.

  At the ideal instance the two programs are the same functions of the arguments: a product contracting the second
  axes of x and W is the product of x with the transposed W (one sum over k of x[i,k] W[j,k]); a change of float
  format is the identity; the sigmoid is 1 / (1 + exp(-x)) on both sides; the mean as a sum of row sums times 2^-16 is
  the full sum divided by 65536 (sums of extended reals commute and reassociate, and dividing by a nonzero real is
  multiplying by its inverse); and the blocks of the second kernel tile each trace array, every block the restriction
  of one index-by-index function.  No step uses finiteness of the inputs.  The ideal pass rewrote nothing, so
  "preserves" is the true proposition.  The three frames are the generated frame runs (the reference's: its generated
  run with the results dropped).
-/
import proofs.«104354_j17927193494438_2_alg».proof.Defs
import proofs.«104354_j17927193494438_2_alg».proof.Proof.Gen.Kernel
import proofs.«104354_j17927193494438_2_alg».proof.Proof.Gen.Kernel.Skeleton
import proofs.«104354_j17927193494438_2_alg».proof.Proof.Gen.Kernel.Launch
import proofs.«104354_j17927193494438_2_alg».proof.Proof.Gen.Kernel.Points
import proofs.«104354_j17927193494438_2_alg».proof.Proof.Gen.Kernel.Frame
import proofs.«104354_j17927193494438_2_alg».proof.Proof.Gen.KernelIdeal
import proofs.«104354_j17927193494438_2_alg».proof.Proof.Gen.KernelIdeal.Skeleton
import proofs.«104354_j17927193494438_2_alg».proof.Proof.Gen.KernelIdeal.Launch
import proofs.«104354_j17927193494438_2_alg».proof.Proof.Gen.KernelIdeal.Points
import proofs.«104354_j17927193494438_2_alg».proof.Proof.Gen.KernelIdeal.Frame
import proofs.«104354_j17927193494438_2_alg».proof.Proof.Gen.ReferenceIdeal
import proofs.«104354_j17927193494438_2_alg».proof.Proof.Gen.Pre_finite_inputs
import proofs.«104354_j17927193494438_2_alg».proof.Proof.Gen.ReferenceIdeal.Run
import proofs.«104354_j17927193494438_2_alg».proof.Proof.Gen.ReferenceIdeal.Read
import proofs.«104354_j17927193494438_2_alg».proof.Proof.KResult
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, keeping only that the arguments end unchanged. -/
theorem frame_ri : Cert.frame_ReferenceIdeal := fun m ρ _ =>
  (θ_run Cert.ReferenceIdeal.defs _ _).mono (fun _ h c => (h c).2.2.2.2.2.2.2.2.2) (Cert.ReferenceIdeal.Value.run (F := Ideal) m ρ)

theorem preserves : Cert.preserves_Kernel_KernelIdeal := trivial

set_option maxHeartbeats 1600000 in
/-- Both idealized programs run, from memories agreeing on the arguments, to the same nine results: each is the
    reference's stage of the (kernel's) arguments. -/
theorem algebraic : Cert.algebraic_KernelIdeal_ReferenceIdeal := by
  intro m ρ m' ρ' _ hagree
  refine ⟨_, _, _, _, _, _, _, _, _, Cert.KernelIdeal.KResult.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17, a18, a19⟩ := hagree c
  obtain ⟨r0, r1, r2, r3, r4, r5, r6, r7, r8, rest⟩ := h c
  refine ⟨?_, ?_, ?_, ?_, ?_, ?_, ?_, ?_, ?_, rest⟩
  · refine r0.trans ((Cert.ReferenceIdeal.Read.val_main_v113_eq m' c).trans ?_)
    rw [a0, a1, a2, a3, a4, a5, a6, a7, a8, a9, a10, a11, a12, a13]
  · refine r1.trans (((Cert.ReferenceIdeal.Read.val_main_v23_eq _ _ _ _ _ _ _ _)).trans ?_)
    rw [a0, a1, a2, a3, a4, a5, a6, a7]
  · refine r2.trans ((Cert.ReferenceIdeal.Read.val_main_v59_eq m' c).trans ?_)
    rw [a0, a1, a2, a3, a4, a5, a6, a7, a14]
  · refine r3.trans ((Cert.ReferenceIdeal.Read.val_main_v49_eq m' c).trans ?_)
    rw [a0, a1, a2, a3, a4, a5, a6, a7, a15]
  · refine r4.trans (((Cert.ReferenceIdeal.Read.val_main_v64_eq _ _ _ _ _ _ _ _ _)).trans ?_)
    rw [a0, a1, a2, a3, a4, a5, a6, a7, a16]
  · refine r5.trans (((Cert.ReferenceIdeal.Read.val_main_v84_eq _ _ _ _ _ _ _ _ _)).trans ?_)
    rw [a0, a1, a2, a3, a4, a5, a6, a7, a17]
  · refine r6.trans (((Cert.ReferenceIdeal.Read.val_main_v74_eq _ _ _ _ _ _ _ _ _)).trans ?_)
    rw [a0, a1, a2, a3, a4, a5, a6, a7, a18]
  · refine r7.trans (((Cert.ReferenceIdeal.Read.val_main_v89_eq _ _ _ _ _ _ _ _ _)).trans ?_)
    rw [a0, a1, a2, a3, a4, a5, a6, a7, a19]
  · refine r8.trans (((Cert.ReferenceIdeal.Read.val_main_v115_eq _ _ _ _ _)).trans ?_)
    rw [a0, a1, a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
